-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v4_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v4_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16x96 : Shape := ⟨3, ![16384, 16, 96]⟩
abbrev S245760x256 : Shape := ⟨2, ![245760, 256]⟩
abbrev S192x256 : Shape := ⟨2, ![192, 256]⟩
abbrev S256 : Shape := ⟨1, ![256]⟩
abbrev S256x768 : Shape := ⟨2, ![256, 768]⟩
abbrev S768 : Shape := ⟨1, ![768]⟩
abbrev S256x256 : Shape := ⟨2, ![256, 256]⟩
abbrev S_ : Shape := ⟨0, ![]⟩

class Facts : Prop where
  bcast_S_S16384x16x96 : S_.BroadcastsInDim S16384x16x96 (![] : Fin 0 → Fin S16384x16x96.rank)
  reducesTo_S16384x16x96_S_d0_1_2 : S16384x16x96.ReducesTo [0, 1, 2] S_
  h_S_ : 0 < S_.numel
  bcast_S_S245760x256 : S_.BroadcastsInDim S245760x256 (![] : Fin 0 → Fin S245760x256.rank)
  reducesTo_S245760x256_S_d0_1 : S245760x256.ReducesTo [0, 1] S_
  bcast_S_S192x256 : S_.BroadcastsInDim S192x256 (![] : Fin 0 → Fin S192x256.rank)
  reducesTo_S192x256_S_d0_1 : S192x256.ReducesTo [0, 1] S_
  bcast_S_S256 : S_.BroadcastsInDim S256 (![] : Fin 0 → Fin S256.rank)
  reducesTo_S256_S_d0 : S256.ReducesTo [0] S_
  bcast_S_S256x768 : S_.BroadcastsInDim S256x768 (![] : Fin 0 → Fin S256x768.rank)
  reducesTo_S256x768_S_d0_1 : S256x768.ReducesTo [0, 1] S_
  bcast_S_S768 : S_.BroadcastsInDim S768 (![] : Fin 0 → Fin S768.rank)
  reducesTo_S768_S_d0 : S768.ReducesTo [0] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg7 : FVec F S768 .f32) (main_arg8 : FVec F S256x256 .f32) (main_arg9 : FVec F S256 .f32) (main_v33 : IVec S_ 1) : IVec S_ 1 :=
  let main_v34 : FVec F S768 .f32 := Host.absf main_arg7
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg4 : FVec F S256x768 .f32) (main_arg5 : FVec F S256x768 .f32) (main_arg6 : FVec F S768 .f32) (main_arg7 : FVec F S768 .f32) (main_arg8 : FVec F S256x256 .f32) (main_arg9 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x768 .f32 := Host.absf main_arg4
  let main_cst_6 : FVec F S_ .f32 := constant S_ .f32 0x7F800000#32
  let main_v20 : FVec F S256x768 .f32 := broadcastInDim S256x768 ![] bcast_S_S256x768 main_cst_6
  let main_v21 : IVec S256x768 1 := cmpf .olt main_v19 main_v20
  let main_c_7 : IVec S_ 1 := constantI S_ 1 1#1
  let main_v22 : IVec S_ 1 := (fun x v => Host.reduce IntOp.andi x v reducesTo_S256x768_S_d0_1 h_S_) main_v21 main_c_7
  let main_v23 : IVec S_ 1 := andi main_v18 main_v22
  let main_v24 : FVec F S256x768 .f32 := Host.absf main_arg5
  let main_cst_8 : FVec F S_ .f32 := constant S_ .f32 0x7F800000#32
  let main_v25 : FVec F S256x768 .f32 := broadcastInDim S256x768 ![] bcast_S_S256x768 main_cst_8
  let main_v26 : IVec S256x768 1 := cmpf .olt main_v24 main_v25
  let main_c_9 : IVec S_ 1 := constantI S_ 1 1#1
  let main_v27 : IVec S_ 1 := (fun x v => Host.reduce IntOp.andi x v reducesTo_S256x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg7 main_arg8 main_arg9 main_v33

def fn {F : FTy → Type} [FloatOps F] (main_arg0 : FVec F S16384x16x96 .f32) (main_arg1 : FVec F S245760x256 .f32) (main_arg2 : FVec F S192x256 .f32) (main_arg3 : FVec F S256 .f32) (main_arg4 : FVec F S256x768 .f32) (main_arg5 : FVec F S256x768 .f32) (main_arg6 : FVec F S768 .f32) (main_arg7 : FVec F S768 .f32) (main_arg8 : FVec F S256x256 .f32) (main_arg9 : FVec F S256 .f32) : IVec S_ 1 :=
  let main_v0 : FVec F S16384x16x96 .f32 := Host.absf main_arg0
  let main_cst : FVec F S_ .f32 := constant S_ .f32 0x7F800000#32
  let main_v1 : FVec F S16384x16x96 .f32 := broadcastInDim S16384x16x96 ![] bcast_S_S16384x16x96 main_cst
  let main_v2 : IVec S16384x16x96 1 := cmpf .olt main_v0 main_v1
  let main_c : IVec S_ 1 := constantI S_ 1 1#1
  let main_v3 : IVec S_ 1 := (fun x v => Host.reduce IntOp.andi x v reducesTo_S16384x16x96_S_d0_1_2 h_S_) main_v2 main_c
  let main_v4 : FVec F S245760x256 .f32 := Host.absf main_arg1
  let main_cst_0 : FVec F S_ .f32 := constant S_ .f32 0x7F800000#32
  let main_v5 : FVec F S245760x256 .f32 := broadcastInDim S245760x256 ![] bcast_S_S245760x256 main_cst_0
  let main_v6 : IVec S245760x256 1 := cmpf .olt main_v4 main_v5
  let main_c_1 : IVec S_ 1 := constantI S_ 1 1#1
  let main_v7 : IVec S_ 1 := (fun x v => Host.reduce IntOp.andi x v reducesTo_S245760x256_S_d0_1 h_S_) main_v6 main_c_1
  let main_v8 : IVec S_ 1 := andi main_v3 main_v7
  let main_v9 : FVec F S192x256 .f32 := Host.absf main_arg2
  let main_cst_2 : FVec F S_ .f32 := constant S_ .f32 0x7F800000#32
  let main_v10 : FVec F S192x256 .f32 := broadcastInDim S192x256 ![] bcast_S_S192x256 main_cst_2
  let main_v11 : IVec S192x256 1 := cmpf .olt main_v9 main_v10
  let main_c_3 : IVec S_ 1 := constantI S_ 1 1#1
  let main_v12 : IVec S_ 1 := (fun x v => Host.reduce IntOp.andi x v reducesTo_S192x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S16384x16x96 : Shape := ⟨3, ![16384, 16, 96]⟩
abbrev S245760x256 : Shape := ⟨2, ![245760, 256]⟩
abbrev S192x256 : Shape := ⟨2, ![192, 256]⟩
abbrev S256 : Shape := ⟨1, ![256]⟩
abbrev S256x768 : Shape := ⟨2, ![256, 768]⟩
abbrev S768 : Shape := ⟨1, ![768]⟩
abbrev S256x256 : Shape := ⟨2, ![256, 256]⟩
abbrev S245760x32 : Shape := ⟨2, ![245760, 32]⟩
abbrev S64x16x96 : Shape := ⟨3, ![64, 16, 96]⟩
abbrev S960x256 : Shape := ⟨2, ![960, 256]⟩
abbrev S960x32 : Shape := ⟨2, ![960, 32]⟩
abbrev S64x1x96 : Shape := ⟨3, ![64, 1, 96]⟩
abbrev S64x96 : Shape := ⟨2, ![64, 96]⟩
abbrev S64x192 : Shape := ⟨2, ![64, 192]⟩
abbrev S64x1x192 : Shape := ⟨3, ![64, 1, 192]⟩
abbrev S64x15x192 : Shape := ⟨3, ![64, 15, 192]⟩
abbrev S960x192 : Shape := ⟨2, ![960, 192]⟩
abbrev S1x256 : Shape := ⟨2, ![1, 256]⟩
abbrev S960x768 : Shape := ⟨2, ![960, 768]⟩
abbrev S1x768 : Shape := ⟨2, ![1, 768]⟩
abbrev S960x16x16 : Shape := ⟨3, ![960, 16, 16]⟩
abbrev S960x16 : Shape := ⟨2, ![960, 16]⟩
abbrev S960x16x1 : Shape := ⟨3, ![960, 16, 1]⟩
abbrev S960x16x2 : Shape := ⟨3, ![960, 16, 2]⟩
abbrev S491520x16 : Shape := ⟨2, ![491520, 16]⟩
abbrev S32768x15x16 : Shape := ⟨3, ![32768, 15, 16]⟩
abbrev S15x256 : Shape := ⟨2, ![15, 256]⟩
abbrev S15x16x16 : Shape := ⟨3, ![15, 16, 16]⟩
abbrev S_ : Shape := ⟨0, ![]⟩
abbrev S15x16 : Shape := ⟨2, ![15, 16]⟩
abbrev S15x16x1 : Shape := ⟨3, ![15, 16, 1]⟩
abbrev S15x16x2 : Shape := ⟨3, ![15, 16, 2]⟩
abbrev S30x16 : Shape := ⟨2, ![30, 16]⟩
abbrev S2x15x16 : Shape := ⟨3, ![2, 15, 16]⟩
abbrev S1x14x16 : Shape := ⟨3, ![1, 14, 16]⟩
abbrev S14x16 : Shape := ⟨2, ![14, 16]⟩
abbrev S14 : Shape := ⟨1, ![14]⟩
abbrev S14x1 : Shape := ⟨2, ![14, 1]⟩
abbrev S16384x1x16 : Shape := ⟨3, ![16384, 1, 16]⟩
abbrev S16384x14x16 : Shape := ⟨3, ![16384, 14, 16]⟩
abbrev S16384x16x16 : Shape := ⟨3, ![16384, 16, 16]⟩

abbrev nBuf : Space → Nat
  | .hbm => 50
  | .vmem => 16
  | .smem => 0
  | _ => 0

abbrev bufTy : (tb : Table) → Fin (tcTables nBuf tb) → BufTy
  | .hbm, ⟨0, _⟩ => ⟨S16384x16x96, .f32⟩
  | .hbm, ⟨1, _⟩ => ⟨S245760x256, .f32⟩
  | .hbm, ⟨2, _⟩ => ⟨S192x256, .f32⟩
  | .hbm, ⟨3, _⟩ => ⟨S256, .f32⟩
  | .hbm, ⟨4, _⟩ => ⟨S256x768, .f32⟩
  | .hbm, ⟨5, _⟩ => ⟨S256x768, .f32⟩
  | .hbm, ⟨6, _⟩ => ⟨S768, .f32⟩
  | .hbm, ⟨7, _⟩ => ⟨S768, .f32⟩
  | .hbm, ⟨8, _⟩ => ⟨S256x256, .f32⟩
  | .hbm, ⟨9, _⟩ => ⟨S256, .f32⟩
  | .hbm, ⟨10, _⟩ => ⟨S192x256, .bf16⟩
  | .hbm, ⟨11, _⟩ => ⟨S256x768, .bf16⟩
  | .hbm, ⟨12, _⟩ => ⟨S256x768, .bf16⟩
  | .hbm, ⟨13, _⟩ => ⟨S256x256, .bf16⟩
  | .hbm, ⟨14, _⟩ => ⟨S245760x256, .f32⟩
  | .hbm, ⟨15, _⟩ => ⟨S245760x32, .f32⟩
  | .hbm, ⟨16, _⟩ => ⟨S491520x16, .f32⟩
  | .hbm, ⟨17, _⟩ => ⟨S32768x15x16, .f32⟩
  | .hbm, ⟨18, _⟩ => ⟨S15x256, .f32⟩
  | .hbm, ⟨19, _⟩ => ⟨S15x256, .f32⟩
  | .hbm, ⟨20, _⟩ => ⟨S1x256, .f32⟩
  | .hbm, ⟨21, _⟩ => ⟨S15x256, .f32⟩
  | .hbm, ⟨22, _⟩ => ⟨S15x256, .f32⟩
  | .hbm, ⟨23, _⟩ => ⟨S15x16x16, .f32⟩
  | .hbm, ⟨24, _⟩ => ⟨S_, .f32⟩
  | .hbm, ⟨25, _⟩ => ⟨S15x16, .f32⟩
  | .hbm, ⟨26, _⟩ => ⟨S_, .f32⟩
  | .hbm, ⟨27, _⟩ => ⟨S15x16, .f32⟩
  | .hbm, ⟨28, _⟩ => ⟨S15x16x1, .f32⟩
  | .hbm, ⟨29, _⟩ => ⟨S15x16x1, .f32⟩
  | .hbm, ⟨30, _⟩ => ⟨S15x16x2, .f32⟩
  | .hbm, ⟨31, _⟩ => ⟨S30x16, .f32⟩
  | .hbm, ⟨32, _⟩ => ⟨S2x15x16, .f32⟩
  | .hbm, ⟨33, _⟩ => ⟨S1x14x16, .f32⟩
  | .hbm, ⟨34, _⟩ => ⟨S14x16, .f32⟩
  | .hbm, ⟨35, _⟩ => ⟨S1x14x16, .f32⟩
  | .hbm, ⟨36, _⟩ => ⟨S14x16, .f32⟩
  | .hbm, ⟨37, _⟩ => ⟨S_, .f32⟩
  | .hbm, ⟨38, _⟩ => ⟨S14, .f32⟩
  | .hbm, ⟨39, _⟩ => ⟨S_, .f32⟩
  | .hbm, ⟨40, _⟩ => ⟨S14, .f32⟩
  | .hbm, ⟨41, _⟩ => ⟨S14, .i1⟩
  | .hbm, ⟨42, _⟩ => ⟨S14x1, .i1⟩
  | .hbm, ⟨43, _⟩ => ⟨S14x16, .i1⟩
  | .hbm, ⟨44, _⟩ => ⟨S14x16, .f32⟩
  | .hbm, ⟨45, _⟩ => ⟨S16384x1x16, .f32⟩
  | .hbm, ⟨46, _⟩ => ⟨S1x14x16, .f32⟩
  | .hbm, ⟨47, _⟩ => ⟨S16384x14x16, .f32⟩
  | .hbm, ⟨48, _⟩ => ⟨S16384x1x16, .f32⟩
  | .hbm, ⟨49, _⟩ => ⟨S16384x16x16, .f32⟩
  | .local _ .vmem, ⟨0, _⟩ => ⟨S64x16x96, .f32⟩
  | .local _ .vmem, ⟨1, _⟩ => ⟨S64x16x96, .f32⟩
  | .local _ .vmem, ⟨2, _⟩ => ⟨S960x256, .f32⟩
  | .local _ .vmem, ⟨3, _⟩ => ⟨S960x256, .f32⟩
  | .local _ .vmem, ⟨4, _⟩ => ⟨S192x256, .bf16⟩
  | .local _ .vmem, ⟨5, _⟩ => ⟨S256, .f32⟩
  | .local _ .vmem, ⟨6, _⟩ => ⟨S256x768, .bf16⟩
  | .local _ .vmem, ⟨7, _⟩ => ⟨S768, .f32⟩
  | .local _ .vmem, ⟨8, _⟩ => ⟨S256x768, .bf16⟩
  | .local _ .vmem, ⟨9, _⟩ => ⟨S768, .f32⟩
  | .local _ .vmem, ⟨10, _⟩ => ⟨S256x256, .bf16⟩
  | .local _ .vmem, ⟨11, _⟩ => ⟨S256, .f32⟩
  | .local _ .vmem, ⟨12, _⟩ => ⟨S960x256, .f32⟩
  | .local _ .vmem, ⟨13, _⟩ => ⟨S960x256, .f32⟩
  | .local _ .vmem, ⟨14, _⟩ => ⟨S960x32, .f32⟩
  | .local _ .vmem, ⟨15, _⟩ => ⟨S960x32, .f32⟩
  | _, _ => ⟨S16384x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call0_v0 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x16x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S960x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S192x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S960x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S960x32 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  inb_S64x16x96_S64x16x96_0_0_0 : ∀ a, (![0, 0, 0] : Fin 3 → Nat) a + S64x16x96.size a ≤ S64x16x96.size a
  h_S64x16x96 : 0 < S64x16x96.numel
  slices_S64x16x96_o0_0_0_S64x1x96 : S64x16x96.Slices ![0, 0, 0] S64x1x96
  shapeCasts_S64x1x96_S64x96 : S64x1x96.ShapeCasts S64x96
  slices_S64x16x96_o0_1_0_S64x1x96 : S64x16x96.Slices ![0, 1, 0] S64x1x96
  concatenates_S64x96_S64x96_S64x192_d1 : Shape.Concatenates [S64x96, S64x96] S64x192 1
  slices_S64x16x96_o0_2_0_S64x1x96 : S64x16x96.Slices ![0, 2, 0] S64x1x96
  slices_S64x16x96_o0_3_0_S64x1x96 : S64x16x96.Slices ![0, 3, 0] S64x1x96
  slices_S64x16x96_o0_4_0_S64x1x96 : S64x16x96.Slices ![0, 4, 0] S64x1x96
  slices_S64x16x96_o0_5_0_S64x1x96 : S64x16x96.Slices ![0, 5, 0] S64x1x96
  slices_S64x16x96_o0_6_0_S64x1x96 : S64x16x96.Slices ![0, 6, 0] S64x1x96
  slices_S64x16x96_o0_7_0_S64x1x96 : S64x16x96.Slices ![0, 7, 0] S64x1x96
  slices_S64x16x96_o0_8_0_S64x1x96 : S64x16x96.Slices ![0, 8, 0] S64x1x96
  slices_S64x16x96_o0_9_0_S64x1x96 : S64x16x96.Slices ![0, 9, 0] S64x1x96
  slices_S64x16x96_o0_10_0_S64x1x96 : S64x16x96.Slices ![0, 10, 0] S64x1x96
  slices_S64x16x96_o0_11_0_S64x1x96 : S64x16x96.Slices ![0, 11, 0] S64x1x96
  slices_S64x16x96_o0_12_0_S64x1x96 : S64x16x96.Slices ![0, 12, 0] S64x1x96
  slices_S64x16x96_o0_13_0_S64x1x96 : S64x16x96.Slices ![0, 13, 0] S64x1x96
  slices_S64x16x96_o0_14_0_S64x1x96 : S64x16x96.Slices ![0, 14, 0] S64x1x96
  slices_S64x16x96_o0_15_0_S64x1x96 : S64x16x96.Slices ![0, 15, 0] S64x1x96
  shapeCasts_S64x192_S64x1x192 : S64x192.ShapeCasts S64x1x192
  concatenates_S64x1x192_S64x1x192_S64x1x192_S64x1x192_S64x1x192_S64x1x192_S64x1x192_S64x1x192_S64x1x192_S64x1x192_S64x1x192_S64x1x192_S64x1x192_S64x1x192_S64x1x192_S64x15x192_d1 : Shape.Concatenates [S64x1x192, S64x1x192, S64x1x192, S64x1x192, S64x1x192, S64x1x192, S64x1x192, S64x1x192, S64x1x192, S64x1x192, S64x1x192, S64x1x192, S64x1x192, S64x1x192, S64x1x192] S64x15x192 1
  shapeCasts_S64x15x192_S960x192 : S64x15x192.ShapeCasts S960x192
  inb_S192x256_S192x256_0_0 : ∀ a, (![0, 0] : Fin 2 → Nat) a + S192x256.size a ≤ S192x256.size a
  h_S192x256 : 0 < S192x256.numel
  shapeCasts_S192x256_S192x256 : S192x256.ShapeCasts S192x256
  inb_S256_S256_0 : ∀ a, (![0] : Fin 1 → Nat) a + S256.size a ≤ S256.size a
  h_S256 : 0 < S256.numel
  shapeCasts_S256_S1x256 : S256.ShapeCasts S1x256
  broadcasts_S1x256_S960x256 : S1x256.Broadcasts S960x256
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S768_S768_0 : ∀ a, (![0] : Fin 1 → Nat) a + S768.size a ≤ S768.size a
  h_S768 : 0 < S768.numel
  shapeCasts_S768_S1x768 : S768.ShapeCasts S1x768
  broadcasts_S1x768_S960x768 : S1x768.Broadcasts S960x768
  inb_S960x256_S960x256_0_0 : ∀ a, (![0, 0] : Fin 2 → Nat) a + S960x256.size a ≤ S960x256.size a
  h_S960x256 : 0 < S960x256.numel
  slices_S960x768_o0_0_S960x256 : S960x768.Slices ![0, 0] S960x256
  slices_S960x768_o0_256_S960x256 : S960x768.Slices ![0, 256] S960x256
  slices_S960x768_o0_512_S960x256 : S960x768.Slices ![0, 512] S960x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S960x256_S960x16x16 : S960x256.ShapeCasts S960x16x16
  reduces_S960x16x16_S960x16 : S960x16x16.Reduces [2] S960x16
  reduces_S960x16x16_S960x16_2 : S960x16x16.Reduces [1] S960x16
  shapeCasts_S960x16_S960x16x1 : S960x16.ShapeCasts S960x16x1
  concatenates_S960x16x1_S960x16x1_S960x16x2_d2 : Shape.Concatenates [S960x16x1, S960x16x1] S960x16x2 2
  shapeCasts_S960x16x2_S960x32 : S960x16x2.ShapeCasts S960x32
  inb_S960x32_S960x32_0_0 : ∀ a, (![0, 0] : Fin 2 → Nat) a + S960x32.size a ≤ S960x32.size a
  h_S960x32 : 0 < S960x32.numel
  shapeCasts_S245760x32_S491520x16 : S245760x32.ShapeCasts S491520x16
  shapeCasts_S491520x16_S32768x15x16 : S491520x16.ShapeCasts S32768x15x16
  slices_S245760x256_S15x256_0_0 : S245760x256.Slices ![0, 0] S15x256
  bcast_S256_S1x256_1 : S256.BroadcastsInDim S1x256 (![1] : Fin 1 → Fin S1x256.rank)
  bcast_S1x256_S15x256_0_1 : S1x256.BroadcastsInDim S15x256 (![0, 1] : Fin 2 → Fin S15x256.rank)
  shapeCasts_S15x256_S15x16x16 : S15x256.ShapeCasts S15x16x16
  reducesTo_S15x16x16_S15x16_d2 : S15x16x16.ReducesTo [2] S15x16
  h_S_ : 0 < S_.numel
  reducesTo_S15x16x16_S15x16_d1 : S15x16x16.ReducesTo [1] S15x16
  bcast_S15x16_S15x16x1_0_1 : S15x16.BroadcastsInDim S15x16x1 (![0, 1] : Fin 2 → Fin S15x16x1.rank)
  concatenates_S15x16x1_S15x16x1_S15x16x2_d2 : Shape.Concatenates [S15x16x1, S15x16x1] S15x16x2 2
  shapeCasts_S15x16x2_S30x16 : S15x16x2.ShapeCasts S30x16
  shapeCasts_S30x16_S2x15x16 : S30x16.ShapeCasts S2x15x16
  slices_S2x15x16_S1x14x16_0_1_0 : S2x15x16.Slices ![0, 1, 0] S1x14x16
  shapeCasts_S1x14x16_S14x16 : S1x14x16.ShapeCasts S14x16
  slices_S2x15x16_S1x14x16_1_0_0 : S2x15x16.Slices ![1, 0, 0] S1x14x16
  reducesTo_S14x16_S14_d1 : S14x16.ReducesTo [1] S14
  bcast_S14_S14x1_0 : S14.BroadcastsInDim S14x1 (![0] : Fin 1 → Fin S14x1.rank)
  bcast_S14x1_S14x16_0_1 : S14x1.BroadcastsInDim S14x16 (![0, 1] : Fin 2 → Fin S14x16.rank)
  slices_S32768x15x16_S16384x1x16_0_0_0 : S32768x15x16.Slices ![0, 0, 0] S16384x1x16
  bcast_S14x16_S1x14x16_1_2 : S14x16.BroadcastsInDim S1x14x16 (![1, 2] : Fin 2 → Fin S1x14x16.rank)
  bcast_S1x14x16_S16384x14x16_0_1_2 : S1x14x16.BroadcastsInDim S16384x14x16 (![0, 1, 2] : Fin 3 → Fin S16384x14x16.rank)
  slices_S32768x15x16_S16384x1x16_0_14_0 : S32768x15x16.Slices ![0, 14, 0] S16384x1x16
  concatenates_S16384x1x16_S16384x14x16_S16384x1x16_S16384x16x16_d1 : Shape.Concatenates [S16384x1x16, S16384x14x16, S16384x1x16] S16384x16x16 1
  dot_S960x192_S192x256_S960x256_1_0_0_1_n_n_wf : DotDims.WF S960x192 S192x256 S960x256 [1] [0] [0] [1] [] []
  dot_S960x256_S256x768_S960x768_1_0_0_1_n_n_wf : DotDims.WF S960x256 S256x768 S960x768 [1] [0] [0] [1] [] []
  dot_S960x256_S256x256_S960x256_1_0_0_1_n_n_wf : DotDims.WF S960x256 S256x256 S960x256 [1] [0] [0] [1] [] []
  dot_S15x256_S256x256_S15x256_1_0_0_1_n_n_wf : DotDims.WF S15x256 S256x256 S15x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x16x96.size a ≤ S16384x16x96.size a
  hwx0_0 : ∀ i : grid0.Coords, EltTy.bits .f32 = 32 ∨ (Rect.block (s := S16384x16x96) S64x16x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S960x256.size a ≤ S245760x256.size a
  hwx0_1 : ∀ i : grid0.Coords, EltTy.bits .f32 = 32 ∨ (Rect.block (s := S245760x256) S960x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S192x256.size a ≤ S192x256.size a
  hwx0_2 : ∀ i : grid0.Coords, EltTy.bits .bf16 = 32 ∨ (Rect.block (s := S192x256) S192x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x768.size a ≤ S256x768.size a
  hwx0_4 : ∀ i : grid0.Coords, EltTy.bits .bf16 = 32 ∨ (Rect.block (s := S256x768) S256x768.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768.size a ≤ S768.size a
  hwx0_5 : ∀ i : grid0.Coords, EltTy.bits .f32 = 32 ∨ (Rect.block (s := S768) S768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x768.size a ≤ S256x768.size a
  hwx0_6 : ∀ i : grid0.Coords, EltTy.bits .bf16 = 32 ∨ (Rect.block (s := S256x768) S256x768.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S768.size a ≤ S768.size a
  hwx0_7 : ∀ i : grid0.Coords, EltTy.bits .f32 = 32 ∨ (Rect.block (s := S768) S768.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .bf16 = 32 ∨ (Rect.block (s := S256x256) S256x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S960x256.size a ≤ S245760x256.size a
  hwx0_10 : ∀ i : grid0.Coords, EltTy.bits .f32 = 32 ∨ (Rect.block (s := S245760x256) S960x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S960x32.size a ≤ S245760x32.size a
  hwx0_11 : ∀ i : grid0.Coords, EltTy.bits .f32 = 32 ∨ (Rect.block (s := S245760x32) S960x32.size (cc0_transform_11 i) (hinb0_11 i)).WholeWords (EltTy.packing .f32)

variable [Facts₀]

def dot_S960x192_S192x256_S960x256_1_0_0_1_n_n : DotDims S960x192 S192x256 S960x256 where
  lhsContracting := [1]
  rhsContracting := [0]
  lhsNonContracting := [0]
  rhsNonContracting := [1]
  lhsBatch := []
  rhsBatch := []
  wf := dot_S960x192_S192x256_S960x256_1_0_0_1_n_n_wf
def dot_S960x256_S256x768_S960x768_1_0_0_1_n_n : DotDims S960x256 S256x768 S960x768 where
  lhsContracting := [1]
  rhsContracting := [0]
  lhsNonContracting := [0]
  rhsNonContracting := [1]
  lhsBatch := []
  rhsBatch := []
  wf := dot_S960x256_S256x768_S960x768_1_0_0_1_n_n_wf
def dot_S960x256_S256x256_S960x256_1_0_0_1_n_n : DotDims S960x256 S256x256 S960x256 where
  lhsContracting := [1]
  rhsContracting := [0]
  lhsNonContracting := [0]
  rhsNonContracting := [1]
  lhsBatch := []
  rhsBatch := []
  wf := dot_S960x256_S256x256_S960x256_1_0_0_1_n_n_wf
def dot_S15x256_S256x256_S15x256_1_0_0_1_n_n : DotDims S15x256 S256x256 S15x256 where
  lhsContracting := [1]
  rhsContracting := [0]
  lhsNonContracting := [0]
  rhsNonContracting := [1]
  lhsBatch := []
  rhsBatch := []
  wf := dot_S15x256_S256x256_S15x256_1_0_0_1_n_n_wf

abbrev win0_0 : Pipeline.Window sig grid0 :=
  Pipeline.Window.ofSpec (Memref.whole main_arg0) S64x16x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S960x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S192x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S256x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4_0) S960x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v4_1) S960x32.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S16384x16x96 : Shape := ⟨3, ![16384, 16, 96]⟩
abbrev S245760x256 : Shape := ⟨2, ![245760, 256]⟩
abbrev S192x256 : Shape := ⟨2, ![192, 256]⟩
abbrev S256 : Shape := ⟨1, ![256]⟩
abbrev S256x768 : Shape := ⟨2, ![256, 768]⟩
abbrev S768 : Shape := ⟨1, ![768]⟩
abbrev S256x256 : Shape := ⟨2, ![256, 256]⟩
abbrev S16384x15x96 : Shape := ⟨3, ![16384, 15, 96]⟩
abbrev S16384x1x15x96 : Shape := ⟨4, ![16384, 1, 15, 96]⟩
abbrev S16384x2x15x96 : Shape := ⟨4, ![16384, 2, 15, 96]⟩
abbrev S245760x192 : Shape := ⟨2, ![245760, 192]⟩
abbrev S1x256 : Shape := ⟨2, ![1, 256]⟩
abbrev S_ : Shape := ⟨0, ![]⟩
abbrev S245760x768 : Shape := ⟨2, ![245760, 768]⟩
abbrev S1x768 : Shape := ⟨2, ![1, 768]⟩
abbrev S245760x16x16 : Shape := ⟨3, ![245760, 16, 16]⟩
abbrev S245760x16 : Shape := ⟨2, ![245760, 16]⟩
abbrev S245760x16x1 : Shape := ⟨3, ![245760, 16, 1]⟩
abbrev S245760x16x2 : Shape := ⟨3, ![245760, 16, 2]⟩
abbrev S491520x16 : Shape := ⟨2, ![491520, 16]⟩
abbrev S32768x15x16 : Shape := ⟨3, ![32768, 15, 16]⟩
abbrev S1x14x16 : Shape := ⟨3, ![1, 14, 16]⟩
abbrev S14x16 : Shape := ⟨2, ![14, 16]⟩
abbrev S14 : Shape := ⟨1, ![14]⟩
abbrev S14x1 : Shape := ⟨2, ![14, 1]⟩
abbrev S16384x1x16 : Shape := ⟨3, ![16384, 1, 16]⟩
abbrev S16384x14x16 : Shape := ⟨3, ![16384, 14, 16]⟩
abbrev S16384x16x16 : Shape := ⟨3, ![16384, 16, 16]⟩

abbrev nBuf : Space → Nat
  | .hbm => 95
  | .vmem => 0
  | .smem => 0
  | _ => 0

abbrev bufTy : (tb : Table) → Fin (tcTables nBuf tb) → BufTy
  | .hbm, ⟨0, _⟩ => ⟨S16384x16x96, .f32⟩
  | .hbm, ⟨1, _⟩ => ⟨S245760x256, .f32⟩
  | .hbm, ⟨2, _⟩ => ⟨S192x256, .f32⟩
  | .hbm, ⟨3, _⟩ => ⟨S256, .f32⟩
  | .hbm, ⟨4, _⟩ => ⟨S256x768, .f32⟩
  | .hbm, ⟨5, _⟩ => ⟨S256x768, .f32⟩
  | .hbm, ⟨6, _⟩ => ⟨S768, .f32⟩
  | .hbm, ⟨7, _⟩ => ⟨S768, .f32⟩
  | .hbm, ⟨8, _⟩ => ⟨S256x256, .f32⟩
  | .hbm, ⟨9, _⟩ => ⟨S256, .f32⟩
  | .hbm, ⟨10, _⟩ => ⟨S16384x15x96, .f32⟩
  | .hbm, ⟨11, _⟩ => ⟨S16384x15x96, .f32⟩
  | .hbm, ⟨12, _⟩ => ⟨S16384x1x15x96, .f32⟩
  | .hbm, ⟨13, _⟩ => ⟨S16384x1x15x96, .f32⟩
  | .hbm, ⟨14, _⟩ => ⟨S16384x2x15x96, .f32⟩
  | .hbm, ⟨15, _⟩ => ⟨S245760x192, .f32⟩
  | .hbm, ⟨16, _⟩ => ⟨S245760x256, .f32⟩
  | .hbm, ⟨17, _⟩ => ⟨S1x256, .f32⟩
  | .hbm, ⟨18, _⟩ => ⟨S245760x256, .f32⟩
  | .hbm, ⟨19, _⟩ => ⟨S245760x256, .f32⟩
  | .hbm, ⟨20, _⟩ => ⟨S_, .f32⟩
  | .hbm, ⟨21, _⟩ => ⟨S245760x256, .f32⟩
  | .hbm, ⟨22, _⟩ => ⟨S245760x256, .f32⟩
  | .hbm, ⟨23, _⟩ => ⟨S245760x768, .f32⟩
  | .hbm, ⟨24, _⟩ => ⟨S1x768, .f32⟩
  | .hbm, ⟨25, _⟩ => ⟨S245760x768, .f32⟩
  | .hbm, ⟨26, _⟩ => ⟨S245760x768, .f32⟩
  | .hbm, ⟨27, _⟩ => ⟨S245760x768, .f32⟩
  | .hbm, ⟨28, _⟩ => ⟨S1x768, .f32⟩
  | .hbm, ⟨29, _⟩ => ⟨S245760x768, .f32⟩
  | .hbm, ⟨30, _⟩ => ⟨S245760x768, .f32⟩
  | .hbm, ⟨31, _⟩ => ⟨S245760x256, .f32⟩
  | .hbm, ⟨32, _⟩ => ⟨S245760x256, .f32⟩
  | .hbm, ⟨33, _⟩ => ⟨S245760x256, .f32⟩
  | .hbm, ⟨34, _⟩ => ⟨S245760x256, .f32⟩
  | .hbm, ⟨35, _⟩ => ⟨S245760x256, .f32⟩
  | .hbm, ⟨36, _⟩ => ⟨S245760x256, .f32⟩
  | .hbm, ⟨37, _⟩ => ⟨S245760x256, .f32⟩
  | .hbm, ⟨38, _⟩ => ⟨S245760x256, .f32⟩
  | .hbm, ⟨39, _⟩ => ⟨S245760x256, .f32⟩
  | .hbm, ⟨40, _⟩ => ⟨S_, .f32⟩
  | .hbm, ⟨41, _⟩ => ⟨S245760x256, .f32⟩
  | .hbm, ⟨42, _⟩ => ⟨S245760x256, .f32⟩
  | .hbm, ⟨43, _⟩ => ⟨S_, .f32⟩
  | .hbm, ⟨44, _⟩ => ⟨S245760x256, .f32⟩
  | .hbm, ⟨45, _⟩ => ⟨S245760x256, .f32⟩
  | .hbm, ⟨46, _⟩ => ⟨S245760x256, .f32⟩
  | .hbm, ⟨47, _⟩ => ⟨S245760x256, .f32⟩
  | .hbm, ⟨48, _⟩ => ⟨S245760x256, .f32⟩
  | .hbm, ⟨49, _⟩ => ⟨S_, .f32⟩
  | .hbm, ⟨50, _⟩ => ⟨S245760x256, .f32⟩
  | .hbm, ⟨51, _⟩ => ⟨S245760x256, .f32⟩
  | .hbm, ⟨52, _⟩ => ⟨S_, .f32⟩
  | .hbm, ⟨53, _⟩ => ⟨S245760x256, .f32⟩
  | .hbm, ⟨54, _⟩ => ⟨S245760x256, .f32⟩
  | .hbm, ⟨55, _⟩ => ⟨S245760x256, .f32⟩
  | .hbm, ⟨56, _⟩ => ⟨S245760x256, .f32⟩
  | .hbm, ⟨57, _⟩ => ⟨S245760x256, .f32⟩
  | .hbm, ⟨58, _⟩ => ⟨S_, .f32⟩
  | .hbm, ⟨59, _⟩ => ⟨S245760x256, .f32⟩
  | .hbm, ⟨60, _⟩ => ⟨S245760x256, .f32⟩
  | .hbm, ⟨61, _⟩ => ⟨S245760x256, .f32⟩
  | .hbm, ⟨62, _⟩ => ⟨S245760x256, .f32⟩
  | .hbm, ⟨63, _⟩ => ⟨S245760x256, .f32⟩
  | .hbm, ⟨64, _⟩ => ⟨S245760x256, .f32⟩
  | .hbm, ⟨65, _⟩ => ⟨S1x256, .f32⟩
  | .hbm, ⟨66, _⟩ => ⟨S245760x256, .f32⟩
  | .hbm, ⟨67, _⟩ => ⟨S245760x256, .f32⟩
  | .hbm, ⟨68, _⟩ => ⟨S245760x16x16, .f32⟩
  | .hbm, ⟨69, _⟩ => ⟨S_, .f32⟩
  | .hbm, ⟨70, _⟩ => ⟨S245760x16, .f32⟩
  | .hbm, ⟨71, _⟩ => ⟨S_, .f32⟩
  | .hbm, ⟨72, _⟩ => ⟨S245760x16, .f32⟩
  | .hbm, ⟨73, _⟩ => ⟨S245760x16x1, .f32⟩
  | .hbm, ⟨74, _⟩ => ⟨S245760x16x1, .f32⟩
  | .hbm, ⟨75, _⟩ => ⟨S245760x16x2, .f32⟩
  | .hbm, ⟨76, _⟩ => ⟨S491520x16, .f32⟩
  | .hbm, ⟨77, _⟩ => ⟨S32768x15x16, .f32⟩
  | .hbm, ⟨78, _⟩ => ⟨S1x14x16, .f32⟩
  | .hbm, ⟨79, _⟩ => ⟨S14x16, .f32⟩
  | .hbm, ⟨80, _⟩ => ⟨S1x14x16, .f32⟩
  | .hbm, ⟨81, _⟩ => ⟨S14x16, .f32⟩
  | .hbm, ⟨82, _⟩ => ⟨S_, .f32⟩
  | .hbm, ⟨83, _⟩ => ⟨S14, .f32⟩
  | .hbm, ⟨84, _⟩ => ⟨S_, .f32⟩
  | .hbm, ⟨85, _⟩ => ⟨S14, .f32⟩
  | .hbm, ⟨86, _⟩ => ⟨S14, .i1⟩
  | .hbm, ⟨87, _⟩ => ⟨S14x1, .i1⟩
  | .hbm, ⟨88, _⟩ => ⟨S14x16, .i1⟩
  | .hbm, ⟨89, _⟩ => ⟨S14x16, .f32⟩
  | .hbm, ⟨90, _⟩ => ⟨S16384x1x16, .f32⟩
  | .hbm, ⟨91, _⟩ => ⟨S1x14x16, .f32⟩
  | .hbm, ⟨92, _⟩ => ⟨S16384x14x16, .f32⟩
  | .hbm, ⟨93, _⟩ => ⟨S16384x1x16, .f32⟩
  | .hbm, ⟨94, _⟩ => ⟨S16384x16x16, .f32⟩
  | _, _ => ⟨S16384x16x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call0_cst : Ref sig .tc := ⟨.hbm, 20, rfl⟩
abbrev main_call0_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst : Ref sig .tc := ⟨.hbm, 40, rfl⟩
abbrev main_v28 : Ref sig .tc := ⟨.hbm, 41, rfl⟩
abbrev main_v29 : Ref sig .tc := ⟨.hbm, 42, rfl⟩
abbrev main_cst_0 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_1 : Ref sig .tc := ⟨.hbm, 49, rfl⟩
abbrev main_v35 : Ref sig .tc := ⟨.hbm, 50, rfl⟩
abbrev main_v36 : Ref sig .tc := ⟨.hbm, 51, rfl⟩
abbrev main_cst_2 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_3 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_4 : Ref sig .tc := ⟨.hbm, 69, rfl⟩
abbrev main_v52 : Ref sig .tc := ⟨.hbm, 70, rfl⟩
abbrev main_cst_5 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_6 : Ref sig .tc := ⟨.hbm, 82, rfl⟩
abbrev main_v63 : Ref sig .tc := ⟨.hbm, 83, rfl⟩
abbrev main_cst_7 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_call1_v0 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩

abbrev nD : Nat := 1
abbrev τ : Topo := Topo.v7x

variable {F : FTy → Type} [FloatOps F]

class Facts₀ : Prop where
  slices_S16384x16x96_S16384x15x96_0_0_0 : S16384x16x96.Slices ![0, 0, 0] S16384x15x96
  slices_S16384x16x96_S16384x15x96_0_1_0 : S16384x16x96.Slices ![0, 1, 0] S16384x15x96
  bcast_S16384x15x96_S16384x1x15x96_0_2_3 : S16384x15x96.BroadcastsInDim S16384x1x15x96 (![0, 2, 3] : Fin 3 → Fin S16384x1x15x96.rank)
  concatenates_S16384x1x15x96_S16384x1x15x96_S16384x2x15x96_d1 : Shape.Concatenates [S16384x1x15x96, S16384x1x15x96] S16384x2x15x96 1
  shapeCasts_S16384x2x15x96_S245760x192 : S16384x2x15x96.ShapeCasts S245760x192
  bcast_S256_S1x256_1 : S256.BroadcastsInDim S1x256 (![1] : Fin 1 → Fin S1x256.rank)
  bcast_S1x256_S245760x256_0_1 : S1x256.BroadcastsInDim S245760x256 (![0, 1] : Fin 2 → Fin S245760x256.rank)
  bcast_S_S245760x256 : S_.BroadcastsInDim S245760x256 (![] : Fin 0 → Fin S245760x256.rank)
  bcast_S768_S1x768_1 : S768.BroadcastsInDim S1x768 (![1] : Fin 1 → Fin S1x768.rank)
  bcast_S1x768_S245760x768_0_1 : S1x768.BroadcastsInDim S245760x768 (![0, 1] : Fin 2 → Fin S245760x768.rank)
  slices_S245760x768_S245760x256_0_0 : S245760x768.Slices ![0, 0] S245760x256
  slices_S245760x768_S245760x256_0_256 : S245760x768.Slices ![0, 256] S245760x256
  slices_S245760x768_S245760x256_0_512 : S245760x768.Slices ![0, 512] S245760x256
  shapeCasts_S245760x256_S245760x16x16 : S245760x256.ShapeCasts S245760x16x16
  reducesTo_S245760x16x16_S245760x16_d2 : S245760x16x16.ReducesTo [2] S245760x16
  h_S_ : 0 < S_.numel
  reducesTo_S245760x16x16_S245760x16_d1 : S245760x16x16.ReducesTo [1] S245760x16
  bcast_S245760x16_S245760x16x1_0_1 : S245760x16.BroadcastsInDim S245760x16x1 (![0, 1] : Fin 2 → Fin S245760x16x1.rank)
  concatenates_S245760x16x1_S245760x16x1_S245760x16x2_d2 : Shape.Concatenates [S245760x16x1, S245760x16x1] S245760x16x2 2
  shapeCasts_S245760x16x2_S491520x16 : S245760x16x2.ShapeCasts S491520x16
  shapeCasts_S491520x16_S32768x15x16 : S491520x16.ShapeCasts S32768x15x16
  slices_S32768x15x16_S1x14x16_0_1_0 : S32768x15x16.Slices ![0, 1, 0] S1x14x16
  shapeCasts_S1x14x16_S14x16 : S1x14x16.ShapeCasts S14x16
  slices_S32768x15x16_S1x14x16_1_0_0 : S32768x15x16.Slices ![1, 0, 0] S1x14x16
  reducesTo_S14x16_S14_d1 : S14x16.ReducesTo [1] S14
  bcast_S14_S14x1_0 : S14.BroadcastsInDim S14x1 (![0] : Fin 1 → Fin S14x1.rank)
  bcast_S14x1_S14x16_0_1 : S14x1.BroadcastsInDim S14x16 (![0, 1] : Fin 2 → Fin S14x16.rank)
  slices_S32768x15x16_S16384x1x16_0_0_0 : S32768x15x16.Slices ![0, 0, 0] S16384x1x16
  bcast_S14x16_S1x14x16_1_2 : S14x16.BroadcastsInDim S1x14x16 (![1, 2] : Fin 2 → Fin S1x14x16.rank)
  bcast_S1x14x16_S16384x14x16_0_1_2 : S1x14x16.BroadcastsInDim S16384x14x16 (![0, 1, 2] : Fin 3 → Fin S16384x14x16.rank)
  slices_S32768x15x16_S16384x1x16_0_14_0 : S32768x15x16.Slices ![0, 14, 0] S16384x1x16
  concatenates_S16384x1x16_S16384x14x16_S16384x1x16_S16384x16x16_d1 : Shape.Concatenates [S16384x1x16, S16384x14x16, S16384x1x16] S16384x16x16 1
  dot_S245760x192_S192x256_S245760x256_1_0_0_1_n_n_wf : DotDims.WF S245760x192 S192x256 S245760x256 [1] [0] [0] [1] [] []
  dot_S245760x256_S256x768_S245760x768_1_0_0_1_n_n_wf : DotDims.WF S245760x256 S256x768 S245760x768 [1] [0] [0] [1] [] []
  dot_S245760x256_S256x256_S245760x256_1_0_0_1_n_n_wf : DotDims.WF S245760x256 S256x256 S245760x256 [1] [0] [0] [1] [] []

variable [Facts₀]

def dot_S245760x192_S192x256_S245760x256_1_0_0_1_n_n : DotDims S245760x192 S192x256 S245760x256 where
  lhsContracting := [1]
  rhsContracting := [0]
  lhsNonContracting := [0]
  rhsNonContracting := [1]
  lhsBatch := []
  rhsBatch := []
  wf := dot_S245760x192_S192x256_S245760x256_1_0_0_1_n_n_wf
def dot_S245760x256_S256x768_S245760x768_1_0_0_1_n_n : DotDims S245760x256 S256x768 S245760x768 where
  lhsContracting := [1]
  rhsContracting := [0]
  lhsNonContracting := [0]
  rhsNonContracting := [1]
  lhsBatch := []
  rhsBatch := []
  wf := dot_S245760x256_S256x768_S245760x768_1_0_0_1_n_n_wf
def dot_S245760x256_S256x256_S245760x256_1_0_0_1_n_n : DotDims S245760x256 S256x256 S245760x256 where
  lhsContracting := [1]
  rhsContracting := [0]
  lhsNonContracting := [0]
  rhsNonContracting := [1]
  lhsBatch := []
  rhsBatch := []
  wf := dot_S245760x256_S256x256_S245760x256_1_0_0_1_n_n_wf

class Facts : Prop extends Facts₀ where

variable [Facts]
-- ==== Proof.KernelHost.lean ====
/-
  The launch side of `Kernel`'s frame: what the TensorCore buffers hold when the one region is entered (the four
  weight matrices converted to bf16 by the host lines before it, everything else as launched), @main as "host lines,
  the region, host lines", the side conditions of the lines after the region (they touch unscoped buffers only,
  allocate nothing and write no array the region stages), and the fact that no host line writes an argument array:
  every argument is found as launched by the region, and ends as launched.
-/
import proofs.«128030_j52063593562852_2_alg».proof.Proof.Gen.Kernel.Launch
import proofs.«128030_j52063593562852_2_alg».proof.Proof.Gen.Kernel.Points
import Idealize.ShloMosaic.Lib.Pipeline.FrameBody
import Idealize.ShloMosaic.Lib.Pipeline.FrameSuffix

set_option maxRecDepth 16384

noncomputable section

namespace Cert.Kernel.Host

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffer contents when the region is entered: the launch contents after the four conversions. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host lines after the region: the decode glue, the inlined select, the final concatenation. -/
abbrev tailOps : List (List (HloOp τ sig (Elt F))) := [hostOps1, hostOps1_1, hostOps1_2]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main is the host lines before the region, the region, and the host lines after it: it reduces to the region
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later lines touch unscoped TensorCore buffers only. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem tail_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop
/-- And each writes only its own result buffer, which is no array the region stages. -/
theorem tail_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.ternary, StableHlo.TRef.of, Finset.mem_singleton] <;> exact StableHlo.devRef_ne_of_ne (by decide)
  · simp only [hostOps1_1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.ternary, StableHlo.TRef.of, Finset.mem_singleton] <;> exact StableHlo.devRef_ne_of_ne (by decide)
  · simp only [hostOps1_2, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.ternary, StableHlo.TRef.of, Finset.mem_singleton] <;> exact StableHlo.devRef_ne_of_ne (by decide)

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.ternary, StableHlo.TRef.of, Finset.mem_singleton]
    repeat' apply And.intro
    all_goals exact StableHlo.devRef_ne_of_ne (by decide)))

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.ternary, StableHlo.TRef.of, Finset.mem_singleton]
    repeat' apply And.intro
    all_goals exact StableHlo.devRef_ne_of_ne (by decide)))

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.ternary, StableHlo.TRef.of, Finset.mem_singleton]
    repeat' apply And.intro
    all_goals exact StableHlo.devRef_ne_of_ne (by decide)))

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.ternary, StableHlo.TRef.of, Finset.mem_singleton]
    repeat' apply And.intro
    all_goals exact StableHlo.devRef_ne_of_ne (by decide)))

/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.ternary, StableHlo.TRef.of, Finset.mem_singleton]
    repeat' apply And.intro
    all_goals exact StableHlo.devRef_ne_of_ne (by decide)))

/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.ternary, StableHlo.TRef.of, Finset.mem_singleton]
    repeat' apply And.intro
    all_goals exact StableHlo.devRef_ne_of_ne (by decide)))

/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.ternary, StableHlo.TRef.of, Finset.mem_singleton]
    repeat' apply And.intro
    all_goals exact StableHlo.devRef_ne_of_ne (by decide)))

/-- No host line before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.ternary, StableHlo.TRef.of, Finset.mem_singleton]
    repeat' apply And.intro
    all_goals exact StableHlo.devRef_ne_of_ne (by decide)))

/-- No host line before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.ternary, StableHlo.TRef.of, Finset.mem_singleton]
    repeat' apply And.intro
    all_goals exact StableHlo.devRef_ne_of_ne (by decide)))

/-- No host line before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.ternary, StableHlo.TRef.of, Finset.mem_singleton]
    repeat' apply And.intro
    all_goals exact StableHlo.devRef_ne_of_ne (by decide)))

/-- No host line after the region writes argument 2, and the region does not stage it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
      simp only [tailOps, hostOps1, hostOps1_1, hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.ternary, StableHlo.TRef.of, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line after the region writes argument 4, and the region does not stage it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  unfold Pipeline.afterTail₀
  rw [StableHlo.after_of_forall_not_mem (b := Proc.devRef .tc main_arg4) _ _ (List.forall_iff_forall_mem.mp (by
      simp only [tailOps, hostOps1, hostOps1_1, hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.ternary, StableHlo.TRef.of, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host line after the region writes argument 5, and the region does not stage it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) tailOps c main_arg5 = m ((c : Thread nD τ).loc main_arg5) := by
  unfold Pipeline.afterTail₀
  rw [StableHlo.after_of_forall_not_mem (b := Proc.devRef .tc main_arg5) _ _ (List.forall_iff_forall_mem.mp (by
      simp only [tailOps, hostOps1, hostOps1_1, hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.ternary, StableHlo.TRef.of, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host line after the region writes argument 8, and the region does not stage it: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) tailOps c main_arg8 = m ((c : Thread nD τ).loc main_arg8) := by
  unfold Pipeline.afterTail₀
  rw [StableHlo.after_of_forall_not_mem (b := Proc.devRef .tc main_arg8) _ _ (List.forall_iff_forall_mem.mp (by
      simp only [tailOps, hostOps1, hostOps1_1, hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.ternary, StableHlo.TRef.of, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (unfetched, the block
    index has not moved), for any proof data whose array is the region-entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (unfetched, the block
    index has not moved), for any proof data whose array is the region-entry contents and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (unfetched, the block
    index has not moved), for any proof data whose array is the region-entry contents and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (unfetched, the block
    index has not moved), for any proof data whose array is the region-entry contents and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not (unfetched, the block
    index has not moved), for any proof data whose array is the region-entry contents and whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not (unfetched, the block
    index has not moved), for any proof data whose array is the region-entry contents and whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not (unfetched, the block
    index has not moved), for any proof data whose array is the region-entry contents and whose body leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not (unfetched, the block
    index has not moved), for any proof data whose array is the region-entry contents and whose body leaves the block in place. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not (unfetched, the block
    index has not moved), for any proof data whose array is the region-entry contents and whose body leaves the block in place. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current staging buffer holds its block at every point, fetched there or not (unfetched, the block
    index has not moved), for any proof data whose array is the region-entry contents and whose body leaves the block in place. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- The frame claim's post from a frame run: an argument a window stages ends at its region-entry contents (an input
    window's array is never written), any other argument at what the later lines leave, which is the launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  (θ_run defs _ _).mono (fun _ h c => ⟨((h c).1 0).trans (((dats 0 c).arrAt_in 0 rfl _).trans ((hA c 0).trans (V_main_arg0 m c))),
    ((h c).1 1).trans (((dats 0 c).arrAt_in 1 rfl _).trans ((hA c 1).trans (V_main_arg1 m c))),
    ((h c).2 main_arg2 (Pipeline.mem_restRefs_of main_arg2 (by decide) (by decide))).trans (W_main_arg2 m dats c),
    ((h c).1 3).trans (((dats 0 c).arrAt_in 3 rfl _).trans ((hA c 3).trans (V_main_arg3 m c))),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).1 5).trans (((dats 0 c).arrAt_in 5 rfl _).trans ((hA c 5).trans (V_main_arg6 m c))),
    ((h c).1 7).trans (((dats 0 c).arrAt_in 7 rfl _).trans ((hA c 7).trans (V_main_arg7 m c))),
    ((h c).2 main_arg8 (Pipeline.mem_restRefs_of main_arg8 (by decide) (by decide))).trans (W_main_arg8 m dats c),
    ((h c).1 9).trans (((dats 0 c).arrAt_in 9 rfl _).trans ((hA c 9).trans (V_main_arg9 m c)))⟩) h

end Cert.Kernel.Host

end
-- ==== Proof.KernelBody.lean ====
/-
  The body of `Kernel`'s one kernel on whole staging buffers. The body loads its ten input blocks whole, computes,
  and stores each of its two output blocks whole, once: the hidden-state block (window 10) and the decode block
  (window 11). What each output buffer holds afterwards is therefore ONE payload of the input blocks; the payloads are
  the skeleton's named terms, kept folded here.
-/
import proofs.«128030_j52063593562852_2_alg».proof.Proof.Gen.Kernel.Launch
import proofs.«128030_j52063593562852_2_alg».proof.Proof.Gen.Kernel.Skeleton
import proofs.«128030_j52063593562852_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-block rectangles the body loads and stores through -/

abbrev rIn : Rect S64x16x96 := Rect.unit (s := S64x16x96) ![0, 0, 0] S64x16x96.size inb_S64x16x96_S64x16x96_0_0_0
abbrev rHid : Rect S960x256 := Rect.unit (s := S960x256) ![0, 0] S960x256.size inb_S960x256_S960x256_0_0
abbrev rW1 : Rect S192x256 := Rect.unit (s := S192x256) ![0, 0] S192x256.size inb_S192x256_S192x256_0_0
abbrev rB256 : Rect S256 := Rect.unit (s := S256) ![0] S256.size inb_S256_S256_0
abbrev rWg : Rect S256x768 := Rect.unit (s := S256x768) ![0, 0] S256x768.size inb_S256x768_S256x768_0_0
abbrev rB768 : Rect S768 := Rect.unit (s := S768) ![0] S768.size inb_S768_S768_0
abbrev rW2 : Rect S256x256 := Rect.unit (s := S256x256) ![0, 0] S256x256.size inb_S256x256_S256x256_0_0
abbrev rDec : Rect S960x32 := Rect.unit (s := S960x32) ![0, 0] S960x32.size inb_S960x32_S960x32_0_0

theorem zero2 : (![0, 0] : Fin 2 → Nat) = fun _ => 0 := funext fun a => by fin_cases a <;> rfl
theorem zero1 : (![0] : Fin 1 → Nat) = fun _ => 0 := funext fun a => by fin_cases a <;> rfl
theorem zero3 : (![0, 0, 0] : Fin 3 → Nat) = fun _ => 0 := funext fun a => by fin_cases a <;> rfl

/-! ## What the body leaves in each output block -/

/-- The input-gate pre-activations of the block's 960 rows (the pair rows through the first layer, its ReLU and the
    input-to-hidden layer), from the agents' block, the first layer's weights and bias and the input-to-hidden weights. -/
def giOf (x0 : Vec F S64x16x96 .f32) (x2 : Vec F S192x256 .bf16) (x3 : Vec F S256 .f32) (x4 : Vec F S256x768 .bf16) : FVec F S960x768 .f32 :=
  k0_pay13 (View.ld x0 rIn) (k0_pay2 (View.ld x0 rIn)) (k0_pay3 (View.ld x0 rIn)) (k0_pay4 (View.ld x0 rIn)) (k0_pay5 (View.ld x0 rIn))
    (k0_pay6 (View.ld x0 rIn)) (k0_pay7 (View.ld x0 rIn)) (k0_pay8 (View.ld x0 rIn)) (k0_pay9 (View.ld x0 rIn)) (k0_pay10 (View.ld x0 rIn))
    (k0_pay11 (View.ld x0 rIn)) (k0_pay12 (View.ld x0 rIn)) (View.ld x2 rW1) (View.ld x3 rB256) (View.ld x4 rWg)

/-- The new hidden state of the block's rows: what the body stores into window 10's buffer. -/
def hidOut (x0 : Vec F S64x16x96 .f32) (x1 : Vec F S960x256 .f32) (x2 : Vec F S192x256 .bf16) (x3 : Vec F S256 .f32)
    (x4 : Vec F S256x768 .bf16) (x5 : Vec F S768 .f32) (x6 : Vec F S256x768 .bf16) (x7 : Vec F S768 .f32) : Vec F S960x256 .f32 :=
  k0_pay14 (giOf x0 x2 x3 x4) (View.ld x5 rB768) (View.ld x1 rHid) (View.ld x6 rWg) (View.ld x7 rB768)

/-- The interleaved row and column maxima of the block's rows' action grids: what the body stores into window 11's buffer. -/
def decOut (x0 : Vec F S64x16x96 .f32) (x1 : Vec F S960x256 .f32) (x2 : Vec F S192x256 .bf16) (x3 : Vec F S256 .f32)
    (x4 : Vec F S256x768 .bf16) (x5 : Vec F S768 .f32) (x6 : Vec F S256x768 .bf16) (x7 : Vec F S768 .f32)
    (x8 : Vec F S256x256 .bf16) (x9 : Vec F S256 .f32) : Vec F S960x32 .f32 :=
  k0_pay1
    (k0_pay16 (giOf x0 x2 x3 x4) (View.ld x5 rB768) (View.ld x1 rHid) (View.ld x6 rWg) (View.ld x7 rB768) (View.ld x8 rW2) (View.ld x9 rB256))
    (k0_pay17 (giOf x0 x2 x3 x4) (View.ld x5 rB768) (View.ld x1 rHid) (View.ld x6 rWg) (View.ld x7 rB768) (View.ld x8 rW2) (View.ld x9 rB256))

/-! ## The body's triple -/

set_option maxHeartbeats 4000000 in
/-- On whole staging buffers, the inputs' at contents reading `x0 … x9` and the outputs' at anything, the body runs to
    its continuation holding the inputs as they were and the outputs at `hidOut` and `decOut` of the inputs. -/
theorem sound_kernel (c : Dev nD) (E : Set ℕ) (i : grid0.Coords) (arg1 : Memref sig .tc .vmem S64x16x96 .f32) (harg1 : arg1.IsWhole) (arg2 : Memref sig .tc .vmem S960x256 .f32) (harg2 : arg2.IsWhole) (arg3 : Memref sig .tc .vmem S192x256 .bf16) (harg3 : arg3.IsWhole) (arg4 : Memref sig .tc .vmem S256 .f32) (harg4 : arg4.IsWhole) (arg5 : Memref sig .tc .vmem S256x768 .bf16) (harg5 : arg5.IsWhole) (arg6 : Memref sig .tc .vmem S768 .f32) (harg6 : arg6.IsWhole) (arg7 : Memref sig .tc .vmem S256x768 .bf16) (harg7 : arg7.IsWhole) (arg8 : Memref sig .tc .vmem S768 .f32) (harg8 : arg8.IsWhole) (arg9 : Memref sig .tc .vmem S256x256 .bf16) (harg9 : arg9.IsWhole) (arg10 : Memref sig .tc .vmem S256 .f32) (harg10 : arg10.IsWhole) (arg11 : Memref sig .tc .vmem S960x256 .f32) (harg11 : arg11.IsWhole) (arg12 : Memref sig .tc .vmem S960x32 .f32) (harg12 : arg12.IsWhole)
    (x0 : Vec F S64x16x96 .f32) (x1 : Vec F S960x256 .f32) (x2 : Vec F S192x256 .bf16) (x3 : Vec F S256 .f32) (x4 : Vec F S256x768 .bf16) (x5 : Vec F S768 .f32) (x6 : Vec F S256x768 .bf16) (x7 : Vec F S768 .f32) (x8 : Vec F S256x256 .bf16) (x9 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (hidOut x0 x1 x2 x3 x4 x5 x6 x7)
            ∗ owns (c : Thread nD τ) arg12 fullShare (decOut x0 x1 x2 x3 x4 x5 x6 x7 x8 x9)) -∗ K ⟨⟩))
      ⊢ wp frame (wpE (defs₀ (F := F)) Variants.none c none) E (cc0__gru_decode_kernel i arg1 harg1 arg2 harg2 arg3 harg3 arg4 harg4 arg5 harg5 arg6 harg6 arg7 harg7 arg8 harg8 arg9 harg9 arg10 harg10 arg11 harg11 arg12 harg12) K := by
  simp only [cc0__gru_decode_kernel_eq_skeleton]; unfold cc0__gru_decode_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact (View.read_writes_eq_canon _ _ _ (fun y => ⟨_, List.mem_singleton_self _, View.mem_set_unit_zero zero2 inb_S960x256_S960x256_0_0 y⟩)).trans
      (View.canon_unit_zero zero2 inb_S960x256_S960x256_0_0 _)
  · iexists _; isplitr
    swap; · iexact H11
    ipureintro
    exact (View.read_writes_eq_canon _ _ _ (fun y => ⟨_, List.mem_singleton_self _, View.mem_set_unit_zero zero2 inb_S960x32_S960x32_0_0 y⟩)).trans
      (View.canon_unit_zero zero2 inb_S960x32_S960x32_0_0 _)

end Cert.Kernel.Body

end
-- ==== Proof.KernelFrame.lean ====
/-
  The frame of `Kernel`: the proof data of its one pipeline (each input window's buffer at its block of the array as
  the region finds it, each output window's at the body's payload of the input blocks), the body obligation at a
  generic grid point, and the frame run around the region; the arguments end as launched.
-/
import proofs.«128030_j52063593562852_2_alg».proof.Proof.KernelHost
import proofs.«128030_j52063593562852_2_alg».proof.Proof.KernelBody

set_option maxRecDepth 16384

noncomputable section

namespace Cert.Kernel.Frame

open Cert.Kernel Cert.Kernel.Gen Cert.Kernel.Host Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the pipeline on core `c`: the arrays as the region finds them; after the body at point `t`
    each input's buffer at its block and each output's at the body's payload of the input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => hidOut (iblk m c 0 t) (iblk m c 1 t) (iblk m c 2 t) (iblk m c 3 t) (iblk m c 4 t) (iblk m c 5 t) (iblk m c 6 t) (iblk m c 7 t)
    | ⟨11, _⟩ => decOut (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = hidOut (iblk m c 0 t) (iblk m c 1 t) (iblk m c 2 t) (iblk m c 3 t) (iblk m c 4 t) (iblk m c 5 t) (iblk m c 6 t) (iblk m c 7 t) := by dsimp only [dats]
theorem after11 (c : Dev nD) (t : Fin cfg0.N) : (dats m 0 c).after 11 t = decOut (iblk m c 0 t) (iblk m c 1 t) (iblk m c 2 t) (iblk m c 3 t) (iblk m c 4 t) (iblk m c 5 t) (iblk m c 6 t) (iblk m c 7 t) (iblk m c 8 t) (iblk m c 9 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- The body at any point: the inputs' buffers hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates, and every final state has every array of the pipeline at what the
    library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- The frame: the program runs to the end, faults nowhere, and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  frame_of m ρ (dats m) (A_eq m) (run_main m ρ)

end Cert.Kernel.Frame

end
-- ==== Proof.KernelIdealHost.lean ====
/-
  The launch side of `KernelIdeal`'s frame: what the TensorCore buffers hold when the one region is entered (the four
  weight matrices converted to bf16 by the host lines before it, everything else as launched), @main as "host lines,
  the region, host lines", the side conditions of the lines after the region (they touch unscoped buffers only,
  allocate nothing and write no array the region stages), and the fact that no host line writes an argument array:
  every argument is found as launched by the region, and ends as launched.
-/
import proofs.«128030_j52063593562852_2_alg».proof.Proof.Gen.KernelIdeal.Launch
import proofs.«128030_j52063593562852_2_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Host

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffer contents when the region is entered: the launch contents after the four conversions. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host lines after the region: the decode glue, the inlined select, the final concatenation. -/
abbrev tailOps : List (List (HloOp τ sig (Elt F))) := [hostOps1, hostOps1_1, hostOps1_2]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main is the host lines before the region, the region, and the host lines after it: it reduces to the region
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later lines touch unscoped TensorCore buffers only. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem tail_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop
/-- And each writes only its own result buffer, which is no array the region stages. -/
theorem tail_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.ternary, StableHlo.TRef.of, Finset.mem_singleton] <;> exact StableHlo.devRef_ne_of_ne (by decide)
  · simp only [hostOps1_1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.ternary, StableHlo.TRef.of, Finset.mem_singleton] <;> exact StableHlo.devRef_ne_of_ne (by decide)
  · simp only [hostOps1_2, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.ternary, StableHlo.TRef.of, Finset.mem_singleton] <;> exact StableHlo.devRef_ne_of_ne (by decide)

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.ternary, StableHlo.TRef.of, Finset.mem_singleton]
    repeat' apply And.intro
    all_goals exact StableHlo.devRef_ne_of_ne (by decide)))

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.ternary, StableHlo.TRef.of, Finset.mem_singleton]
    repeat' apply And.intro
    all_goals exact StableHlo.devRef_ne_of_ne (by decide)))

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.ternary, StableHlo.TRef.of, Finset.mem_singleton]
    repeat' apply And.intro
    all_goals exact StableHlo.devRef_ne_of_ne (by decide)))

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.ternary, StableHlo.TRef.of, Finset.mem_singleton]
    repeat' apply And.intro
    all_goals exact StableHlo.devRef_ne_of_ne (by decide)))

/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.ternary, StableHlo.TRef.of, Finset.mem_singleton]
    repeat' apply And.intro
    all_goals exact StableHlo.devRef_ne_of_ne (by decide)))

/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.ternary, StableHlo.TRef.of, Finset.mem_singleton]
    repeat' apply And.intro
    all_goals exact StableHlo.devRef_ne_of_ne (by decide)))

/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.ternary, StableHlo.TRef.of, Finset.mem_singleton]
    repeat' apply And.intro
    all_goals exact StableHlo.devRef_ne_of_ne (by decide)))

/-- No host line before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.ternary, StableHlo.TRef.of, Finset.mem_singleton]
    repeat' apply And.intro
    all_goals exact StableHlo.devRef_ne_of_ne (by decide)))

/-- No host line before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.ternary, StableHlo.TRef.of, Finset.mem_singleton]
    repeat' apply And.intro
    all_goals exact StableHlo.devRef_ne_of_ne (by decide)))

/-- No host line before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.ternary, StableHlo.TRef.of, Finset.mem_singleton]
    repeat' apply And.intro
    all_goals exact StableHlo.devRef_ne_of_ne (by decide)))

/-- No host line after the region writes argument 2, and the region does not stage it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
      simp only [tailOps, hostOps1, hostOps1_1, hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.ternary, StableHlo.TRef.of, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line after the region writes argument 4, and the region does not stage it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  unfold Pipeline.afterTail₀
  rw [StableHlo.after_of_forall_not_mem (b := Proc.devRef .tc main_arg4) _ _ (List.forall_iff_forall_mem.mp (by
      simp only [tailOps, hostOps1, hostOps1_1, hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.ternary, StableHlo.TRef.of, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host line after the region writes argument 5, and the region does not stage it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) tailOps c main_arg5 = m ((c : Thread nD τ).loc main_arg5) := by
  unfold Pipeline.afterTail₀
  rw [StableHlo.after_of_forall_not_mem (b := Proc.devRef .tc main_arg5) _ _ (List.forall_iff_forall_mem.mp (by
      simp only [tailOps, hostOps1, hostOps1_1, hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.ternary, StableHlo.TRef.of, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host line after the region writes argument 8, and the region does not stage it: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) tailOps c main_arg8 = m ((c : Thread nD τ).loc main_arg8) := by
  unfold Pipeline.afterTail₀
  rw [StableHlo.after_of_forall_not_mem (b := Proc.devRef .tc main_arg8) _ _ (List.forall_iff_forall_mem.mp (by
      simp only [tailOps, hostOps1, hostOps1_1, hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.ternary, StableHlo.TRef.of, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (unfetched, the block
    index has not moved), for any proof data whose array is the region-entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (unfetched, the block
    index has not moved), for any proof data whose array is the region-entry contents and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (unfetched, the block
    index has not moved), for any proof data whose array is the region-entry contents and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (unfetched, the block
    index has not moved), for any proof data whose array is the region-entry contents and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not (unfetched, the block
    index has not moved), for any proof data whose array is the region-entry contents and whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not (unfetched, the block
    index has not moved), for any proof data whose array is the region-entry contents and whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not (unfetched, the block
    index has not moved), for any proof data whose array is the region-entry contents and whose body leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not (unfetched, the block
    index has not moved), for any proof data whose array is the region-entry contents and whose body leaves the block in place. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not (unfetched, the block
    index has not moved), for any proof data whose array is the region-entry contents and whose body leaves the block in place. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current staging buffer holds its block at every point, fetched there or not (unfetched, the block
    index has not moved), for any proof data whose array is the region-entry contents and whose body leaves the block in place. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- The frame claim's post from a frame run: an argument a window stages ends at its region-entry contents (an input
    window's array is never written), any other argument at what the later lines leave, which is the launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  (θ_run defs _ _).mono (fun _ h c => ⟨((h c).1 0).trans (((dats 0 c).arrAt_in 0 rfl _).trans ((hA c 0).trans (V_main_arg0 m c))),
    ((h c).1 1).trans (((dats 0 c).arrAt_in 1 rfl _).trans ((hA c 1).trans (V_main_arg1 m c))),
    ((h c).2 main_arg2 (Pipeline.mem_restRefs_of main_arg2 (by decide) (by decide))).trans (W_main_arg2 m dats c),
    ((h c).1 3).trans (((dats 0 c).arrAt_in 3 rfl _).trans ((hA c 3).trans (V_main_arg3 m c))),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).1 5).trans (((dats 0 c).arrAt_in 5 rfl _).trans ((hA c 5).trans (V_main_arg6 m c))),
    ((h c).1 7).trans (((dats 0 c).arrAt_in 7 rfl _).trans ((hA c 7).trans (V_main_arg7 m c))),
    ((h c).2 main_arg8 (Pipeline.mem_restRefs_of main_arg8 (by decide) (by decide))).trans (W_main_arg8 m dats c),
    ((h c).1 9).trans (((dats 0 c).arrAt_in 9 rfl _).trans ((hA c 9).trans (V_main_arg9 m c)))⟩) h

end Cert.KernelIdeal.Host

end
-- ==== Proof.KernelIdealBody.lean ====
/-
  The body of `KernelIdeal`'s one kernel on whole staging buffers. The body loads its ten input blocks whole, computes,
  and stores each of its two output blocks whole, once: the hidden-state block (window 10) and the decode block
  (window 11). What each output buffer holds afterwards is therefore ONE payload of the input blocks; the payloads are
  the skeleton's named terms, kept folded here.
-/
import proofs.«128030_j52063593562852_2_alg».proof.Proof.Gen.KernelIdeal.Launch
import proofs.«128030_j52063593562852_2_alg».proof.Proof.Gen.KernelIdeal.Skeleton
import proofs.«128030_j52063593562852_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-block rectangles the body loads and stores through -/

abbrev rIn : Rect S64x16x96 := Rect.unit (s := S64x16x96) ![0, 0, 0] S64x16x96.size inb_S64x16x96_S64x16x96_0_0_0
abbrev rHid : Rect S960x256 := Rect.unit (s := S960x256) ![0, 0] S960x256.size inb_S960x256_S960x256_0_0
abbrev rW1 : Rect S192x256 := Rect.unit (s := S192x256) ![0, 0] S192x256.size inb_S192x256_S192x256_0_0
abbrev rB256 : Rect S256 := Rect.unit (s := S256) ![0] S256.size inb_S256_S256_0
abbrev rWg : Rect S256x768 := Rect.unit (s := S256x768) ![0, 0] S256x768.size inb_S256x768_S256x768_0_0
abbrev rB768 : Rect S768 := Rect.unit (s := S768) ![0] S768.size inb_S768_S768_0
abbrev rW2 : Rect S256x256 := Rect.unit (s := S256x256) ![0, 0] S256x256.size inb_S256x256_S256x256_0_0
abbrev rDec : Rect S960x32 := Rect.unit (s := S960x32) ![0, 0] S960x32.size inb_S960x32_S960x32_0_0

theorem zero2 : (![0, 0] : Fin 2 → Nat) = fun _ => 0 := funext fun a => by fin_cases a <;> rfl
theorem zero1 : (![0] : Fin 1 → Nat) = fun _ => 0 := funext fun a => by fin_cases a <;> rfl
theorem zero3 : (![0, 0, 0] : Fin 3 → Nat) = fun _ => 0 := funext fun a => by fin_cases a <;> rfl

/-! ## What the body leaves in each output block -/

/-- The input-gate pre-activations of the block's 960 rows (the pair rows through the first layer, its ReLU and the
    input-to-hidden layer), from the agents' block, the first layer's weights and bias and the input-to-hidden weights. -/
def giOf (x0 : Vec F S64x16x96 .f32) (x2 : Vec F S192x256 .bf16) (x3 : Vec F S256 .f32) (x4 : Vec F S256x768 .bf16) : FVec F S960x768 .f32 :=
  k0_pay13 (View.ld x0 rIn) (k0_pay2 (View.ld x0 rIn)) (k0_pay3 (View.ld x0 rIn)) (k0_pay4 (View.ld x0 rIn)) (k0_pay5 (View.ld x0 rIn))
    (k0_pay6 (View.ld x0 rIn)) (k0_pay7 (View.ld x0 rIn)) (k0_pay8 (View.ld x0 rIn)) (k0_pay9 (View.ld x0 rIn)) (k0_pay10 (View.ld x0 rIn))
    (k0_pay11 (View.ld x0 rIn)) (k0_pay12 (View.ld x0 rIn)) (View.ld x2 rW1) (View.ld x3 rB256) (View.ld x4 rWg)

/-- The new hidden state of the block's rows: what the body stores into window 10's buffer. -/
def hidOut (x0 : Vec F S64x16x96 .f32) (x1 : Vec F S960x256 .f32) (x2 : Vec F S192x256 .bf16) (x3 : Vec F S256 .f32)
    (x4 : Vec F S256x768 .bf16) (x5 : Vec F S768 .f32) (x6 : Vec F S256x768 .bf16) (x7 : Vec F S768 .f32) : Vec F S960x256 .f32 :=
  k0_pay14 (giOf x0 x2 x3 x4) (View.ld x5 rB768) (View.ld x1 rHid) (View.ld x6 rWg) (View.ld x7 rB768)

/-- The interleaved row and column maxima of the block's rows' action grids: what the body stores into window 11's buffer. -/
def decOut (x0 : Vec F S64x16x96 .f32) (x1 : Vec F S960x256 .f32) (x2 : Vec F S192x256 .bf16) (x3 : Vec F S256 .f32)
    (x4 : Vec F S256x768 .bf16) (x5 : Vec F S768 .f32) (x6 : Vec F S256x768 .bf16) (x7 : Vec F S768 .f32)
    (x8 : Vec F S256x256 .bf16) (x9 : Vec F S256 .f32) : Vec F S960x32 .f32 :=
  k0_pay1
    (k0_pay16 (giOf x0 x2 x3 x4) (View.ld x5 rB768) (View.ld x1 rHid) (View.ld x6 rWg) (View.ld x7 rB768) (View.ld x8 rW2) (View.ld x9 rB256))
    (k0_pay17 (giOf x0 x2 x3 x4) (View.ld x5 rB768) (View.ld x1 rHid) (View.ld x6 rWg) (View.ld x7 rB768) (View.ld x8 rW2) (View.ld x9 rB256))

/-! ## The body's triple -/

set_option maxHeartbeats 4000000 in
/-- On whole staging buffers, the inputs' at contents reading `x0 … x9` and the outputs' at anything, the body runs to
    its continuation holding the inputs as they were and the outputs at `hidOut` and `decOut` of the inputs. -/
theorem sound_kernel (c : Dev nD) (E : Set ℕ) (i : grid0.Coords) (arg1 : Memref sig .tc .vmem S64x16x96 .f32) (harg1 : arg1.IsWhole) (arg2 : Memref sig .tc .vmem S960x256 .f32) (harg2 : arg2.IsWhole) (arg3 : Memref sig .tc .vmem S192x256 .bf16) (harg3 : arg3.IsWhole) (arg4 : Memref sig .tc .vmem S256 .f32) (harg4 : arg4.IsWhole) (arg5 : Memref sig .tc .vmem S256x768 .bf16) (harg5 : arg5.IsWhole) (arg6 : Memref sig .tc .vmem S768 .f32) (harg6 : arg6.IsWhole) (arg7 : Memref sig .tc .vmem S256x768 .bf16) (harg7 : arg7.IsWhole) (arg8 : Memref sig .tc .vmem S768 .f32) (harg8 : arg8.IsWhole) (arg9 : Memref sig .tc .vmem S256x256 .bf16) (harg9 : arg9.IsWhole) (arg10 : Memref sig .tc .vmem S256 .f32) (harg10 : arg10.IsWhole) (arg11 : Memref sig .tc .vmem S960x256 .f32) (harg11 : arg11.IsWhole) (arg12 : Memref sig .tc .vmem S960x32 .f32) (harg12 : arg12.IsWhole)
    (x0 : Vec F S64x16x96 .f32) (x1 : Vec F S960x256 .f32) (x2 : Vec F S192x256 .bf16) (x3 : Vec F S256 .f32) (x4 : Vec F S256x768 .bf16) (x5 : Vec F S768 .f32) (x6 : Vec F S256x768 .bf16) (x7 : Vec F S768 .f32) (x8 : Vec F S256x256 .bf16) (x9 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (hidOut x0 x1 x2 x3 x4 x5 x6 x7)
            ∗ owns (c : Thread nD τ) arg12 fullShare (decOut x0 x1 x2 x3 x4 x5 x6 x7 x8 x9)) -∗ K ⟨⟩))
      ⊢ wp frame (wpE (defs₀ (F := F)) Variants.none c none) E (cc0__gru_decode_kernel i arg1 harg1 arg2 harg2 arg3 harg3 arg4 harg4 arg5 harg5 arg6 harg6 arg7 harg7 arg8 harg8 arg9 harg9 arg10 harg10 arg11 harg11 arg12 harg12) K := by
  simp only [cc0__gru_decode_kernel_eq_skeleton]; unfold cc0__gru_decode_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact (View.read_writes_eq_canon _ _ _ (fun y => ⟨_, List.mem_singleton_self _, View.mem_set_unit_zero zero2 inb_S960x256_S960x256_0_0 y⟩)).trans
      (View.canon_unit_zero zero2 inb_S960x256_S960x256_0_0 _)
  · iexists _; isplitr
    swap; · iexact H11
    ipureintro
    exact (View.read_writes_eq_canon _ _ _ (fun y => ⟨_, List.mem_singleton_self _, View.mem_set_unit_zero zero2 inb_S960x32_S960x32_0_0 y⟩)).trans
      (View.canon_unit_zero zero2 inb_S960x32_S960x32_0_0 _)

end Cert.KernelIdeal.Body

end
-- ==== Proof.KernelIdealFrame.lean ====
/-
  The frame of `KernelIdeal`: the proof data of its one pipeline (each input window's buffer at its block of the array as
  the region finds it, each output window's at the body's payload of the input blocks), the body obligation at a
  generic grid point, and the frame run around the region; the arguments end as launched.
-/
import proofs.«128030_j52063593562852_2_alg».proof.Proof.KernelIdealHost
import proofs.«128030_j52063593562852_2_alg».proof.Proof.KernelIdealBody

set_option maxRecDepth 16384

noncomputable section

namespace Cert.KernelIdeal.Frame

open Cert.KernelIdeal Cert.KernelIdeal.Gen Cert.KernelIdeal.Host Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the pipeline on core `c`: the arrays as the region finds them; after the body at point `t`
    each input's buffer at its block and each output's at the body's payload of the input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => hidOut (iblk m c 0 t) (iblk m c 1 t) (iblk m c 2 t) (iblk m c 3 t) (iblk m c 4 t) (iblk m c 5 t) (iblk m c 6 t) (iblk m c 7 t)
    | ⟨11, _⟩ => decOut (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = hidOut (iblk m c 0 t) (iblk m c 1 t) (iblk m c 2 t) (iblk m c 3 t) (iblk m c 4 t) (iblk m c 5 t) (iblk m c 6 t) (iblk m c 7 t) := by dsimp only [dats]
theorem after11 (c : Dev nD) (t : Fin cfg0.N) : (dats m 0 c).after 11 t = decOut (iblk m c 0 t) (iblk m c 1 t) (iblk m c 2 t) (iblk m c 3 t) (iblk m c 4 t) (iblk m c 5 t) (iblk m c 6 t) (iblk m c 7 t) (iblk m c 8 t) (iblk m c 9 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- The body at any point: the inputs' buffers hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates, and every final state has every array of the pipeline at what the
    library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- The frame: the program runs to the end, faults nowhere, and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  frame_of m ρ (dats m) (A_eq m) (run_main m ρ)

end Cert.KernelIdeal.Frame

end
-- ==== Proof.LibNary3.lean ====
/-
  Two general facts about a straight line of host operations: two stretches run one after the other are their
  concatenation run as one; and a host operation with THREE operands given as a literal family (a concatenation of
  three arrays) leaves, at its result, its function of the three operands' contents, each read at its own reference.
-/
import Idealize.ShloMosaic.Lib.StableHlo.Run

noncomputable section

namespace Cert.Nary3

open Idealize.ShloMosaic Idealize.ShloMosaic.StableHlo

variable {τ : Topo} {sig : RefSig} {Val : EltTy → Type} {x a b y : Ref sig .tc}

/-- Two stretches of operations run one after the other. -/
theorem after_append (A B : List (HloOp τ sig Val)) (V : Valuation τ sig Val) :
    StableHlo.after (A ++ B) V = StableHlo.after B (StableHlo.after A V) := by
  induction A generalizing V with
  | nil => rfl
  | cons op A ih => exact ih _

/-- A three-operand operation leaves, at its result, its function of the three operands' contents. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.Nary3

end
-- ==== Proof.RefRun.lean ====
/-
  The reference program's run: @main is its list of 85 host operations, so every weakly fair execution terminates
  with each buffer at the operations' result from the launch memory. The list is read in two stretches: the first 54
  operations end with the new hidden state, which is its stage `val_main_v46` of the arguments; the other 31 compute
  the decode from that buffer and two arguments, and their result is the last stage `val_main_v72`. No operation writes
  an argument.
-/
import proofs.«128030_j52063593562852_2_alg».proof.Proof.RefRead
import proofs.«128030_j52063593562852_2_alg».proof.Proof.LibNary3

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-- @main's 85 operations, in order (a called function's operations stand in its call's place, spelt `TRef.…`). -/
abbrev ops : List (HloOp τ sig (Elt F)) :=
  [ unary main_arg0 main_v0 ((extractStridedSlice S16384x15x96 ![0, 0, 0] · slices_S16384x16x96_S16384x15x96_0_0_0) : (⟨S16384x16x96, .f32⟩ : BufTy).Contents (Elt F) → (⟨S16384x15x96, .f32⟩ : BufTy).Contents (Elt F)),
    unary main_arg0 main_v1 ((extractStridedSlice S16384x15x96 ![0, 1, 0] · slices_S16384x16x96_S16384x15x96_0_1_0) : (⟨S16384x16x96, .f32⟩ : BufTy).Contents (Elt F) → (⟨S16384x15x96, .f32⟩ : BufTy).Contents (Elt F)),
    unary main_v0 main_v2 (broadcastInDim S16384x1x15x96 ![0, 2, 3] bcast_S16384x15x96_S16384x1x15x96_0_2_3 : (⟨S16384x15x96, .f32⟩ : BufTy).Contents (Elt F) → (⟨S16384x1x15x96, .f32⟩ : BufTy).Contents (Elt F)),
    unary main_v1 main_v3 (broadcastInDim S16384x1x15x96 ![0, 2, 3] bcast_S16384x15x96_S16384x1x15x96_0_2_3 : (⟨S16384x15x96, .f32⟩ : BufTy).Contents (Elt F) → (⟨S16384x1x15x96, .f32⟩ : BufTy).Contents (Elt F)),
    binary main_v2 main_v3 main_v4 ((fun a b => concatenate S16384x2x15x96 1 [⟨S16384x1x15x96, a⟩, ⟨S16384x1x15x96, b⟩] concatenates_S16384x1x15x96_S16384x1x15x96_S16384x2x15x96_d1) : (⟨S16384x1x15x96, .f32⟩ : BufTy).Contents (Elt F) → (⟨S16384x1x15x96, .f32⟩ : BufTy).Contents (Elt F) → (⟨S16384x2x15x96, .f32⟩ : BufTy).Contents (Elt F)),
    reshape main_v4 main_v5 rfl shapeCasts_S16384x2x15x96_S245760x192,
    binary main_v5 main_arg2 main_v6 ((fun l r => Host.dotGeneral dot_S245760x192_S192x256_S245760x256_1_0_0_1_n_n none l r) : (⟨S245760x192, .f32⟩ : BufTy).Contents (Elt F) → (⟨S192x256, .f32⟩ : BufTy).Contents (Elt F) → (⟨S245760x256, .f32⟩ : BufTy).Contents (Elt F)),
    unary main_arg3 main_v7 (broadcastInDim S1x256 ![1] bcast_S256_S1x256_1 : (⟨S256, .f32⟩ : BufTy).Contents (Elt F) → (⟨S1x256, .f32⟩ : BufTy).Contents (Elt F)),
    unary main_v7 main_v8 (broadcastInDim S245760x256 ![0, 1] bcast_S1x256_S245760x256_0_1 : (⟨S1x256, .f32⟩ : BufTy).Contents (Elt F) → (⟨S245760x256, .f32⟩ : BufTy).Contents (Elt F)),
    binary main_v6 main_v8 main_v9 (addf : (⟨S245760x256, .f32⟩ : BufTy).Contents (Elt F) → (⟨S245760x256, .f32⟩ : BufTy).Contents (Elt F) → (⟨S245760x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S245760x256, .f32⟩) main_call0_v0) (broadcastInDim S245760x256 ![] bcast_S_S245760x256),
    TRef.binary (TRef.of (T := ⟨S245760x256, .f32⟩) main_v9) (TRef.of (T := ⟨S245760x256, .f32⟩) main_call0_v0) (TRef.of (T := ⟨S245760x256, .f32⟩) main_v10) maximumf,
    binary main_v10 main_arg4 main_v11 ((fun l r => Host.dotGeneral dot_S245760x256_S256x768_S245760x768_1_0_0_1_n_n none l r) : (⟨S245760x256, .f32⟩ : BufTy).Contents (Elt F) → (⟨S256x768, .f32⟩ : BufTy).Contents (Elt F) → (⟨S245760x768, .f32⟩ : BufTy).Contents (Elt F)),
    unary main_arg6 main_v12 (broadcastInDim S1x768 ![1] bcast_S768_S1x768_1 : (⟨S768, .f32⟩ : BufTy).Contents (Elt F) → (⟨S1x768, .f32⟩ : BufTy).Contents (Elt F)),
    unary main_v12 main_v13 (broadcastInDim S245760x768 ![0, 1] bcast_S1x768_S245760x768_0_1 : (⟨S1x768, .f32⟩ : BufTy).Contents (Elt F) → (⟨S245760x768, .f32⟩ : BufTy).Contents (Elt F)),
    binary main_v11 main_v13 main_v14 (addf : (⟨S245760x768, .f32⟩ : BufTy).Contents (Elt F) → (⟨S245760x768, .f32⟩ : BufTy).Contents (Elt F) → (⟨S245760x768, .f32⟩ : BufTy).Contents (Elt F)),
    binary main_arg1 main_arg5 main_v15 ((fun l r => Host.dotGeneral dot_S245760x256_S256x768_S245760x768_1_0_0_1_n_n none l r) : (⟨S245760x256, .f32⟩ : BufTy).Contents (Elt F) → (⟨S256x768, .f32⟩ : BufTy).Contents (Elt F) → (⟨S245760x768, .f32⟩ : BufTy).Contents (Elt F)),
    unary main_arg7 main_v16 (broadcastInDim S1x768 ![1] bcast_S768_S1x768_1 : (⟨S768, .f32⟩ : BufTy).Contents (Elt F) → (⟨S1x768, .f32⟩ : BufTy).Contents (Elt F)),
    unary main_v16 main_v17 (broadcastInDim S245760x768 ![0, 1] bcast_S1x768_S245760x768_0_1 : (⟨S1x768, .f32⟩ : BufTy).Contents (Elt F) → (⟨S245760x768, .f32⟩ : BufTy).Contents (Elt F)),
    binary main_v15 main_v17 main_v18 (addf : (⟨S245760x768, .f32⟩ : BufTy).Contents (Elt F) → (⟨S245760x768, .f32⟩ : BufTy).Contents (Elt F) → (⟨S245760x768, .f32⟩ : BufTy).Contents (Elt F)),
    unary main_v14 main_v19 ((extractStridedSlice S245760x256 ![0, 0] · slices_S245760x768_S245760x256_0_0) : (⟨S245760x768, .f32⟩ : BufTy).Contents (Elt F) → (⟨S245760x256, .f32⟩ : BufTy).Contents (Elt F)),
    unary main_v14 main_v20 ((extractStridedSlice S245760x256 ![0, 256] · slices_S245760x768_S245760x256_0_256) : (⟨S245760x768, .f32⟩ : BufTy).Contents (Elt F) → (⟨S245760x256, .f32⟩ : BufTy).Contents (Elt F)),
    unary main_v14 main_v21 ((extractStridedSlice S245760x256 ![0, 512] · slices_S245760x768_S245760x256_0_512) : (⟨S245760x768, .f32⟩ : BufTy).Contents (Elt F) → (⟨S245760x256, .f32⟩ : BufTy).Contents (Elt F)),
    unary main_v18 main_v22 ((extractStridedSlice S245760x256 ![0, 0] · slices_S245760x768_S245760x256_0_0) : (⟨S245760x768, .f32⟩ : BufTy).Contents (Elt F) → (⟨S245760x256, .f32⟩ : BufTy).Contents (Elt F)),
    unary main_v18 main_v23 ((extractStridedSlice S245760x256 ![0, 256] · slices_S245760x768_S245760x256_0_256) : (⟨S245760x768, .f32⟩ : BufTy).Contents (Elt F) → (⟨S245760x256, .f32⟩ : BufTy).Contents (Elt F)),
    unary main_v18 main_v24 ((extractStridedSlice S245760x256 ![0, 512] · slices_S245760x768_S245760x256_0_512) : (⟨S245760x768, .f32⟩ : BufTy).Contents (Elt F) → (⟨S245760x256, .f32⟩ : BufTy).Contents (Elt F)),
    binary main_v19 main_v22 main_v25 (addf : (⟨S245760x256, .f32⟩ : BufTy).Contents (Elt F) → (⟨S245760x256, .f32⟩ : BufTy).Contents (Elt F) → (⟨S245760x256, .f32⟩ : BufTy).Contents (Elt F)),
    unary main_v25 main_v26 (Host.negf : (⟨S245760x256, .f32⟩ : BufTy).Contents (Elt F) → (⟨S245760x256, .f32⟩ : BufTy).Contents (Elt F)),
    unary main_v26 main_v27 (Host.exp : (⟨S245760x256, .f32⟩ : BufTy).Contents (Elt F) → (⟨S245760x256, .f32⟩ : BufTy).Contents (Elt F)),
    nullary main_cst (constant S_ .f32 0x3F800000#32),
    unary main_cst main_v28 (broadcastInDim S245760x256 ![] bcast_S_S245760x256 : (⟨S_, .f32⟩ : BufTy).Contents (Elt F) → (⟨S245760x256, .f32⟩ : BufTy).Contents (Elt F)),
    binary main_v28 main_v27 main_v29 (addf : (⟨S245760x256, .f32⟩ : BufTy).Contents (Elt F) → (⟨S245760x256, .f32⟩ : BufTy).Contents (Elt F) → (⟨S245760x256, .f32⟩ : BufTy).Contents (Elt F)),
    nullary main_cst_0 (constant S_ .f32 0x3F800000#32),
    unary main_cst_0 main_v30 (broadcastInDim S245760x256 ![] bcast_S_S245760x256 : (⟨S_, .f32⟩ : BufTy).Contents (Elt F) → (⟨S245760x256, .f32⟩ : BufTy).Contents (Elt F)),
    binary main_v30 main_v29 main_v31 (Host.divf : (⟨S245760x256, .f32⟩ : BufTy).Contents (Elt F) → (⟨S245760x256, .f32⟩ : BufTy).Contents (Elt F) → (⟨S245760x256, .f32⟩ : BufTy).Contents (Elt F)),
    binary main_v20 main_v23 main_v32 (addf : (⟨S245760x256, .f32⟩ : BufTy).Contents (Elt F) → (⟨S245760x256, .f32⟩ : BufTy).Contents (Elt F) → (⟨S245760x256, .f32⟩ : BufTy).Contents (Elt F)),
    unary main_v32 main_v33 (Host.negf : (⟨S245760x256, .f32⟩ : BufTy).Contents (Elt F) → (⟨S245760x256, .f32⟩ : BufTy).Contents (Elt F)),
    unary main_v33 main_v34 (Host.exp : (⟨S245760x256, .f32⟩ : BufTy).Contents (Elt F) → (⟨S245760x256, .f32⟩ : BufTy).Contents (Elt F)),
    nullary main_cst_1 (constant S_ .f32 0x3F800000#32),
    unary main_cst_1 main_v35 (broadcastInDim S245760x256 ![] bcast_S_S245760x256 : (⟨S_, .f32⟩ : BufTy).Contents (Elt F) → (⟨S245760x256, .f32⟩ : BufTy).Contents (Elt F)),
    binary main_v35 main_v34 main_v36 (addf : (⟨S245760x256, .f32⟩ : BufTy).Contents (Elt F) → (⟨S245760x256, .f32⟩ : BufTy).Contents (Elt F) → (⟨S245760x256, .f32⟩ : BufTy).Contents (Elt F)),
    nullary main_cst_2 (constant S_ .f32 0x3F800000#32),
    unary main_cst_2 main_v37 (broadcastInDim S245760x256 ![] bcast_S_S245760x256 : (⟨S_, .f32⟩ : BufTy).Contents (Elt F) → (⟨S245760x256, .f32⟩ : BufTy).Contents (Elt F)),
    binary main_v37 main_v36 main_v38 (Host.divf : (⟨S245760x256, .f32⟩ : BufTy).Contents (Elt F) → (⟨S245760x256, .f32⟩ : BufTy).Contents (Elt F) → (⟨S245760x256, .f32⟩ : BufTy).Contents (Elt F)),
    binary main_v31 main_v24 main_v39 (mulf : (⟨S245760x256, .f32⟩ : BufTy).Contents (Elt F) → (⟨S245760x256, .f32⟩ : BufTy).Contents (Elt F) → (⟨S245760x256, .f32⟩ : BufTy).Contents (Elt F)),
    binary main_v21 main_v39 main_v40 (addf : (⟨S245760x256, .f32⟩ : BufTy).Contents (Elt F) → (⟨S245760x256, .f32⟩ : BufTy).Contents (Elt F) → (⟨S245760x256, .f32⟩ : BufTy).Contents (Elt F)),
    unary main_v40 main_v41 (Host.tanh : (⟨S245760x256, .f32⟩ : BufTy).Contents (Elt F) → (⟨S245760x256, .f32⟩ : BufTy).Contents (Elt F)),
    nullary main_cst_3 (constant S_ .f32 0x3F800000#32),
    unary main_cst_3 main_v42 (broadcastInDim S245760x256 ![] bcast_S_S245760x256 : (⟨S_, .f32⟩ : BufTy).Contents (Elt F) → (⟨S245760x256, .f32⟩ : BufTy).Contents (Elt F)),
    binary main_v42 main_v38 main_v43 (subf : (⟨S245760x256, .f32⟩ : BufTy).Contents (Elt F) → (⟨S245760x256, .f32⟩ : BufTy).Contents (Elt F) → (⟨S245760x256, .f32⟩ : BufTy).Contents (Elt F)),
    binary main_v43 main_v41 main_v44 (mulf : (⟨S245760x256, .f32⟩ : BufTy).Contents (Elt F) → (⟨S245760x256, .f32⟩ : BufTy).Contents (Elt F) → (⟨S245760x256, .f32⟩ : BufTy).Contents (Elt F)),
    binary main_v38 main_arg1 main_v45 (mulf : (⟨S245760x256, .f32⟩ : BufTy).Contents (Elt F) → (⟨S245760x256, .f32⟩ : BufTy).Contents (Elt F) → (⟨S245760x256, .f32⟩ : BufTy).Contents (Elt F)),
    binary main_v44 main_v45 main_v46 (addf : (⟨S245760x256, .f32⟩ : BufTy).Contents (Elt F) → (⟨S245760x256, .f32⟩ : BufTy).Contents (Elt F) → (⟨S245760x256, .f32⟩ : BufTy).Contents (Elt F)),
    binary main_v46 main_arg8 main_v47 ((fun l r => Host.dotGeneral dot_S245760x256_S256x256_S245760x256_1_0_0_1_n_n none l r) : (⟨S245760x256, .f32⟩ : BufTy).Contents (Elt F) → (⟨S256x256, .f32⟩ : BufTy).Contents (Elt F) → (⟨S245760x256, .f32⟩ : BufTy).Contents (Elt F)),
    unary main_arg9 main_v48 (broadcastInDim S1x256 ![1] bcast_S256_S1x256_1 : (⟨S256, .f32⟩ : BufTy).Contents (Elt F) → (⟨S1x256, .f32⟩ : BufTy).Contents (Elt F)),
    unary main_v48 main_v49 (broadcastInDim S245760x256 ![0, 1] bcast_S1x256_S245760x256_0_1 : (⟨S1x256, .f32⟩ : BufTy).Contents (Elt F) → (⟨S245760x256, .f32⟩ : BufTy).Contents (Elt F)),
    binary main_v47 main_v49 main_v50 (addf : (⟨S245760x256, .f32⟩ : BufTy).Contents (Elt F) → (⟨S245760x256, .f32⟩ : BufTy).Contents (Elt F) → (⟨S245760x256, .f32⟩ : BufTy).Contents (Elt F)),
    reshape main_v50 main_v51 rfl shapeCasts_S245760x256_S245760x16x16,
    nullary main_cst_4 (constant S_ .f32 0xFF800000#32),
    binary main_v51 main_cst_4 main_v52 ((fun x v => Host.reduce FloatOps.maximumf x v reducesTo_S245760x16x16_S245760x16_d2 h_S_) : (⟨S245760x16x16, .f32⟩ : BufTy).Contents (Elt F) → (⟨S_, .f32⟩ : BufTy).Contents (Elt F) → (⟨S245760x16, .f32⟩ : BufTy).Contents (Elt F)),
    nullary main_cst_5 (constant S_ .f32 0xFF800000#32),
    binary main_v51 main_cst_5 main_v53 ((fun x v => Host.reduce FloatOps.maximumf x v reducesTo_S245760x16x16_S245760x16_d1 h_S_) : (⟨S245760x16x16, .f32⟩ : BufTy).Contents (Elt F) → (⟨S_, .f32⟩ : BufTy).Contents (Elt F) → (⟨S245760x16, .f32⟩ : BufTy).Contents (Elt F)),
    unary main_v52 main_v54 (broadcastInDim S245760x16x1 ![0, 1] bcast_S245760x16_S245760x16x1_0_1 : (⟨S245760x16, .f32⟩ : BufTy).Contents (Elt F) → (⟨S245760x16x1, .f32⟩ : BufTy).Contents (Elt F)),
    unary main_v53 main_v55 (broadcastInDim S245760x16x1 ![0, 1] bcast_S245760x16_S245760x16x1_0_1 : (⟨S245760x16, .f32⟩ : BufTy).Contents (Elt F) → (⟨S245760x16x1, .f32⟩ : BufTy).Contents (Elt F)),
    binary main_v54 main_v55 main_v56 ((fun a b => concatenate S245760x16x2 2 [⟨S245760x16x1, a⟩, ⟨S245760x16x1, b⟩] concatenates_S245760x16x1_S245760x16x1_S245760x16x2_d2) : (⟨S245760x16x1, .f32⟩ : BufTy).Contents (Elt F) → (⟨S245760x16x1, .f32⟩ : BufTy).Contents (Elt F) → (⟨S245760x16x2, .f32⟩ : BufTy).Contents (Elt F)),
    reshape main_v56 main_v57 rfl shapeCasts_S245760x16x2_S491520x16,
    reshape main_v57 main_v58 rfl shapeCasts_S491520x16_S32768x15x16,
    unary main_v58 main_v59 ((extractStridedSlice S1x14x16 ![0, 1, 0] · slices_S32768x15x16_S1x14x16_0_1_0) : (⟨S32768x15x16, .f32⟩ : BufTy).Contents (Elt F) → (⟨S1x14x16, .f32⟩ : BufTy).Contents (Elt F)),
    reshape main_v59 main_v60 rfl shapeCasts_S1x14x16_S14x16,
    unary main_v58 main_v61 ((extractStridedSlice S1x14x16 ![1, 0, 0] · slices_S32768x15x16_S1x14x16_1_0_0) : (⟨S32768x15x16, .f32⟩ : BufTy).Contents (Elt F) → (⟨S1x14x16, .f32⟩ : BufTy).Contents (Elt F)),
    reshape main_v61 main_v62 rfl shapeCasts_S1x14x16_S14x16,
    nullary main_cst_6 (constant S_ .f32 0xFF800000#32),
    binary main_v60 main_cst_6 main_v63 ((fun x v => Host.reduce FloatOps.maximumf x v reducesTo_S14x16_S14_d1 h_S_) : (⟨S14x16, .f32⟩ : BufTy).Contents (Elt F) → (⟨S_, .f32⟩ : BufTy).Contents (Elt F) → (⟨S14, .f32⟩ : BufTy).Contents (Elt F)),
    nullary main_cst_7 (constant S_ .f32 0xFF800000#32),
    binary main_v62 main_cst_7 main_v64 ((fun x v => Host.reduce FloatOps.maximumf x v reducesTo_S14x16_S14_d1 h_S_) : (⟨S14x16, .f32⟩ : BufTy).Contents (Elt F) → (⟨S_, .f32⟩ : BufTy).Contents (Elt F) → (⟨S14, .f32⟩ : BufTy).Contents (Elt F)),
    binary main_v63 main_v64 main_v65 (cmpf .ogt : (⟨S14, .f32⟩ : BufTy).Contents (Elt F) → (⟨S14, .f32⟩ : BufTy).Contents (Elt F) → (⟨S14, .i1⟩ : BufTy).Contents (Elt F)),
    unary main_v65 main_v66 (broadcastInDim S14x1 ![0] bcast_S14_S14x1_0 : (⟨S14, .i1⟩ : BufTy).Contents (Elt F) → (⟨S14x1, .i1⟩ : BufTy).Contents (Elt F)),
    TRef.unary (TRef.of (T := ⟨S14x1, .i1⟩) main_v66) (TRef.of (T := ⟨S14x16, .i1⟩) main_call1_v0) (broadcastInDim S14x16 ![0, 1] bcast_S14x1_S14x16_0_1),
    TRef.ternary (TRef.of (T := ⟨S14x16, .i1⟩) main_call1_v0) (TRef.of (T := ⟨S14x16, .f32⟩) main_v60) (TRef.of (T := ⟨S14x16, .f32⟩) main_v62) (TRef.of (T := ⟨S14x16, .f32⟩) main_v67) select,
    unary main_v58 main_v68 ((extractStridedSlice S16384x1x16 ![0, 0, 0] · slices_S32768x15x16_S16384x1x16_0_0_0) : (⟨S32768x15x16, .f32⟩ : BufTy).Contents (Elt F) → (⟨S16384x1x16, .f32⟩ : BufTy).Contents (Elt F)),
    unary main_v67 main_v69 (broadcastInDim S1x14x16 ![1, 2] bcast_S14x16_S1x14x16_1_2 : (⟨S14x16, .f32⟩ : BufTy).Contents (Elt F) → (⟨S1x14x16, .f32⟩ : BufTy).Contents (Elt F)),
    unary main_v69 main_v70 (broadcastInDim S16384x14x16 ![0, 1, 2] bcast_S1x14x16_S16384x14x16_0_1_2 : (⟨S1x14x16, .f32⟩ : BufTy).Contents (Elt F) → (⟨S16384x14x16, .f32⟩ : BufTy).Contents (Elt F)),
    unary main_v58 main_v71 ((extractStridedSlice S16384x1x16 ![0, 14, 0] · slices_S32768x15x16_S16384x1x16_0_14_0) : (⟨S32768x15x16, .f32⟩ : BufTy).Contents (Elt F) → (⟨S16384x1x16, .f32⟩ : BufTy).Contents (Elt F)),
    nary ![main_v68, main_v70, main_v71] main_v72 (fun u => concatenate S16384x16x16 1 [⟨S16384x1x16, u 0⟩, ⟨S16384x14x16, u 1⟩, ⟨S16384x1x16, u 2⟩] concatenates_S16384x1x16_S16384x14x16_S16384x1x16_S16384x16x16_d1) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., unary_bufs_sub .., unary_bufs_sub .., unary_bufs_sub .., binary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub .., binary_bufs_sub .., unary_bufs_sub .., unary_bufs_sub .., binary_bufs_sub .., reshape_bufs_sub .., nullary_bufs_sub .., binary_bufs_sub .., nullary_bufs_sub .., binary_bufs_sub .., unary_bufs_sub .., unary_bufs_sub .., binary_bufs_sub .., reshape_bufs_sub .., reshape_bufs_sub .., unary_bufs_sub .., reshape_bufs_sub .., unary_bufs_sub .., reshape_bufs_sub .., nullary_bufs_sub .., binary_bufs_sub .., nullary_bufs_sub .., binary_bufs_sub .., binary_bufs_sub .., unary_bufs_sub .., unary_bufs_sub .., ternary_bufs_sub .., unary_bufs_sub .., unary_bufs_sub .., unary_bufs_sub .., unary_bufs_sub .., nary_bufs_sub ..⟩

/-- The operations up to the new hidden state. -/
abbrev opsA : List (HloOp τ sig (Elt F)) :=
  [ unary main_arg0 main_v0 ((extractStridedSlice S16384x15x96 ![0, 0, 0] · slices_S16384x16x96_S16384x15x96_0_0_0) : (⟨S16384x16x96, .f32⟩ : BufTy).Contents (Elt F) → (⟨S16384x15x96, .f32⟩ : BufTy).Contents (Elt F)),
    unary main_arg0 main_v1 ((extractStridedSlice S16384x15x96 ![0, 1, 0] · slices_S16384x16x96_S16384x15x96_0_1_0) : (⟨S16384x16x96, .f32⟩ : BufTy).Contents (Elt F) → (⟨S16384x15x96, .f32⟩ : BufTy).Contents (Elt F)),
    unary main_v0 main_v2 (broadcastInDim S16384x1x15x96 ![0, 2, 3] bcast_S16384x15x96_S16384x1x15x96_0_2_3 : (⟨S16384x15x96, .f32⟩ : BufTy).Contents (Elt F) → (⟨S16384x1x15x96, .f32⟩ : BufTy).Contents (Elt F)),
    unary main_v1 main_v3 (broadcastInDim S16384x1x15x96 ![0, 2, 3] bcast_S16384x15x96_S16384x1x15x96_0_2_3 : (⟨S16384x15x96, .f32⟩ : BufTy).Contents (Elt F) → (⟨S16384x1x15x96, .f32⟩ : BufTy).Contents (Elt F)),
    binary main_v2 main_v3 main_v4 ((fun a b => concatenate S16384x2x15x96 1 [⟨S16384x1x15x96, a⟩, ⟨S16384x1x15x96, b⟩] concatenates_S16384x1x15x96_S16384x1x15x96_S16384x2x15x96_d1) : (⟨S16384x1x15x96, .f32⟩ : BufTy).Contents (Elt F) → (⟨S16384x1x15x96, .f32⟩ : BufTy).Contents (Elt F) → (⟨S16384x2x15x96, .f32⟩ : BufTy).Contents (Elt F)),
    reshape main_v4 main_v5 rfl shapeCasts_S16384x2x15x96_S245760x192,
    binary main_v5 main_arg2 main_v6 ((fun l r => Host.dotGeneral dot_S245760x192_S192x256_S245760x256_1_0_0_1_n_n none l r) : (⟨S245760x192, .f32⟩ : BufTy).Contents (Elt F) → (⟨S192x256, .f32⟩ : BufTy).Contents (Elt F) → (⟨S245760x256, .f32⟩ : BufTy).Contents (Elt F)),
    unary main_arg3 main_v7 (broadcastInDim S1x256 ![1] bcast_S256_S1x256_1 : (⟨S256, .f32⟩ : BufTy).Contents (Elt F) → (⟨S1x256, .f32⟩ : BufTy).Contents (Elt F)),
    unary main_v7 main_v8 (broadcastInDim S245760x256 ![0, 1] bcast_S1x256_S245760x256_0_1 : (⟨S1x256, .f32⟩ : BufTy).Contents (Elt F) → (⟨S245760x256, .f32⟩ : BufTy).Contents (Elt F)),
    binary main_v6 main_v8 main_v9 (addf : (⟨S245760x256, .f32⟩ : BufTy).Contents (Elt F) → (⟨S245760x256, .f32⟩ : BufTy).Contents (Elt F) → (⟨S245760x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S245760x256, .f32⟩) main_call0_v0) (broadcastInDim S245760x256 ![] bcast_S_S245760x256),
    TRef.binary (TRef.of (T := ⟨S245760x256, .f32⟩) main_v9) (TRef.of (T := ⟨S245760x256, .f32⟩) main_call0_v0) (TRef.of (T := ⟨S245760x256, .f32⟩) main_v10) maximumf,
    binary main_v10 main_arg4 main_v11 ((fun l r => Host.dotGeneral dot_S245760x256_S256x768_S245760x768_1_0_0_1_n_n none l r) : (⟨S245760x256, .f32⟩ : BufTy).Contents (Elt F) → (⟨S256x768, .f32⟩ : BufTy).Contents (Elt F) → (⟨S245760x768, .f32⟩ : BufTy).Contents (Elt F)),
    unary main_arg6 main_v12 (broadcastInDim S1x768 ![1] bcast_S768_S1x768_1 : (⟨S768, .f32⟩ : BufTy).Contents (Elt F) → (⟨S1x768, .f32⟩ : BufTy).Contents (Elt F)),
    unary main_v12 main_v13 (broadcastInDim S245760x768 ![0, 1] bcast_S1x768_S245760x768_0_1 : (⟨S1x768, .f32⟩ : BufTy).Contents (Elt F) → (⟨S245760x768, .f32⟩ : BufTy).Contents (Elt F)),
    binary main_v11 main_v13 main_v14 (addf : (⟨S245760x768, .f32⟩ : BufTy).Contents (Elt F) → (⟨S245760x768, .f32⟩ : BufTy).Contents (Elt F) → (⟨S245760x768, .f32⟩ : BufTy).Contents (Elt F)),
    binary main_arg1 main_arg5 main_v15 ((fun l r => Host.dotGeneral dot_S245760x256_S256x768_S245760x768_1_0_0_1_n_n none l r) : (⟨S245760x256, .f32⟩ : BufTy).Contents (Elt F) → (⟨S256x768, .f32⟩ : BufTy).Contents (Elt F) → (⟨S245760x768, .f32⟩ : BufTy).Contents (Elt F)),
    unary main_arg7 main_v16 (broadcastInDim S1x768 ![1] bcast_S768_S1x768_1 : (⟨S768, .f32⟩ : BufTy).Contents (Elt F) → (⟨S1x768, .f32⟩ : BufTy).Contents (Elt F)),
    unary main_v16 main_v17 (broadcastInDim S245760x768 ![0, 1] bcast_S1x768_S245760x768_0_1 : (⟨S1x768, .f32⟩ : BufTy).Contents (Elt F) → (⟨S245760x768, .f32⟩ : BufTy).Contents (Elt F)),
    binary main_v15 main_v17 main_v18 (addf : (⟨S245760x768, .f32⟩ : BufTy).Contents (Elt F) → (⟨S245760x768, .f32⟩ : BufTy).Contents (Elt F) → (⟨S245760x768, .f32⟩ : BufTy).Contents (Elt F)),
    unary main_v14 main_v19 ((extractStridedSlice S245760x256 ![0, 0] · slices_S245760x768_S245760x256_0_0) : (⟨S245760x768, .f32⟩ : BufTy).Contents (Elt F) → (⟨S245760x256, .f32⟩ : BufTy).Contents (Elt F)),
    unary main_v14 main_v20 ((extractStridedSlice S245760x256 ![0, 256] · slices_S245760x768_S245760x256_0_256) : (⟨S245760x768, .f32⟩ : BufTy).Contents (Elt F) → (⟨S245760x256, .f32⟩ : BufTy).Contents (Elt F)),
    unary main_v14 main_v21 ((extractStridedSlice S245760x256 ![0, 512] · slices_S245760x768_S245760x256_0_512) : (⟨S245760x768, .f32⟩ : BufTy).Contents (Elt F) → (⟨S245760x256, .f32⟩ : BufTy).Contents (Elt F)),
    unary main_v18 main_v22 ((extractStridedSlice S245760x256 ![0, 0] · slices_S245760x768_S245760x256_0_0) : (⟨S245760x768, .f32⟩ : BufTy).Contents (Elt F) → (⟨S245760x256, .f32⟩ : BufTy).Contents (Elt F)),
    unary main_v18 main_v23 ((extractStridedSlice S245760x256 ![0, 256] · slices_S245760x768_S245760x256_0_256) : (⟨S245760x768, .f32⟩ : BufTy).Contents (Elt F) → (⟨S245760x256, .f32⟩ : BufTy).Contents (Elt F)),
    unary main_v18 main_v24 ((extractStridedSlice S245760x256 ![0, 512] · slices_S245760x768_S245760x256_0_512) : (⟨S245760x768, .f32⟩ : BufTy).Contents (Elt F) → (⟨S245760x256, .f32⟩ : BufTy).Contents (Elt F)),
    binary main_v19 main_v22 main_v25 (addf : (⟨S245760x256, .f32⟩ : BufTy).Contents (Elt F) → (⟨S245760x256, .f32⟩ : BufTy).Contents (Elt F) → (⟨S245760x256, .f32⟩ : BufTy).Contents (Elt F)),
    unary main_v25 main_v26 (Host.negf : (⟨S245760x256, .f32⟩ : BufTy).Contents (Elt F) → (⟨S245760x256, .f32⟩ : BufTy).Contents (Elt F)),
    unary main_v26 main_v27 (Host.exp : (⟨S245760x256, .f32⟩ : BufTy).Contents (Elt F) → (⟨S245760x256, .f32⟩ : BufTy).Contents (Elt F)),
    nullary main_cst (constant S_ .f32 0x3F800000#32),
    unary main_cst main_v28 (broadcastInDim S245760x256 ![] bcast_S_S245760x256 : (⟨S_, .f32⟩ : BufTy).Contents (Elt F) → (⟨S245760x256, .f32⟩ : BufTy).Contents (Elt F)),
    binary main_v28 main_v27 main_v29 (addf : (⟨S245760x256, .f32⟩ : BufTy).Contents (Elt F) → (⟨S245760x256, .f32⟩ : BufTy).Contents (Elt F) → (⟨S245760x256, .f32⟩ : BufTy).Contents (Elt F)),
    nullary main_cst_0 (constant S_ .f32 0x3F800000#32),
    unary main_cst_0 main_v30 (broadcastInDim S245760x256 ![] bcast_S_S245760x256 : (⟨S_, .f32⟩ : BufTy).Contents (Elt F) → (⟨S245760x256, .f32⟩ : BufTy).Contents (Elt F)),
    binary main_v30 main_v29 main_v31 (Host.divf : (⟨S245760x256, .f32⟩ : BufTy).Contents (Elt F) → (⟨S245760x256, .f32⟩ : BufTy).Contents (Elt F) → (⟨S245760x256, .f32⟩ : BufTy).Contents (Elt F)),
    binary main_v20 main_v23 main_v32 (addf : (⟨S245760x256, .f32⟩ : BufTy).Contents (Elt F) → (⟨S245760x256, .f32⟩ : BufTy).Contents (Elt F) → (⟨S245760x256, .f32⟩ : BufTy).Contents (Elt F)),
    unary main_v32 main_v33 (Host.negf : (⟨S245760x256, .f32⟩ : BufTy).Contents (Elt F) → (⟨S245760x256, .f32⟩ : BufTy).Contents (Elt F)),
    unary main_v33 main_v34 (Host.exp : (⟨S245760x256, .f32⟩ : BufTy).Contents (Elt F) → (⟨S245760x256, .f32⟩ : BufTy).Contents (Elt F)),
    nullary main_cst_1 (constant S_ .f32 0x3F800000#32),
    unary main_cst_1 main_v35 (broadcastInDim S245760x256 ![] bcast_S_S245760x256 : (⟨S_, .f32⟩ : BufTy).Contents (Elt F) → (⟨S245760x256, .f32⟩ : BufTy).Contents (Elt F)),
    binary main_v35 main_v34 main_v36 (addf : (⟨S245760x256, .f32⟩ : BufTy).Contents (Elt F) → (⟨S245760x256, .f32⟩ : BufTy).Contents (Elt F) → (⟨S245760x256, .f32⟩ : BufTy).Contents (Elt F)),
    nullary main_cst_2 (constant S_ .f32 0x3F800000#32),
    unary main_cst_2 main_v37 (broadcastInDim S245760x256 ![] bcast_S_S245760x256 : (⟨S_, .f32⟩ : BufTy).Contents (Elt F) → (⟨S245760x256, .f32⟩ : BufTy).Contents (Elt F)),
    binary main_v37 main_v36 main_v38 (Host.divf : (⟨S245760x256, .f32⟩ : BufTy).Contents (Elt F) → (⟨S245760x256, .f32⟩ : BufTy).Contents (Elt F) → (⟨S245760x256, .f32⟩ : BufTy).Contents (Elt F)),
    binary main_v31 main_v24 main_v39 (mulf : (⟨S245760x256, .f32⟩ : BufTy).Contents (Elt F) → (⟨S245760x256, .f32⟩ : BufTy).Contents (Elt F) → (⟨S245760x256, .f32⟩ : BufTy).Contents (Elt F)),
    binary main_v21 main_v39 main_v40 (addf : (⟨S245760x256, .f32⟩ : BufTy).Contents (Elt F) → (⟨S245760x256, .f32⟩ : BufTy).Contents (Elt F) → (⟨S245760x256, .f32⟩ : BufTy).Contents (Elt F)),
    unary main_v40 main_v41 (Host.tanh : (⟨S245760x256, .f32⟩ : BufTy).Contents (Elt F) → (⟨S245760x256, .f32⟩ : BufTy).Contents (Elt F)),
    nullary main_cst_3 (constant S_ .f32 0x3F800000#32),
    unary main_cst_3 main_v42 (broadcastInDim S245760x256 ![] bcast_S_S245760x256 : (⟨S_, .f32⟩ : BufTy).Contents (Elt F) → (⟨S245760x256, .f32⟩ : BufTy).Contents (Elt F)),
    binary main_v42 main_v38 main_v43 (subf : (⟨S245760x256, .f32⟩ : BufTy).Contents (Elt F) → (⟨S245760x256, .f32⟩ : BufTy).Contents (Elt F) → (⟨S245760x256, .f32⟩ : BufTy).Contents (Elt F)),
    binary main_v43 main_v41 main_v44 (mulf : (⟨S245760x256, .f32⟩ : BufTy).Contents (Elt F) → (⟨S245760x256, .f32⟩ : BufTy).Contents (Elt F) → (⟨S245760x256, .f32⟩ : BufTy).Contents (Elt F)),
    binary main_v38 main_arg1 main_v45 (mulf : (⟨S245760x256, .f32⟩ : BufTy).Contents (Elt F) → (⟨S245760x256, .f32⟩ : BufTy).Contents (Elt F) → (⟨S245760x256, .f32⟩ : BufTy).Contents (Elt F)),
    binary main_v44 main_v45 main_v46 (addf : (⟨S245760x256, .f32⟩ : BufTy).Contents (Elt F) → (⟨S245760x256, .f32⟩ : BufTy).Contents (Elt F) → (⟨S245760x256, .f32⟩ : BufTy).Contents (Elt F)) ]

/-- The head and the row and column maxima. -/
abbrev opsS1 : List (HloOp τ sig (Elt F)) :=
  [ binary main_v46 main_arg8 main_v47 ((fun l r => Host.dotGeneral dot_S245760x256_S256x256_S245760x256_1_0_0_1_n_n none l r) : (⟨S245760x256, .f32⟩ : BufTy).Contents (Elt F) → (⟨S256x256, .f32⟩ : BufTy).Contents (Elt F) → (⟨S245760x256, .f32⟩ : BufTy).Contents (Elt F)),
    unary main_arg9 main_v48 (broadcastInDim S1x256 ![1] bcast_S256_S1x256_1 : (⟨S256, .f32⟩ : BufTy).Contents (Elt F) → (⟨S1x256, .f32⟩ : BufTy).Contents (Elt F)),
    unary main_v48 main_v49 (broadcastInDim S245760x256 ![0, 1] bcast_S1x256_S245760x256_0_1 : (⟨S1x256, .f32⟩ : BufTy).Contents (Elt F) → (⟨S245760x256, .f32⟩ : BufTy).Contents (Elt F)),
    binary main_v47 main_v49 main_v50 (addf : (⟨S245760x256, .f32⟩ : BufTy).Contents (Elt F) → (⟨S245760x256, .f32⟩ : BufTy).Contents (Elt F) → (⟨S245760x256, .f32⟩ : BufTy).Contents (Elt F)),
    reshape main_v50 main_v51 rfl shapeCasts_S245760x256_S245760x16x16,
    nullary main_cst_4 (constant S_ .f32 0xFF800000#32),
    binary main_v51 main_cst_4 main_v52 ((fun x v => Host.reduce FloatOps.maximumf x v reducesTo_S245760x16x16_S245760x16_d2 h_S_) : (⟨S245760x16x16, .f32⟩ : BufTy).Contents (Elt F) → (⟨S_, .f32⟩ : BufTy).Contents (Elt F) → (⟨S245760x16, .f32⟩ : BufTy).Contents (Elt F)),
    nullary main_cst_5 (constant S_ .f32 0xFF800000#32),
    binary main_v51 main_cst_5 main_v53 ((fun x v => Host.reduce FloatOps.maximumf x v reducesTo_S245760x16x16_S245760x16_d1 h_S_) : (⟨S245760x16x16, .f32⟩ : BufTy).Contents (Elt F) → (⟨S_, .f32⟩ : BufTy).Contents (Elt F) → (⟨S245760x16, .f32⟩ : BufTy).Contents (Elt F)),
    unary main_v52 main_v54 (broadcastInDim S245760x16x1 ![0, 1] bcast_S245760x16_S245760x16x1_0_1 : (⟨S245760x16, .f32⟩ : BufTy).Contents (Elt F) → (⟨S245760x16x1, .f32⟩ : BufTy).Contents (Elt F)),
    unary main_v53 main_v55 (broadcastInDim S245760x16x1 ![0, 1] bcast_S245760x16_S245760x16x1_0_1 : (⟨S245760x16, .f32⟩ : BufTy).Contents (Elt F) → (⟨S245760x16x1, .f32⟩ : BufTy).Contents (Elt F)) ]

/-- The row and column maxima joined along a new last axis: a concatenation of two arrays. -/
abbrev opJoin : HloOp τ sig (Elt F) :=
  binary main_v54 main_v55 main_v56 ((fun a b => concatenate S245760x16x2 2 [⟨S245760x16x1, a⟩, ⟨S245760x16x1, b⟩] concatenates_S245760x16x1_S245760x16x1_S245760x16x2_d2) : (⟨S245760x16x1, .f32⟩ : BufTy).Contents (Elt F) → (⟨S245760x16x1, .f32⟩ : BufTy).Contents (Elt F) → (⟨S245760x16x2, .f32⟩ : BufTy).Contents (Elt F))

/-- From the joined maxima to the last operation's three operands. -/
abbrev opsS3 : List (HloOp τ sig (Elt F)) :=
  [ reshape main_v56 main_v57 rfl shapeCasts_S245760x16x2_S491520x16,
    reshape main_v57 main_v58 rfl shapeCasts_S491520x16_S32768x15x16,
    unary main_v58 main_v59 ((extractStridedSlice S1x14x16 ![0, 1, 0] · slices_S32768x15x16_S1x14x16_0_1_0) : (⟨S32768x15x16, .f32⟩ : BufTy).Contents (Elt F) → (⟨S1x14x16, .f32⟩ : BufTy).Contents (Elt F)),
    reshape main_v59 main_v60 rfl shapeCasts_S1x14x16_S14x16,
    unary main_v58 main_v61 ((extractStridedSlice S1x14x16 ![1, 0, 0] · slices_S32768x15x16_S1x14x16_1_0_0) : (⟨S32768x15x16, .f32⟩ : BufTy).Contents (Elt F) → (⟨S1x14x16, .f32⟩ : BufTy).Contents (Elt F)),
    reshape main_v61 main_v62 rfl shapeCasts_S1x14x16_S14x16,
    nullary main_cst_6 (constant S_ .f32 0xFF800000#32),
    binary main_v60 main_cst_6 main_v63 ((fun x v => Host.reduce FloatOps.maximumf x v reducesTo_S14x16_S14_d1 h_S_) : (⟨S14x16, .f32⟩ : BufTy).Contents (Elt F) → (⟨S_, .f32⟩ : BufTy).Contents (Elt F) → (⟨S14, .f32⟩ : BufTy).Contents (Elt F)),
    nullary main_cst_7 (constant S_ .f32 0xFF800000#32),
    binary main_v62 main_cst_7 main_v64 ((fun x v => Host.reduce FloatOps.maximumf x v reducesTo_S14x16_S14_d1 h_S_) : (⟨S14x16, .f32⟩ : BufTy).Contents (Elt F) → (⟨S_, .f32⟩ : BufTy).Contents (Elt F) → (⟨S14, .f32⟩ : BufTy).Contents (Elt F)),
    binary main_v63 main_v64 main_v65 (cmpf .ogt : (⟨S14, .f32⟩ : BufTy).Contents (Elt F) → (⟨S14, .f32⟩ : BufTy).Contents (Elt F) → (⟨S14, .i1⟩ : BufTy).Contents (Elt F)),
    unary main_v65 main_v66 (broadcastInDim S14x1 ![0] bcast_S14_S14x1_0 : (⟨S14, .i1⟩ : BufTy).Contents (Elt F) → (⟨S14x1, .i1⟩ : BufTy).Contents (Elt F)),
    TRef.unary (TRef.of (T := ⟨S14x1, .i1⟩) main_v66) (TRef.of (T := ⟨S14x16, .i1⟩) main_call1_v0) (broadcastInDim S14x16 ![0, 1] bcast_S14x1_S14x16_0_1),
    TRef.ternary (TRef.of (T := ⟨S14x16, .i1⟩) main_call1_v0) (TRef.of (T := ⟨S14x16, .f32⟩) main_v60) (TRef.of (T := ⟨S14x16, .f32⟩) main_v62) (TRef.of (T := ⟨S14x16, .f32⟩) main_v67) select,
    unary main_v58 main_v68 ((extractStridedSlice S16384x1x16 ![0, 0, 0] · slices_S32768x15x16_S16384x1x16_0_0_0) : (⟨S32768x15x16, .f32⟩ : BufTy).Contents (Elt F) → (⟨S16384x1x16, .f32⟩ : BufTy).Contents (Elt F)),
    unary main_v67 main_v69 (broadcastInDim S1x14x16 ![1, 2] bcast_S14x16_S1x14x16_1_2 : (⟨S14x16, .f32⟩ : BufTy).Contents (Elt F) → (⟨S1x14x16, .f32⟩ : BufTy).Contents (Elt F)),
    unary main_v69 main_v70 (broadcastInDim S16384x14x16 ![0, 1, 2] bcast_S1x14x16_S16384x14x16_0_1_2 : (⟨S1x14x16, .f32⟩ : BufTy).Contents (Elt F) → (⟨S16384x14x16, .f32⟩ : BufTy).Contents (Elt F)),
    unary main_v58 main_v71 ((extractStridedSlice S16384x1x16 ![0, 14, 0] · slices_S32768x15x16_S16384x1x16_0_14_0) : (⟨S32768x15x16, .f32⟩ : BufTy).Contents (Elt F) → (⟨S16384x1x16, .f32⟩ : BufTy).Contents (Elt F)) ]

/-- The decode's operations but the last. -/
abbrev opsB0 : List (HloOp τ sig (Elt F)) := opsS1 ++ [opJoin] ++ opsS3

/-- The last operation: the concatenation of three arrays. -/
abbrev opLast : HloOp τ sig (Elt F) :=
  nary ![main_v68, main_v70, main_v71] main_v72 (fun u => concatenate S16384x16x16 1 [⟨S16384x1x16, u 0⟩, ⟨S16384x14x16, u 1⟩, ⟨S16384x1x16, u 2⟩] concatenates_S16384x1x16_S16384x14x16_S16384x1x16_S16384x16x16_d1)

/-- The decode's operations. -/
abbrev opsB : List (HloOp τ sig (Elt F)) := opsB0 ++ [opLast]

set_option maxRecDepth 65536 in
theorem ops_split : (ops : List (HloOp τ sig (Elt F))) = opsA ++ opsB := rfl

set_option maxRecDepth 65536 in
set_option maxHeartbeats 400000000 in
/-- After the first stretch the new hidden state is its stage of the arguments. -/
theorem afterA_v46 (m : (ℓ : Loc nD τ sig) → Buf (Elt F) ℓ) (c : Dev nD) :
    StableHlo.after (opsA (F := F)) (fun b => m (c, b)) (Proc.devRef .tc main_v46)
      = Cert.ReferenceIdeal.ReadP.val_main_v46 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_v4, Cert.ReferenceIdeal.ReadP.val_main_v5, Cert.ReferenceIdeal.ReadP.val_main_v6, Cert.ReferenceIdeal.ReadP.val_main_v7, Cert.ReferenceIdeal.ReadP.val_main_v8, Cert.ReferenceIdeal.ReadP.val_main_v9, Cert.ReferenceIdeal.ReadP.val_main_call0_cst, Cert.ReferenceIdeal.ReadP.val_main_call0_v0, Cert.ReferenceIdeal.ReadP.val_main_v10, Cert.ReferenceIdeal.ReadP.val_main_v11, Cert.ReferenceIdeal.ReadP.val_main_v12, Cert.ReferenceIdeal.ReadP.val_main_v13, Cert.ReferenceIdeal.ReadP.val_main_v14, Cert.ReferenceIdeal.ReadP.val_main_v15, Cert.ReferenceIdeal.ReadP.val_main_v16, Cert.ReferenceIdeal.ReadP.val_main_v17, Cert.ReferenceIdeal.ReadP.val_main_v18, Cert.ReferenceIdeal.ReadP.val_main_v19, Cert.ReferenceIdeal.ReadP.val_main_v20, Cert.ReferenceIdeal.ReadP.val_main_v21, Cert.ReferenceIdeal.ReadP.val_main_v22, Cert.ReferenceIdeal.ReadP.val_main_v23, Cert.ReferenceIdeal.ReadP.val_main_v24, Cert.ReferenceIdeal.ReadP.val_main_v25, Cert.ReferenceIdeal.ReadP.val_main_v26, Cert.ReferenceIdeal.ReadP.val_main_v27, Cert.ReferenceIdeal.ReadP.val_main_cst, Cert.ReferenceIdeal.ReadP.val_main_v28, Cert.ReferenceIdeal.ReadP.val_main_v29, Cert.ReferenceIdeal.ReadP.val_main_cst_0, Cert.ReferenceIdeal.ReadP.val_main_v30, Cert.ReferenceIdeal.ReadP.val_main_v31, Cert.ReferenceIdeal.ReadP.val_main_v32, Cert.ReferenceIdeal.ReadP.val_main_v33, Cert.ReferenceIdeal.ReadP.val_main_v34, Cert.ReferenceIdeal.ReadP.val_main_cst_1, Cert.ReferenceIdeal.ReadP.val_main_v35, Cert.ReferenceIdeal.ReadP.val_main_v36, Cert.ReferenceIdeal.ReadP.val_main_cst_2, Cert.ReferenceIdeal.ReadP.val_main_v37, Cert.ReferenceIdeal.ReadP.val_main_v38, Cert.ReferenceIdeal.ReadP.val_main_v39, Cert.ReferenceIdeal.ReadP.val_main_v40, Cert.ReferenceIdeal.ReadP.val_main_v41, Cert.ReferenceIdeal.ReadP.val_main_cst_3, Cert.ReferenceIdeal.ReadP.val_main_v42, Cert.ReferenceIdeal.ReadP.val_main_v43, Cert.ReferenceIdeal.ReadP.val_main_v44, Cert.ReferenceIdeal.ReadP.val_main_v45, Cert.ReferenceIdeal.ReadP.val_main_v46]
  <;> rfl

set_option maxRecDepth 65536 in
set_option maxHeartbeats 400000000 in
theorem afterA_arg8 (m : (ℓ : Loc nD τ sig) → Buf (Elt F) ℓ) (c : Dev nD) :
    StableHlo.after (opsA (F := F)) (fun b => m (c, b)) (Proc.devRef .tc main_arg8) = m ((c.tc : Thread nD τ).loc main_arg8) := by
  after_results_simp <;> rfl

set_option maxRecDepth 65536 in
set_option maxHeartbeats 400000000 in
theorem afterA_arg9 (m : (ℓ : Loc nD τ sig) → Buf (Elt F) ℓ) (c : Dev nD) :
    StableHlo.after (opsA (F := F)) (fun b => m (c, b)) (Proc.devRef .tc main_arg9) = m ((c.tc : Thread nD τ).loc main_arg9) := by
  after_results_simp <;> rfl

set_option maxRecDepth 65536 in
set_option maxHeartbeats 400000000 in
/-- Operand main_v54 of the join, after the head and the two maxima from any contents. -/
theorem s1_v54 (W : Valuation τ sig (Elt F)) (w2 : (⟨S256x256, .f32⟩ : BufTy).Contents (Elt F)) (b2 : (⟨S256, .f32⟩ : BufTy).Contents (Elt F))
    (x0 : (⟨S16384x16x96, .f32⟩ : BufTy).Contents (Elt F)) (x1 : (⟨S245760x256, .f32⟩ : BufTy).Contents (Elt F))
    (x2 : (⟨S192x256, .f32⟩ : BufTy).Contents (Elt F)) (x3 : (⟨S256, .f32⟩ : BufTy).Contents (Elt F))
    (x4 x5 : (⟨S256x768, .f32⟩ : BufTy).Contents (Elt F)) (x6 x7 : (⟨S768, .f32⟩ : BufTy).Contents (Elt F))
    (h46 : W (Proc.devRef .tc main_v46) = Cert.ReferenceIdeal.ReadP.val_main_v46 (F := F) x0 x1 x2 x3 x4 x5 x6 x7)
    (h8 : W (Proc.devRef .tc main_arg8) = w2) (h9 : W (Proc.devRef .tc main_arg9) = b2) :
    StableHlo.after (opsS1 (F := F)) W (Proc.devRef .tc main_v54) = Cert.ReferenceIdeal.ReadP.val_main_v54 (F := F) x0 x1 x2 x3 x4 x5 x6 x7 w2 b2 := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      Cert.ReferenceIdeal.ReadP.val_main_v47, Cert.ReferenceIdeal.ReadP.val_main_v48, Cert.ReferenceIdeal.ReadP.val_main_v49, Cert.ReferenceIdeal.ReadP.val_main_v50, Cert.ReferenceIdeal.ReadP.val_main_v51, Cert.ReferenceIdeal.ReadP.val_main_cst_4, Cert.ReferenceIdeal.ReadP.val_main_v52, Cert.ReferenceIdeal.ReadP.val_main_cst_5, Cert.ReferenceIdeal.ReadP.val_main_v53, Cert.ReferenceIdeal.ReadP.val_main_v54, Cert.ReferenceIdeal.ReadP.val_main_v55, h46, h8, h9]
  <;> rfl

set_option maxRecDepth 65536 in
set_option maxHeartbeats 400000000 in
/-- Operand main_v55 of the join, after the head and the two maxima from any contents. -/
theorem s1_v55 (W : Valuation τ sig (Elt F)) (w2 : (⟨S256x256, .f32⟩ : BufTy).Contents (Elt F)) (b2 : (⟨S256, .f32⟩ : BufTy).Contents (Elt F))
    (x0 : (⟨S16384x16x96, .f32⟩ : BufTy).Contents (Elt F)) (x1 : (⟨S245760x256, .f32⟩ : BufTy).Contents (Elt F))
    (x2 : (⟨S192x256, .f32⟩ : BufTy).Contents (Elt F)) (x3 : (⟨S256, .f32⟩ : BufTy).Contents (Elt F))
    (x4 x5 : (⟨S256x768, .f32⟩ : BufTy).Contents (Elt F)) (x6 x7 : (⟨S768, .f32⟩ : BufTy).Contents (Elt F))
    (h46 : W (Proc.devRef .tc main_v46) = Cert.ReferenceIdeal.ReadP.val_main_v46 (F := F) x0 x1 x2 x3 x4 x5 x6 x7)
    (h8 : W (Proc.devRef .tc main_arg8) = w2) (h9 : W (Proc.devRef .tc main_arg9) = b2) :
    StableHlo.after (opsS1 (F := F)) W (Proc.devRef .tc main_v55) = Cert.ReferenceIdeal.ReadP.val_main_v55 (F := F) x0 x1 x2 x3 x4 x5 x6 x7 w2 b2 := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      Cert.ReferenceIdeal.ReadP.val_main_v47, Cert.ReferenceIdeal.ReadP.val_main_v48, Cert.ReferenceIdeal.ReadP.val_main_v49, Cert.ReferenceIdeal.ReadP.val_main_v50, Cert.ReferenceIdeal.ReadP.val_main_v51, Cert.ReferenceIdeal.ReadP.val_main_cst_4, Cert.ReferenceIdeal.ReadP.val_main_v52, Cert.ReferenceIdeal.ReadP.val_main_cst_5, Cert.ReferenceIdeal.ReadP.val_main_v53, Cert.ReferenceIdeal.ReadP.val_main_v54, Cert.ReferenceIdeal.ReadP.val_main_v55, h46, h8, h9]
  <;> rfl

/-- The join, from contents holding its two operands. -/
theorem s2_v56 (W : Valuation τ sig (Elt F)) (w2 : (⟨S256x256, .f32⟩ : BufTy).Contents (Elt F)) (b2 : (⟨S256, .f32⟩ : BufTy).Contents (Elt F))
    (x0 : (⟨S16384x16x96, .f32⟩ : BufTy).Contents (Elt F)) (x1 : (⟨S245760x256, .f32⟩ : BufTy).Contents (Elt F))
    (x2 : (⟨S192x256, .f32⟩ : BufTy).Contents (Elt F)) (x3 : (⟨S256, .f32⟩ : BufTy).Contents (Elt F))
    (x4 x5 : (⟨S256x768, .f32⟩ : BufTy).Contents (Elt F)) (x6 x7 : (⟨S768, .f32⟩ : BufTy).Contents (Elt F))
    (h54 : W (Proc.devRef .tc main_v54) = Cert.ReferenceIdeal.ReadP.val_main_v54 (F := F) x0 x1 x2 x3 x4 x5 x6 x7 w2 b2)
    (h55 : W (Proc.devRef .tc main_v55) = Cert.ReferenceIdeal.ReadP.val_main_v55 (F := F) x0 x1 x2 x3 x4 x5 x6 x7 w2 b2) :
    StableHlo.after [opJoin (F := F)] W (Proc.devRef .tc main_v56) = Cert.ReferenceIdeal.ReadP.val_main_v56 (F := F) x0 x1 x2 x3 x4 x5 x6 x7 w2 b2 := by
  show (opJoin (F := F)).result W (Proc.devRef .tc main_v56) = _
  refine (binary_result _ _ _ _ _ _ _ _).trans ?_
  rw [h54, h55]
  rfl

set_option maxRecDepth 65536 in
set_option maxHeartbeats 400000000 in
/-- Operand main_v68 of the last operation, from any contents holding the joined maxima. -/
theorem s3_v68 (W : Valuation τ sig (Elt F)) (w2 : (⟨S256x256, .f32⟩ : BufTy).Contents (Elt F)) (b2 : (⟨S256, .f32⟩ : BufTy).Contents (Elt F))
    (x0 : (⟨S16384x16x96, .f32⟩ : BufTy).Contents (Elt F)) (x1 : (⟨S245760x256, .f32⟩ : BufTy).Contents (Elt F))
    (x2 : (⟨S192x256, .f32⟩ : BufTy).Contents (Elt F)) (x3 : (⟨S256, .f32⟩ : BufTy).Contents (Elt F))
    (x4 x5 : (⟨S256x768, .f32⟩ : BufTy).Contents (Elt F)) (x6 x7 : (⟨S768, .f32⟩ : BufTy).Contents (Elt F))
    (h56 : W (Proc.devRef .tc main_v56) = Cert.ReferenceIdeal.ReadP.val_main_v56 (F := F) x0 x1 x2 x3 x4 x5 x6 x7 w2 b2) :
    StableHlo.after (opsS3 (F := F)) W (Proc.devRef .tc main_v68) = Cert.ReferenceIdeal.ReadP.val_main_v68 (F := F) x0 x1 x2 x3 x4 x5 x6 x7 w2 b2 := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      Cert.ReferenceIdeal.ReadP.val_main_v57, Cert.ReferenceIdeal.ReadP.val_main_v58, Cert.ReferenceIdeal.ReadP.val_main_v59, Cert.ReferenceIdeal.ReadP.val_main_v60, Cert.ReferenceIdeal.ReadP.val_main_v61, Cert.ReferenceIdeal.ReadP.val_main_v62, Cert.ReferenceIdeal.ReadP.val_main_cst_6, Cert.ReferenceIdeal.ReadP.val_main_v63, Cert.ReferenceIdeal.ReadP.val_main_cst_7, Cert.ReferenceIdeal.ReadP.val_main_v64, Cert.ReferenceIdeal.ReadP.val_main_v65, Cert.ReferenceIdeal.ReadP.val_main_v66, Cert.ReferenceIdeal.ReadP.val_main_call1_v0, Cert.ReferenceIdeal.ReadP.val_main_v67, Cert.ReferenceIdeal.ReadP.val_main_v68, Cert.ReferenceIdeal.ReadP.val_main_v69, Cert.ReferenceIdeal.ReadP.val_main_v70, Cert.ReferenceIdeal.ReadP.val_main_v71, h56]
  <;> rfl

set_option maxRecDepth 65536 in
set_option maxHeartbeats 400000000 in
/-- Operand main_v70 of the last operation, from any contents holding the joined maxima. -/
theorem s3_v70 (W : Valuation τ sig (Elt F)) (w2 : (⟨S256x256, .f32⟩ : BufTy).Contents (Elt F)) (b2 : (⟨S256, .f32⟩ : BufTy).Contents (Elt F))
    (x0 : (⟨S16384x16x96, .f32⟩ : BufTy).Contents (Elt F)) (x1 : (⟨S245760x256, .f32⟩ : BufTy).Contents (Elt F))
    (x2 : (⟨S192x256, .f32⟩ : BufTy).Contents (Elt F)) (x3 : (⟨S256, .f32⟩ : BufTy).Contents (Elt F))
    (x4 x5 : (⟨S256x768, .f32⟩ : BufTy).Contents (Elt F)) (x6 x7 : (⟨S768, .f32⟩ : BufTy).Contents (Elt F))
    (h56 : W (Proc.devRef .tc main_v56) = Cert.ReferenceIdeal.ReadP.val_main_v56 (F := F) x0 x1 x2 x3 x4 x5 x6 x7 w2 b2) :
    StableHlo.after (opsS3 (F := F)) W (Proc.devRef .tc main_v70) = Cert.ReferenceIdeal.ReadP.val_main_v70 (F := F) x0 x1 x2 x3 x4 x5 x6 x7 w2 b2 := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      Cert.ReferenceIdeal.ReadP.val_main_v57, Cert.ReferenceIdeal.ReadP.val_main_v58, Cert.ReferenceIdeal.ReadP.val_main_v59, Cert.ReferenceIdeal.ReadP.val_main_v60, Cert.ReferenceIdeal.ReadP.val_main_v61, Cert.ReferenceIdeal.ReadP.val_main_v62, Cert.ReferenceIdeal.ReadP.val_main_cst_6, Cert.ReferenceIdeal.ReadP.val_main_v63, Cert.ReferenceIdeal.ReadP.val_main_cst_7, Cert.ReferenceIdeal.ReadP.val_main_v64, Cert.ReferenceIdeal.ReadP.val_main_v65, Cert.ReferenceIdeal.ReadP.val_main_v66, Cert.ReferenceIdeal.ReadP.val_main_call1_v0, Cert.ReferenceIdeal.ReadP.val_main_v67, Cert.ReferenceIdeal.ReadP.val_main_v68, Cert.ReferenceIdeal.ReadP.val_main_v69, Cert.ReferenceIdeal.ReadP.val_main_v70, Cert.ReferenceIdeal.ReadP.val_main_v71, h56]
  <;> rfl

set_option maxRecDepth 65536 in
set_option maxHeartbeats 400000000 in
/-- Operand main_v71 of the last operation, from any contents holding the joined maxima. -/
theorem s3_v71 (W : Valuation τ sig (Elt F)) (w2 : (⟨S256x256, .f32⟩ : BufTy).Contents (Elt F)) (b2 : (⟨S256, .f32⟩ : BufTy).Contents (Elt F))
    (x0 : (⟨S16384x16x96, .f32⟩ : BufTy).Contents (Elt F)) (x1 : (⟨S245760x256, .f32⟩ : BufTy).Contents (Elt F))
    (x2 : (⟨S192x256, .f32⟩ : BufTy).Contents (Elt F)) (x3 : (⟨S256, .f32⟩ : BufTy).Contents (Elt F))
    (x4 x5 : (⟨S256x768, .f32⟩ : BufTy).Contents (Elt F)) (x6 x7 : (⟨S768, .f32⟩ : BufTy).Contents (Elt F))
    (h56 : W (Proc.devRef .tc main_v56) = Cert.ReferenceIdeal.ReadP.val_main_v56 (F := F) x0 x1 x2 x3 x4 x5 x6 x7 w2 b2) :
    StableHlo.after (opsS3 (F := F)) W (Proc.devRef .tc main_v71) = Cert.ReferenceIdeal.ReadP.val_main_v71 (F := F) x0 x1 x2 x3 x4 x5 x6 x7 w2 b2 := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      Cert.ReferenceIdeal.ReadP.val_main_v57, Cert.ReferenceIdeal.ReadP.val_main_v58, Cert.ReferenceIdeal.ReadP.val_main_v59, Cert.ReferenceIdeal.ReadP.val_main_v60, Cert.ReferenceIdeal.ReadP.val_main_v61, Cert.ReferenceIdeal.ReadP.val_main_v62, Cert.ReferenceIdeal.ReadP.val_main_cst_6, Cert.ReferenceIdeal.ReadP.val_main_v63, Cert.ReferenceIdeal.ReadP.val_main_cst_7, Cert.ReferenceIdeal.ReadP.val_main_v64, Cert.ReferenceIdeal.ReadP.val_main_v65, Cert.ReferenceIdeal.ReadP.val_main_v66, Cert.ReferenceIdeal.ReadP.val_main_call1_v0, Cert.ReferenceIdeal.ReadP.val_main_v67, Cert.ReferenceIdeal.ReadP.val_main_v68, Cert.ReferenceIdeal.ReadP.val_main_v69, Cert.ReferenceIdeal.ReadP.val_main_v70, Cert.ReferenceIdeal.ReadP.val_main_v71, h56]
  <;> rfl

/-- The last operation's three operands after all the decode's other operations. -/
theorem afterB0 (W : Valuation τ sig (Elt F)) (w2 : (⟨S256x256, .f32⟩ : BufTy).Contents (Elt F)) (b2 : (⟨S256, .f32⟩ : BufTy).Contents (Elt F))
    (x0 : (⟨S16384x16x96, .f32⟩ : BufTy).Contents (Elt F)) (x1 : (⟨S245760x256, .f32⟩ : BufTy).Contents (Elt F))
    (x2 : (⟨S192x256, .f32⟩ : BufTy).Contents (Elt F)) (x3 : (⟨S256, .f32⟩ : BufTy).Contents (Elt F))
    (x4 x5 : (⟨S256x768, .f32⟩ : BufTy).Contents (Elt F)) (x6 x7 : (⟨S768, .f32⟩ : BufTy).Contents (Elt F))
    (h46 : W (Proc.devRef .tc main_v46) = Cert.ReferenceIdeal.ReadP.val_main_v46 (F := F) x0 x1 x2 x3 x4 x5 x6 x7)
    (h8 : W (Proc.devRef .tc main_arg8) = w2) (h9 : W (Proc.devRef .tc main_arg9) = b2) :
    StableHlo.after (opsB0 (F := F)) W (Proc.devRef .tc main_v68) = Cert.ReferenceIdeal.ReadP.val_main_v68 (F := F) x0 x1 x2 x3 x4 x5 x6 x7 w2 b2
    ∧ StableHlo.after (opsB0 (F := F)) W (Proc.devRef .tc main_v70) = Cert.ReferenceIdeal.ReadP.val_main_v70 (F := F) x0 x1 x2 x3 x4 x5 x6 x7 w2 b2
    ∧ StableHlo.after (opsB0 (F := F)) W (Proc.devRef .tc main_v71) = Cert.ReferenceIdeal.ReadP.val_main_v71 (F := F) x0 x1 x2 x3 x4 x5 x6 x7 w2 b2 := by
  have h56 := s2_v56 (StableHlo.after (opsS1 (F := F)) W) w2 b2 x0 x1 x2 x3 x4 x5 x6 x7
    (s1_v54 W w2 b2 x0 x1 x2 x3 x4 x5 x6 x7 h46 h8 h9) (s1_v55 W w2 b2 x0 x1 x2 x3 x4 x5 x6 x7 h46 h8 h9)
  rw [show (opsB0 (F := F)) = opsS1 ++ [opJoin] ++ opsS3 from rfl, Cert.Nary3.after_append, Cert.Nary3.after_append]
  exact ⟨s3_v68 _ w2 b2 x0 x1 x2 x3 x4 x5 x6 x7 h56, s3_v70 _ w2 b2 x0 x1 x2 x3 x4 x5 x6 x7 h56, s3_v71 _ w2 b2 x0 x1 x2 x3 x4 x5 x6 x7 h56⟩

set_option maxRecDepth 65536 in
set_option maxHeartbeats 400000000 in
/-- The second stretch, over any contents: the decode's last stage of the new hidden state and the head's weights and bias. -/
theorem afterB_v72 (W : Valuation τ sig (Elt F)) (w2 : (⟨S256x256, .f32⟩ : BufTy).Contents (Elt F)) (b2 : (⟨S256, .f32⟩ : BufTy).Contents (Elt F))
    (x0 : (⟨S16384x16x96, .f32⟩ : BufTy).Contents (Elt F)) (x1 : (⟨S245760x256, .f32⟩ : BufTy).Contents (Elt F))
    (x2 : (⟨S192x256, .f32⟩ : BufTy).Contents (Elt F)) (x3 : (⟨S256, .f32⟩ : BufTy).Contents (Elt F))
    (x4 x5 : (⟨S256x768, .f32⟩ : BufTy).Contents (Elt F)) (x6 x7 : (⟨S768, .f32⟩ : BufTy).Contents (Elt F))
    (h46 : W (Proc.devRef .tc main_v46) = Cert.ReferenceIdeal.ReadP.val_main_v46 (F := F) x0 x1 x2 x3 x4 x5 x6 x7)
    (h8 : W (Proc.devRef .tc main_arg8) = w2) (h9 : W (Proc.devRef .tc main_arg9) = b2) :
    StableHlo.after (opsB (F := F)) W (Proc.devRef .tc main_v72)
      = Cert.ReferenceIdeal.ReadP.val_main_v72 (F := F) x0 x1 x2 x3 x4 x5 x6 x7 w2 b2 := by
  obtain ⟨e68, e70, e71⟩ := afterB0 W w2 b2 x0 x1 x2 x3 x4 x5 x6 x7 h46 h8 h9
  rw [Cert.Nary3.after_append]
  show (opLast (F := F)).result (StableHlo.after (opsB0 (F := F)) W) (Proc.devRef .tc main_v72) = _
  refine (nary_result _ _ _ _ _ _).trans ?_
  show concatenate S16384x16x16 1
      [⟨S16384x1x16, StableHlo.after (opsB0 (F := F)) W (Proc.devRef .tc main_v68)⟩,
       ⟨S16384x14x16, StableHlo.after (opsB0 (F := F)) W (Proc.devRef .tc main_v70)⟩,
       ⟨S16384x1x16, StableHlo.after (opsB0 (F := F)) W (Proc.devRef .tc main_v71)⟩]
      concatenates_S16384x1x16_S16384x14x16_S16384x1x16_S16384x16x16_d1 = _
  rw [e68, e70, e71]
  rfl

set_option maxRecDepth 65536 in
set_option maxHeartbeats 400000000 in
/-- The first result: the final concatenation's stage of the arguments. -/
theorem after_v72 (m : (ℓ : Loc nD τ sig) → Buf (Elt F) ℓ) (c : Dev nD) :
    StableHlo.after (ops (F := F)) (fun b => m (c, b)) (Proc.devRef .tc main_v72)
      = Cert.ReferenceIdeal.ReadP.val_main_v72 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [ops_split, Cert.Nary3.after_append]
  exact afterB_v72 _ _ _ _ _ _ _ _ _ _ _ (afterA_v46 m c) (afterA_arg8 m c) (afterA_arg9 m c)

set_option maxRecDepth 65536 in
set_option maxHeartbeats 400000000 in
/-- The second result: the new hidden state's stage of the arguments. -/
theorem after_v46 (m : (ℓ : Loc nD τ sig) → Buf (Elt F) ℓ) (c : Dev nD) :
    StableHlo.after (ops (F := F)) (fun b => m (c, b)) (Proc.devRef .tc main_v46)
      = Cert.ReferenceIdeal.ReadP.val_main_v46 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [ops_split, Cert.Nary3.after_append]
  refine (after_of_forall_not_mem (b := Proc.devRef .tc main_v46) opsB _ (List.forall_iff_forall_mem.mp (by
    simp only [opsB, opsB0, opsS1, opJoin, opsS3, opLast, List.cons_append, List.nil_append, List.append_assoc, List.Forall, nullary_writes, unary_writes, binary_writes, ternary_writes, quaternary_writes, reshape_writes,
      binaryIndexed_writes, nary_writes, TRef.nullary, TRef.unary, TRef.binary, TRef.ternary, TRef.of, Finset.mem_singleton]
    repeat' apply And.intro
    all_goals exact devRef_ne_of_ne (by decide)))).trans (afterA_v46 m c)

set_option maxRecDepth 65536 in
set_option maxHeartbeats 400000000 in
/-- Every weakly fair execution of the reference terminates with its two results at their stages of the arguments and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v72) = Cert.ReferenceIdeal.ReadP.val_main_v72 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v46) = Cert.ReferenceIdeal.ReadP.val_main_v46 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v72).trans (after_v72 m c),
      (h c main_v46).trans (after_v46 m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl)⟩)
    (run_seq scopedRefs_eq scopedSems_eq defs main (fun _ => ops) main_eq (fun _ => ops_sub) m ρ)

end Cert.ReferenceIdeal.RunP

end
-- ==== Proof.GruSpec.lean ====
/-
  What both programs compute, index by index, over the extended reals.

  The 245760 = 16384 · 15 pair rows: row n = 15·b + j of batch b joins two 96-wide chunks of the stacked block
  (2, 15, 96) of that batch, chunks 2j and 2j + 1 in row-major order; chunk c < 15 is agent c's features and chunk
  c ≥ 15 is agent c − 14's (`agentNat`). A row then goes through a dense layer with ReLU, the two gate layers of a
  GRU cell against the carried hidden state, the cell's blend, and a dense head whose 256 outputs are a 16 × 16
  action grid; the decode takes the grid's row maxima and column maxima.
-/
import Idealize.ShloMosaic.PureOps.Ideal
import Idealize.ShloMosaic.Lib.ValueIdx

noncomputable section

open scoped BigOperators

namespace Cert.GruSpec

open Idealize.ShloMosaic Idealize.ShloMosaic.ValueIdx

/-- The float words the two programs spell: 0.0, 1.0 and -inf. -/
abbrev zeroF : EReal := Ideal.ofBits .f32 0x00000000#32
abbrev oneF : EReal := Ideal.ofBits .f32 0x3F800000#32
abbrev negInfF : EReal := Ideal.ofBits .f32 0xFF800000#32

/-- 1.0 denotes 1. -/
theorem oneF_eq : oneF = 1 := by
  simp [oneF, Ideal.ofBits, Ideal.ieee, -EReal.coe_mul]; norm_num

/-- Chunk c of a batch's stacked (2, 15, 96) block is the features of this agent. -/
def agentNat (c : ℕ) : ℕ := c / 15 + c % 15

theorem agentNat_lt {j k : ℕ} (hj : j < 15) (hk : k < 192) : agentNat (2 * j + k / 96) < 16 := by
  unfold agentNat; omega

/-- Entry k of pair row n. -/
def pairAt (inp : (⟨3, ![16384, 16, 96]⟩ : Shape).Idx → EReal) (n : Fin 245760) (k : Fin 192) : EReal :=
  inp (ix3 (⟨n.val / 15, by have := n.isLt; omega⟩ : Fin 16384)
    (⟨agentNat (2 * (n.val % 15) + k.val / 96), agentNat_lt (Nat.mod_lt _ (by norm_num)) k.isLt⟩ : Fin 16)
    (⟨k.val % 96, Nat.mod_lt _ (by norm_num)⟩ : Fin 96))

/-- A dense layer: row n of X against column j of W, plus the bias. -/
def dense {N K M : ℕ} (X : Fin N → Fin K → EReal) (W : (⟨2, ![K, M]⟩ : Shape).Idx → EReal)
    (b : (⟨1, ![M]⟩ : Shape).Idx → EReal) (n : Fin N) (j : Fin M) : EReal :=
  (∑ k : Fin K, X n k * W (ix2 k j)) + b (ix1 j)

/-- The first layer with its ReLU. -/
def act1 (inp : (⟨3, ![16384, 16, 96]⟩ : Shape).Idx → EReal) (w1 : (⟨2, ![192, 256]⟩ : Shape).Idx → EReal)
    (b1 : (⟨1, ![256]⟩ : Shape).Idx → EReal) (n : Fin 245760) (j : Fin 256) : EReal :=
  max (dense (pairAt inp) w1 b1 n j) zeroF

/-- The logistic function as the host spells it. -/
def sig (x : EReal) : EReal := Ideal.div oneF (oneF + Ideal.exp (-x))

/-- The kernel's one-operation logistic is that expression. -/
theorem logistic_eq_sig (x : EReal) : Ideal.logistic x = sig x := by
  unfold sig Ideal.logistic; rw [oneF_eq]

/-- The GRU cell's blend at (n, j) from the two gate pre-activations (768 = reset | update | candidate) and the carried state. -/
def cell {N : ℕ} (gi gh : Fin N → Fin 768 → EReal) (hid : Fin N → Fin 256 → EReal) (n : Fin N) (j : Fin 256) : EReal :=
  (oneF - sig (gi n ⟨256 + j.val, by omega⟩ + gh n ⟨256 + j.val, by omega⟩))
      * Ideal.tanh (gi n ⟨512 + j.val, by omega⟩
          + sig (gi n ⟨j.val, by omega⟩ + gh n ⟨j.val, by omega⟩) * gh n ⟨512 + j.val, by omega⟩)
    + sig (gi n ⟨256 + j.val, by omega⟩ + gh n ⟨256 + j.val, by omega⟩) * hid n j

/-- The new hidden state, the programs' second result. -/
def hpAt (inp : (⟨3, ![16384, 16, 96]⟩ : Shape).Idx → EReal) (hid : (⟨2, ![245760, 256]⟩ : Shape).Idx → EReal)
    (w1 : (⟨2, ![192, 256]⟩ : Shape).Idx → EReal) (b1 : (⟨1, ![256]⟩ : Shape).Idx → EReal)
    (wih whh : (⟨2, ![256, 768]⟩ : Shape).Idx → EReal) (bih bhh : (⟨1, ![768]⟩ : Shape).Idx → EReal)
    (n : Fin 245760) (j : Fin 256) : EReal :=
  cell (dense (act1 inp w1 b1) wih bih) (dense (fun n k => hid (ix2 n k)) whh bhh) (fun n k => hid (ix2 n k)) n j

/-- The head's action grid of a row of any hidden-state array: entry (a, b) is output 16a + b. -/
def gridAt {N : ℕ} (hp : Fin N → Fin 256 → EReal) (w2 : (⟨2, ![256, 256]⟩ : Shape).Idx → EReal)
    (b2 : (⟨1, ![256]⟩ : Shape).Idx → EReal) (n : Fin N) (a b : Fin 16) : EReal :=
  dense hp w2 b2 n ⟨16 * a.val + b.val, by omega⟩

/-- The decode of a row: at (j, 0) the maximum of grid row j, at (j, 1) the maximum of grid column j. -/
def decAt {N : ℕ} (hp : Fin N → Fin 256 → EReal) (w2 : (⟨2, ![256, 256]⟩ : Shape).Idx → EReal)
    (b2 : (⟨1, ![256]⟩ : Shape).Idx → EReal) (n : Fin N) (j : Fin 16) (u : Fin 2) : EReal :=
  if u.val = 0 then (Finset.univ : Finset (Fin 16)).fold max negInfF (fun b => gridAt hp w2 b2 n j b)
  else (Finset.univ : Finset (Fin 16)).fold max negInfF (fun a => gridAt hp w2 b2 n a j)

end Cert.GruSpec

end
-- ==== Proof.LibDenseLayer.lean ====
/-
  A dense graph layer over the extended reals, and a rank-2 matrix product read at an entry.

  The layer: for an adjacency matrix `A` ([N, N]), features `X` ([N, K]), weights `W` ([K, M]), a bias `b` (M
  entries) and a scale `s`, entry (r, c) of the layer's output is
      (∑ j, ((∑ k, A(r,k) · X(k,j)) + s · X(r,j)) · W(j,c)) + b(c):
  the neighbours' features summed and added to the scaled own features, then the linear map and the bias. `rowLayer`
  is the same entry written from row r of `A` and row r of `X` alone, which is what one row band of a blocked
  evaluation has at hand; `layerAt` is `rowLayer` at the two rows (`layerAt_eq_rowLayer`).

  `matmul_rows_cols`: a matrix unit's product of an [A, K] by a [K, B] matrix into a zero accumulator, read at (p, q),
  is ∑ k, L(p,k) · R(k,q) — stated for any dimension record whose four index facts (the left index takes the output
  row and the contraction position, the right index the contraction position and the output column) are supplied.
-/
import Idealize.ShloMosaic.Lib.ValueIdx
import Idealize.ShloMosaic.Lib.Pipeline.Value
import Idealize.ShloMosaic.PureOps.Ideal.Laws

noncomputable section

namespace Cert.DenseLayer

open Idealize.ShloMosaic Idealize.ShloMosaic.ValueIdx

/-- Entry `c` of one output row of the layer, from that row `a` of the adjacency matrix and that row `xr` of the
    features: `(∑ j, ((∑ k, a k · X(k,j)) + s · xr j) · W(j,c)) + b c`. -/
def rowLayer {N K M : ℕ} (a : Fin N → EReal) (X : (⟨2, ![N, K]⟩ : Shape).Idx → EReal)
    (W : (⟨2, ![K, M]⟩ : Shape).Idx → EReal) (b : Fin M → EReal) (s : EReal) (xr : Fin K → EReal) (c : Fin M) : EReal :=
  (∑ j : Fin K, ((∑ k : Fin N, a k * X (ix2 k j)) + s * xr j) * W (ix2 j c)) + b c

/-- Entry (r, c) of the layer's output. -/
def layerAt {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) : EReal :=
  (∑ j : Fin K, ((∑ k : Fin N, A (ix2 r k) * X (ix2 k j)) + s * X (ix2 r j)) * W (ix2 j c)) + b c

/-- The entry from the two rows it depends on. -/
theorem layerAt_eq_rowLayer {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    layerAt A X W b s r c = rowLayer (fun k => A (ix2 r k)) X W b s (fun j => X (ix2 r j)) c := rfl

/-- The same entry with the own-features term written first (`s · X(r,j) + ∑ k, A(r,k) · X(k,j)`): addition of
    extended reals is commutative. -/
theorem layerAt_comm {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    (∑ j : Fin K, (s * X (ix2 r j) + ∑ k : Fin N, A (ix2 r k) * X (ix2 k j)) * W (ix2 j c)) + b c = layerAt A X W b s r c := by
  unfold layerAt
  refine congrArg (· + b c) (Finset.sum_congr rfl fun j _ => ?_)
  rw [add_comm]

/-- A matrix product into a zero accumulator, read at (p, q): the sum over the contracted axis of the left operand's
    row p times the right operand's column q. -/
theorem matmul_rows_cols {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    FloatOps.matmul d prec L R (constant ⟨2, ![A, B]⟩ .f32 0x00000000#32) (ix2 p q)
      = ∑ k : Fin K, L (ix2 p k) * R (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.DenseLayer

end
-- ==== Proof.KernelIdealGates.lean ====
/-
  The kernel body's gate half, read at an index of the block's 960 rows: the three matrix products as sums over the
  contracted axis, a bias row broadcast over the rows, the three 256-wide column groups of a 768-wide row (reset,
  update, candidate), and the cell's blend — at row p, column j exactly `GruSpec.cell` of the two gate
  pre-activations and the carried state of that row.
-/
import proofs.«128030_j52063593562852_2_alg».proof.Proof.Gen.KernelIdeal.Skeleton
import proofs.«128030_j52063593562852_2_alg».proof.Proof.GruSpec
import proofs.«128030_j52063593562852_2_alg».proof.Proof.LibDenseLayer
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Gates

open Cert.KernelIdeal Cert.KernelIdeal.Gen Cert.GruSpec Idealize.ShloMosaic Idealize.ShloMosaic.ValueIdx

/-! ## The matrix products at an index -/

theorem mm_first (L : FVec Ideal S960x192 .bf16) (R : FVec Ideal S192x256 .bf16) (p : Fin 960) (q : Fin 256) :
    matmul dot_S960x192_S192x256_S960x256_1_0_0_1_n_n none L R (constant S960x256 .f32 0x00000000#32) (ix2 p q) = ∑ k : Fin 192, L (ix2 p k) * R (ix2 k q) :=
  Cert.DenseLayer.matmul_rows_cols dot_S960x192_S192x256_S960x256_1_0_0_1_n_n rfl rfl
    (fun i q => by
      unfold DotDims.lhsIdx
      rw [dif_neg (show ¬(0 : Fin S960x192.rank) ∈ dot_S960x192_S192x256_S960x256_1_0_0_1_n_n.lhsBatch by decide), dif_pos (show (0 : Fin S960x192.rank) ∈ dot_S960x192_S192x256_S960x256_1_0_0_1_n_n.lhsNonContracting by decide)]
      rfl)
    (fun i q => dot_S960x192_S192x256_S960x256_1_0_0_1_n_n.lhsIdx_val_of_single rfl i q)
    (fun i q => dot_S960x192_S192x256_S960x256_1_0_0_1_n_n.rhsIdx_val_of_single rfl i q)
    (fun i q => by
      unfold DotDims.rhsIdx
      rw [dif_neg (show ¬(1 : Fin S192x256.rank) ∈ dot_S960x192_S192x256_S960x256_1_0_0_1_n_n.rhsBatch by decide), dif_pos (show (1 : Fin S192x256.rank) ∈ dot_S960x192_S192x256_S960x256_1_0_0_1_n_n.rhsNonContracting by decide)]
      rfl)
    none L R p q

theorem mm_gate (L : FVec Ideal S960x256 .bf16) (R : FVec Ideal S256x768 .bf16) (p : Fin 960) (q : Fin 768) :
    matmul dot_S960x256_S256x768_S960x768_1_0_0_1_n_n none L R (constant S960x768 .f32 0x00000000#32) (ix2 p q) = ∑ k : Fin 256, L (ix2 p k) * R (ix2 k q) :=
  Cert.DenseLayer.matmul_rows_cols dot_S960x256_S256x768_S960x768_1_0_0_1_n_n rfl rfl
    (fun i q => by
      unfold DotDims.lhsIdx
      rw [dif_neg (show ¬(0 : Fin S960x256.rank) ∈ dot_S960x256_S256x768_S960x768_1_0_0_1_n_n.lhsBatch by decide), dif_pos (show (0 : Fin S960x256.rank) ∈ dot_S960x256_S256x768_S960x768_1_0_0_1_n_n.lhsNonContracting by decide)]
      rfl)
    (fun i q => dot_S960x256_S256x768_S960x768_1_0_0_1_n_n.lhsIdx_val_of_single rfl i q)
    (fun i q => dot_S960x256_S256x768_S960x768_1_0_0_1_n_n.rhsIdx_val_of_single rfl i q)
    (fun i q => by
      unfold DotDims.rhsIdx
      rw [dif_neg (show ¬(1 : Fin S256x768.rank) ∈ dot_S960x256_S256x768_S960x768_1_0_0_1_n_n.rhsBatch by decide), dif_pos (show (1 : Fin S256x768.rank) ∈ dot_S960x256_S256x768_S960x768_1_0_0_1_n_n.rhsNonContracting by decide)]
      rfl)
    none L R p q

theorem mm_head (L : FVec Ideal S960x256 .bf16) (R : FVec Ideal S256x256 .bf16) (p : Fin 960) (q : Fin 256) :
    matmul dot_S960x256_S256x256_S960x256_1_0_0_1_n_n none L R (constant S960x256 .f32 0x00000000#32) (ix2 p q) = ∑ k : Fin 256, L (ix2 p k) * R (ix2 k q) :=
  Cert.DenseLayer.matmul_rows_cols dot_S960x256_S256x256_S960x256_1_0_0_1_n_n rfl rfl
    (fun i q => by
      unfold DotDims.lhsIdx
      rw [dif_neg (show ¬(0 : Fin S960x256.rank) ∈ dot_S960x256_S256x256_S960x256_1_0_0_1_n_n.lhsBatch by decide), dif_pos (show (0 : Fin S960x256.rank) ∈ dot_S960x256_S256x256_S960x256_1_0_0_1_n_n.lhsNonContracting by decide)]
      rfl)
    (fun i q => dot_S960x256_S256x256_S960x256_1_0_0_1_n_n.lhsIdx_val_of_single rfl i q)
    (fun i q => dot_S960x256_S256x256_S960x256_1_0_0_1_n_n.rhsIdx_val_of_single rfl i q)
    (fun i q => by
      unfold DotDims.rhsIdx
      rw [dif_neg (show ¬(1 : Fin S256x256.rank) ∈ dot_S960x256_S256x256_S960x256_1_0_0_1_n_n.rhsBatch by decide), dif_pos (show (1 : Fin S256x256.rank) ∈ dot_S960x256_S256x256_S960x256_1_0_0_1_n_n.rhsNonContracting by decide)]
      rfl)
    none L R p q

/-! ## Bias rows and column groups -/

/-- A 256-wide bias as a row broadcast over the 960 rows reads the bias at the column. -/
theorem bias256 (b : FVec Ideal S256 .f32) (p : Fin 960) (c : Fin 256) :
    broadcastTo S960x256 (shapeCast S1x256 b shapeCasts_S256_S1x256) broadcasts_S1x256_S960x256 (ix2 p c) = b (ix1 c) :=
  (broadcastTo_1b_ab_apply _ broadcasts_S1x256_S960x256 p c).trans (shapeCast_a_1a_apply b shapeCasts_S256_S1x256 0 c)

/-- The same for a 768-wide bias. -/
theorem bias768 (b : FVec Ideal S768 .f32) (p : Fin 960) (c : Fin 768) :
    broadcastTo S960x768 (shapeCast S1x768 b shapeCasts_S768_S1x768) broadcasts_S1x768_S960x768 (ix2 p c) = b (ix1 c) :=
  (broadcastTo_1b_ab_apply _ broadcasts_S1x768_S960x768 p c).trans (shapeCast_a_1a_apply b shapeCasts_S768_S1x768 0 c)

/-! ## The two dense layers before the gates -/

/-- The first layer with its ReLU, over the block's pair rows. -/
def layer1 (X : FVec Ideal S960x192 .f32) (w1 : FVec Ideal S192x256 .bf16) (b1 : FVec Ideal S256 .f32) : FVec Ideal S960x256 .f32 :=
  maximumf (addf (matmul dot_S960x192_S192x256_S960x256_1_0_0_1_n_n none (truncf .bf16 X bitsLt_bf16_f32)
      (shapeCast S192x256 w1 shapeCasts_S192x256_S192x256) (constant S960x256 .f32 0x00000000#32))
    (broadcastTo S960x256 (shapeCast S1x256 b1 shapeCasts_S256_S1x256) broadcasts_S1x256_S960x256))
    (broadcast S960x256 (Scalar.ofBits (F := Ideal) .f32 0x00000000#32))

theorem layer1_apply (X : FVec Ideal S960x192 .f32) (w1 : FVec Ideal S192x256 .bf16) (b1 : FVec Ideal S256 .f32) (p : Fin 960) (j : Fin 256) :
    layer1 X w1 b1 (ix2 p j) = max ((∑ k : Fin 192, X (ix2 p k) * w1 (ix2 k j)) + b1 (ix1 j)) zeroF := by
  show max (matmul dot_S960x192_S192x256_S960x256_1_0_0_1_n_n none (truncf .bf16 X bitsLt_bf16_f32)
      (shapeCast S192x256 w1 shapeCasts_S192x256_S192x256) (constant S960x256 .f32 0x00000000#32) (ix2 p j)
    + broadcastTo S960x256 (shapeCast S1x256 b1 shapeCasts_S256_S1x256) broadcasts_S1x256_S960x256 (ix2 p j)) zeroF = _
  rw [mm_first, bias256, shapeCast_self]
  rfl

/-- A gate layer's product (the bias is added later), from a 256-wide block. -/
def gateMul (A : FVec Ideal S960x256 .f32) (w : FVec Ideal S256x768 .bf16) : FVec Ideal S960x768 .f32 :=
  matmul dot_S960x256_S256x768_S960x768_1_0_0_1_n_n none (truncf .bf16 A bitsLt_bf16_f32)
    (shapeCast S256x768 w shapeCasts_S256x768_S256x768) (constant S960x768 .f32 0x00000000#32)

theorem gateMul_apply (A : FVec Ideal S960x256 .f32) (w : FVec Ideal S256x768 .bf16) (p : Fin 960) (c : Fin 768) :
    gateMul A w (ix2 p c) = ∑ k : Fin 256, A (ix2 p k) * w (ix2 k c) := by
  unfold gateMul
  rw [mm_gate, shapeCast_self]
  rfl

/-- A gate layer with its bias. -/
def gateOf (G : FVec Ideal S960x768 .f32) (b : FVec Ideal S768 .f32) : FVec Ideal S960x768 .f32 :=
  addf G (broadcastTo S960x768 (shapeCast S1x768 b shapeCasts_S768_S1x768) broadcasts_S1x768_S960x768)

theorem gateOf_apply (G : FVec Ideal S960x768 .f32) (b : FVec Ideal S768 .f32) (p : Fin 960) (c : Fin 768) :
    gateOf G b (ix2 p c) = G (ix2 p c) + b (ix1 c) := by
  show G (ix2 p c) + broadcastTo S960x768 (shapeCast S1x768 b shapeCasts_S768_S1x768) broadcasts_S1x768_S960x768 (ix2 p c) = _
  rw [bias768]

/-- Column group `o` (0, 256 or 512) of a gate layer, at (p, j). -/
theorem col_apply (o : ℕ) (h : S960x768.Slices ![0, o] S960x256) (G : FVec Ideal S960x768 .f32) (p : Fin 960) (j : Fin 256)
    (c : Fin 768) (hc : c.val = o + j.val) : extractStridedSlice S960x256 ![0, o] G h (ix2 p j) = G (ix2 p c) :=
  slice2_axis1_apply o G h p j c hc

/-! ## The cell -/

/-- The body's hidden-state payload is the cell's blend of the two gate layers, lane by lane. -/
theorem pay14_eq (v106 : FVec Ideal S960x768 .f32) (v107 : FVec Ideal S768 .f32) (v111 : FVec Ideal S960x256 .f32)
    (v113 : FVec Ideal S256x768 .bf16) (v116 : FVec Ideal S768 .f32) (i : S960x256.Idx) :
    k0_pay14 v106 v107 v111 v113 v116 i
      = (oneF - Ideal.logistic (extractStridedSlice S960x256 ![0, 256] (gateOf v106 v107) slices_S960x768_o0_256_S960x256 i
              + extractStridedSlice S960x256 ![0, 256] (gateOf (gateMul v111 v113) v116) slices_S960x768_o0_256_S960x256 i))
          * Ideal.tanh (extractStridedSlice S960x256 ![0, 512] (gateOf v106 v107) slices_S960x768_o0_512_S960x256 i
              + Ideal.logistic (extractStridedSlice S960x256 ![0, 0] (gateOf v106 v107) slices_S960x768_o0_0_S960x256 i
                  + extractStridedSlice S960x256 ![0, 0] (gateOf (gateMul v111 v113) v116) slices_S960x768_o0_0_S960x256 i)
                * extractStridedSlice S960x256 ![0, 512] (gateOf (gateMul v111 v113) v116) slices_S960x768_o0_512_S960x256 i)
        + Ideal.logistic (extractStridedSlice S960x256 ![0, 256] (gateOf v106 v107) slices_S960x768_o0_256_S960x256 i
              + extractStridedSlice S960x256 ![0, 256] (gateOf (gateMul v111 v113) v116) slices_S960x768_o0_256_S960x256 i)
          * v111 i := rfl

/-- At row p, column j the payload is `GruSpec.cell` of the row's gate pre-activations and carried state. -/
theorem pay14_apply (v106 : FVec Ideal S960x768 .f32) (v107 : FVec Ideal S768 .f32) (v111 : FVec Ideal S960x256 .f32)
    (v113 : FVec Ideal S256x768 .bf16) (v116 : FVec Ideal S768 .f32) (p : Fin 960) (j : Fin 256) :
    k0_pay14 v106 v107 v111 v113 v116 (ix2 p j)
      = cell (fun p c => v106 (ix2 p c) + v107 (ix1 c))
          (fun p c => (∑ k : Fin 256, v111 (ix2 p k) * v113 (ix2 k c)) + v116 (ix1 c))
          (fun p c => v111 (ix2 p c)) p j := by
  rw [pay14_eq]
  rw [col_apply 256 slices_S960x768_o0_256_S960x256 (gateOf v106 v107) p j ⟨256 + j.val, by omega⟩ rfl,
    col_apply 256 slices_S960x768_o0_256_S960x256 (gateOf (gateMul v111 v113) v116) p j ⟨256 + j.val, by omega⟩ rfl,
    col_apply 512 slices_S960x768_o0_512_S960x256 (gateOf v106 v107) p j ⟨512 + j.val, by omega⟩ rfl,
    col_apply 512 slices_S960x768_o0_512_S960x256 (gateOf (gateMul v111 v113) v116) p j ⟨512 + j.val, by omega⟩ rfl,
    col_apply 0 slices_S960x768_o0_0_S960x256 (gateOf v106 v107) p j ⟨j.val, by omega⟩ (Nat.zero_add _).symm,
    col_apply 0 slices_S960x768_o0_0_S960x256 (gateOf (gateMul v111 v113) v116) p j ⟨j.val, by omega⟩ (Nat.zero_add _).symm]
  simp only [gateOf_apply, gateMul_apply, logistic_eq_sig]
  rfl

end Cert.KernelIdeal.Gates

end
-- ==== Proof.LibRowReshape.lean ====
/-
  A reshape that merges, or splits, the two leading axes of a rank-3 array, read at an index given by its coordinates.

  A shape cast keeps the row-major position of every entry. In the shape [a, b, c] the entry (p, q, k) sits at position
  (p·b + q)·c + k; in the shape [m, c] the entry (r, k) sits at position r·c + k. The two positions agree exactly when
  r = p·b + q, so

  * [a, b, c] merged to [m, c] reads, at (p·b + q, k), the operand at (p, q, k)   (`shapeCast_abc_mc_apply`);
  * [m, c] split to [a, b, c] reads, at (p, q, k), the operand at (p·b + q, k)     (`shapeCast_mc_abc_apply`).

  The row is passed as an index `r : Fin m` together with the equation `r = p·b + q` on its value, so that no bound on
  p·b + q has to be carried in the statement; that the shapes have equally many entries (m = a·b when c ≠ 0) is part of
  the shape-cast hypothesis and is not used otherwise.
-/
import Idealize.ShloMosaic.Lib.Pipeline.Value
import Idealize.ShloMosaic.Lib.ValueIdx

namespace Cert.RowReshape

open Idealize.ShloMosaic Idealize.ShloMosaic.ValueIdx

variable {α : Type}

/-- [a, b, c] merged to [a·b, c]: the entry at (row, k), where row = p·b + q, is the operand at (p, q, k). -/
theorem shapeCast_abc_mc_apply {a b c m : ℕ} (x : (⟨3, ![a, b, c]⟩ : Shape).Idx → α)
    (h : (⟨3, ![a, b, c]⟩ : Shape).ShapeCasts ⟨2, ![m, c]⟩)
    (p : Fin a) (q : Fin b) (k : Fin c) (r : Fin m) (hr : r.val = p.val * b + q.val) :
    shapeCast ⟨2, ![m, c]⟩ x h (ix2 r k) = x (ix3 p q k) :=
  shapeCast_apply x h _ _ (by
    rw [Shape.rowMajor_val_three, Shape.rowMajor_val_two]
    show (p.val * b + q.val) * c + k.val = r.val * c + k.val
    rw [hr])

/-- [a·b, c] split to [a, b, c]: the entry at (p, q, k) is the operand at (p·b + q, k). -/
theorem shapeCast_mc_abc_apply {a b c m : ℕ} (y : (⟨2, ![m, c]⟩ : Shape).Idx → α)
    (h : (⟨2, ![m, c]⟩ : Shape).ShapeCasts ⟨3, ![a, b, c]⟩)
    (p : Fin a) (q : Fin b) (k : Fin c) (r : Fin m) (hr : r.val = p.val * b + q.val) :
    shapeCast ⟨3, ![a, b, c]⟩ y h (ix3 p q k) = y (ix2 r k) :=
  shapeCast_apply y h _ _ (by
    rw [Shape.rowMajor_val_two, Shape.rowMajor_val_three]
    show r.val * c + k.val = (p.val * b + q.val) * c + k.val
    rw [hr])

end Cert.RowReshape
-- ==== Proof.LibLayout3.lean ====
/-
  Rank-3 layout operations read at an index given by coordinates: a matrix cast to a stack of columns
  `[a, b] → [a, b, 1]` or of rows `[a, b] → [a, 1, b]`, and either broadcast along its unit axis to `[a, b, c]`; and a
  one-element vector cast to `[1, 1, 1]` and read at its one position. Each is the parent lemma of the value library
  with the per-axis arithmetic done.
-/
import Idealize.ShloMosaic.Lib.Pipeline.Value
import Idealize.ShloMosaic.Lib.ValueIdx
import Idealize.ShloMosaic.Lib.ValueLayout

namespace Cert.Layout3

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, k)`, the operand at `(i, k)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (k : Fin b) :
    shapeCast ⟨3, ![a, 1, b]⟩ x h (ix3 i u k) = x (ix2 i k) :=
  shapeCast_apply x h _ _ (by
    have hu : u.val = 0 := by omega
    rw [Shape.rowMajor_val_three, Shape.rowMajor_val_two]
    show i.val * b + k.val = (i.val * 1 + u.val) * b + k.val
    rw [hu, Nat.mul_one, Nat.add_zero])

/-- A stack of columns `[a, b, 1]` broadcast to `[a, b, c]` does not depend on the last coordinate. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A stack of rows `[a, 1, c]` broadcast to `[a, b, c]` does not depend on the middle coordinate. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A one-element vector cast to `[1, 1, 1]` and read at its one position is its element. -/
theorem extractAt_shapeCast_one (x : (⟨1, ![1]⟩ : Shape).Idx → α)
    (h : (⟨1, ![1]⟩ : Shape).ShapeCasts ⟨3, ![1, 1, 1]⟩)
    (hp : ∀ a, (![0, 0, 0] : Fin 3 → ℕ) a < (⟨3, ![1, 1, 1]⟩ : Shape).size a) :
    extractAt ![0, 0, 0] (shapeCast ⟨3, ![1, 1, 1]⟩ x h) hp = x (ix1 (0 : Fin 1)) := by
  unfold extractAt
  exact shapeCast_apply x h _ _ (by
    rw [Shape.rowMajor_val_three, Shape.rowMajor_val_one]
    rfl)

end Cert.Layout3
-- ==== Proof.KernelIdealPairs.lean ====
/-
  The kernel body's pair rows. From the block of 64 batches × 16 agents × 96 features: agent a's features as a
  [64, 96] matrix (`chunk`), two agents' features side by side as a [64, 192] matrix (`pairRow`), the fifteen such
  matrices of a batch stacked along a new middle axis, and the batch and pair axes merged: row 15·b + j of the [960, 192]
  result is pair j of batch b, and its column k is feature k mod 96 of agent `agentNat (2j + k / 96)` — chunk 2j for
  the left half and chunk 2j + 1 for the right half of the batch's stacked (2, 15, 96) block.
-/
import proofs.«128030_j52063593562852_2_alg».proof.Proof.Gen.KernelIdeal.Skeleton
import proofs.«128030_j52063593562852_2_alg».proof.Proof.GruSpec
import proofs.«128030_j52063593562852_2_alg».proof.Proof.LibRowReshape
import proofs.«128030_j52063593562852_2_alg».proof.Proof.LibLayout3
import Idealize.ShloMosaic.Lib.Pipeline.Value
import Idealize.ShloMosaic.Lib.ValueIdx
import Idealize.ShloMosaic.Lib.ValueLayout

noncomputable section

namespace Cert.KernelIdeal.Pairs

open Cert.KernelIdeal Cert.KernelIdeal.Gen Cert.GruSpec Idealize.ShloMosaic Idealize.ShloMosaic.ValueIdx

/-- Agent `a`'s features of the block's 64 batches. -/
def chunk (a : ℕ) (h : S64x16x96.Slices ![0, a, 0] S64x1x96) (v0 : FVec Ideal S64x16x96 .f32) : FVec Ideal S64x96 .f32 :=
  shapeCast S64x96 (extractStridedSlice S64x1x96 ![0, a, 0] v0 h) shapeCasts_S64x1x96_S64x96

theorem chunk_apply (a : ℕ) (h : S64x16x96.Slices ![0, a, 0] S64x1x96) (v0 : FVec Ideal S64x16x96 .f32)
    (bb : Fin 64) (f : Fin 96) (ag : Fin 16) (hag : ag.val = a) : chunk a h v0 (ix2 bb f) = v0 (ix3 bb ag f) := by
  unfold chunk
  refine (shapeCast_apply _ shapeCasts_S64x1x96_S64x96 (ix2 bb f) (ix3 bb (0 : Fin 1) f) ?_).trans ?_
  · rw [Shape.rowMajor_val_three, Shape.rowMajor_val_two]
    show (bb.val * 1 + 0) * 96 + f.val = bb.val * 96 + f.val
    omega
  · exact slice3_axis1_apply a v0 h bb (0 : Fin 1) f ag (by rw [hag]; rfl)

/-- Two agents' features side by side. -/
def pairRow (a0 a1 : ℕ) (h0 : S64x16x96.Slices ![0, a0, 0] S64x1x96) (h1 : S64x16x96.Slices ![0, a1, 0] S64x1x96)
    (v0 : FVec Ideal S64x16x96 .f32) : FVec Ideal S64x192 .f32 :=
  concatenate S64x192 1 [⟨S64x96, chunk a0 h0 v0⟩, ⟨S64x96, chunk a1 h1 v0⟩] concatenates_S64x96_S64x96_S64x192_d1

theorem pairRow_apply (a0 a1 : ℕ) (h0 : S64x16x96.Slices ![0, a0, 0] S64x1x96) (h1 : S64x16x96.Slices ![0, a1, 0] S64x1x96)
    (v0 : FVec Ideal S64x16x96 .f32) (bb : Fin 64) (k : Fin 192) (ag : Fin 16)
    (hag : ag.val = if k.val < 96 then a0 else a1) :
    pairRow a0 a1 h0 h1 v0 (ix2 bb k) = v0 (ix3 bb ag (⟨k.val % 96, Nat.mod_lt _ (by norm_num)⟩ : Fin 96)) := by
  unfold pairRow
  by_cases hk : k.val < 96
  · rw [if_pos hk] at hag
    refine (concatenate_pair_apply_left 1 _ _ concatenates_S64x96_S64x96_S64x192_d1 (ix2 bb k) rfl
      (ix2 bb (⟨k.val, hk⟩ : Fin 96)) (fun b => by
        match b with
        | ⟨0, _⟩ => rfl
        | ⟨1, _⟩ => rfl)).trans ?_
    rw [chunk_apply a0 h0 v0 bb ⟨k.val, hk⟩ ag hag]
    exact congrArg (fun f => v0 (ix3 bb ag f)) (Fin.ext (Nat.mod_eq_of_lt hk).symm)
  · rw [if_neg hk] at hag
    have hk2 : k.val - 96 < 96 := by have := k.isLt; omega
    refine (concatenate_pair_apply_right 1 _ _ concatenates_S64x96_S64x96_S64x192_d1 (ix2 bb k) rfl rfl
      (ix2 bb (⟨k.val - 96, hk2⟩ : Fin 96)) (fun b hb => by
        match b with
        | ⟨0, _⟩ => rfl
        | ⟨1, _⟩ => exact absurd rfl hb) (by show k.val - 96 + 96 = k.val; omega)).trans ?_
    rw [chunk_apply a1 h1 v0 bb ⟨k.val - 96, hk2⟩ ag hag]
    exact congrArg (fun f => v0 (ix3 bb ag f)) (Fin.ext (by show k.val - 96 = k.val % 96; omega))

/-- The fifteen pair matrices of the block, each with a unit middle axis, in stacking order. -/
abbrev rowList (v0 : FVec Ideal S64x16x96 .f32) : List ((s : Shape) × (s.Idx → EReal)) :=
  [⟨S64x1x192, shapeCast S64x1x192 (pairRow 0 1 slices_S64x16x96_o0_0_0_S64x1x96 slices_S64x16x96_o0_1_0_S64x1x96 v0) shapeCasts_S64x192_S64x1x192⟩,
     ⟨S64x1x192, shapeCast S64x1x192 (pairRow 2 3 slices_S64x16x96_o0_2_0_S64x1x96 slices_S64x16x96_o0_3_0_S64x1x96 v0) shapeCasts_S64x192_S64x1x192⟩,
     ⟨S64x1x192, shapeCast S64x1x192 (pairRow 4 5 slices_S64x16x96_o0_4_0_S64x1x96 slices_S64x16x96_o0_5_0_S64x1x96 v0) shapeCasts_S64x192_S64x1x192⟩,
     ⟨S64x1x192, shapeCast S64x1x192 (pairRow 6 7 slices_S64x16x96_o0_6_0_S64x1x96 slices_S64x16x96_o0_7_0_S64x1x96 v0) shapeCasts_S64x192_S64x1x192⟩,
     ⟨S64x1x192, shapeCast S64x1x192 (pairRow 8 9 slices_S64x16x96_o0_8_0_S64x1x96 slices_S64x16x96_o0_9_0_S64x1x96 v0) shapeCasts_S64x192_S64x1x192⟩,
     ⟨S64x1x192, shapeCast S64x1x192 (pairRow 10 11 slices_S64x16x96_o0_10_0_S64x1x96 slices_S64x16x96_o0_11_0_S64x1x96 v0) shapeCasts_S64x192_S64x1x192⟩,
     ⟨S64x1x192, shapeCast S64x1x192 (pairRow 12 13 slices_S64x16x96_o0_12_0_S64x1x96 slices_S64x16x96_o0_13_0_S64x1x96 v0) shapeCasts_S64x192_S64x1x192⟩,
     ⟨S64x1x192, shapeCast S64x1x192 (pairRow 14 1 slices_S64x16x96_o0_14_0_S64x1x96 slices_S64x16x96_o0_1_0_S64x1x96 v0) shapeCasts_S64x192_S64x1x192⟩,
     ⟨S64x1x192, shapeCast S64x1x192 (pairRow 2 3 slices_S64x16x96_o0_2_0_S64x1x96 slices_S64x16x96_o0_3_0_S64x1x96 v0) shapeCasts_S64x192_S64x1x192⟩,
     ⟨S64x1x192, shapeCast S64x1x192 (pairRow 4 5 slices_S64x16x96_o0_4_0_S64x1x96 slices_S64x16x96_o0_5_0_S64x1x96 v0) shapeCasts_S64x192_S64x1x192⟩,
     ⟨S64x1x192, shapeCast S64x1x192 (pairRow 6 7 slices_S64x16x96_o0_6_0_S64x1x96 slices_S64x16x96_o0_7_0_S64x1x96 v0) shapeCasts_S64x192_S64x1x192⟩,
     ⟨S64x1x192, shapeCast S64x1x192 (pairRow 8 9 slices_S64x16x96_o0_8_0_S64x1x96 slices_S64x16x96_o0_9_0_S64x1x96 v0) shapeCasts_S64x192_S64x1x192⟩,
     ⟨S64x1x192, shapeCast S64x1x192 (pairRow 10 11 slices_S64x16x96_o0_10_0_S64x1x96 slices_S64x16x96_o0_11_0_S64x1x96 v0) shapeCasts_S64x192_S64x1x192⟩,
     ⟨S64x1x192, shapeCast S64x1x192 (pairRow 12 13 slices_S64x16x96_o0_12_0_S64x1x96 slices_S64x16x96_o0_13_0_S64x1x96 v0) shapeCasts_S64x192_S64x1x192⟩,
     ⟨S64x1x192, shapeCast S64x1x192 (pairRow 14 15 slices_S64x16x96_o0_14_0_S64x1x96 slices_S64x16x96_o0_15_0_S64x1x96 v0) shapeCasts_S64x192_S64x1x192⟩]

/-- The block's 960 pair rows: the fifteen pair matrices stacked per batch, batch and pair axes merged. -/
def pairsBlk (v0 : FVec Ideal S64x16x96 .f32) : FVec Ideal S960x192 .f32 :=
  shapeCast S960x192 (concatenate S64x15x192 1 (rowList v0)
    concatenates_S64x1x192_S64x1x192_S64x1x192_S64x1x192_S64x1x192_S64x1x192_S64x1x192_S64x1x192_S64x1x192_S64x1x192_S64x1x192_S64x1x192_S64x1x192_S64x1x192_S64x1x192_S64x15x192_d1) shapeCasts_S64x15x192_S960x192

set_option maxHeartbeats 8000000 in
/-- The stacked pair matrices at (batch, pair, column). -/
theorem stack_apply (v0 : FVec Ideal S64x16x96 .f32) (bb : Fin 64) (j : Fin 15) (k : Fin 192) :
    concatenate S64x15x192 1 (rowList v0)
      concatenates_S64x1x192_S64x1x192_S64x1x192_S64x1x192_S64x1x192_S64x1x192_S64x1x192_S64x1x192_S64x1x192_S64x1x192_S64x1x192_S64x1x192_S64x1x192_S64x1x192_S64x1x192_S64x15x192_d1 (ix3 bb j k)
      = v0 (ix3 bb (⟨agentNat (2 * j.val + k.val / 96), agentNat_lt j.isLt k.isLt⟩ : Fin 16) (⟨k.val % 96, Nat.mod_lt _ (by norm_num)⟩ : Fin 96)) := by
  have hk := k.isLt
  match j with
  | ⟨0, _⟩ =>
    refine (concatenate_apply_piece (1 : Fin S64x15x192.rank) (rowList v0) concatenates_S64x1x192_S64x1x192_S64x1x192_S64x1x192_S64x1x192_S64x1x192_S64x1x192_S64x1x192_S64x1x192_S64x1x192_S64x1x192_S64x1x192_S64x1x192_S64x1x192_S64x1x192_S64x15x192_d1 (ix3 bb (⟨0, by omega⟩ : Fin 15) k)
      0 (by show (0 : ℕ) < 15; omega) S64x1x192 _ rfl rfl 0 rfl (ix3 bb (0 : Fin 1) k) (fun b hb => by
        match b with
        | ⟨0, _⟩ => rfl
        | ⟨1, _⟩ => exact absurd rfl hb
        | ⟨2, _⟩ => rfl) rfl).trans ?_
    exact (Cert.Layout3.shapeCast_ab_a1b_apply _ shapeCasts_S64x192_S64x1x192 bb 0 k).trans
      (pairRow_apply 0 1 _ _ v0 bb k _ (by
        show agentNat (2 * 0 + k.val / 96) = if k.val < 96 then 0 else 1
        unfold agentNat; split <;> omega))
  | ⟨1, _⟩ =>
    refine (concatenate_apply_piece (1 : Fin S64x15x192.rank) (rowList v0) concatenates_S64x1x192_S64x1x192_S64x1x192_S64x1x192_S64x1x192_S64x1x192_S64x1x192_S64x1x192_S64x1x192_S64x1x192_S64x1x192_S64x1x192_S64x1x192_S64x1x192_S64x1x192_S64x15x192_d1 (ix3 bb (⟨1, by omega⟩ : Fin 15) k)
      1 (by show (1 : ℕ) < 15; omega) S64x1x192 _ rfl rfl 1 rfl (ix3 bb (0 : Fin 1) k) (fun b hb => by
        match b with
        | ⟨0, _⟩ => rfl
        | ⟨1, _⟩ => exact absurd rfl hb
        | ⟨2, _⟩ => rfl) rfl).trans ?_
    exact (Cert.Layout3.shapeCast_ab_a1b_apply _ shapeCasts_S64x192_S64x1x192 bb 0 k).trans
      (pairRow_apply 2 3 _ _ v0 bb k _ (by
        show agentNat (2 * 1 + k.val / 96) = if k.val < 96 then 2 else 3
        unfold agentNat; split <;> omega))
  | ⟨2, _⟩ =>
    refine (concatenate_apply_piece (1 : Fin S64x15x192.rank) (rowList v0) concatenates_S64x1x192_S64x1x192_S64x1x192_S64x1x192_S64x1x192_S64x1x192_S64x1x192_S64x1x192_S64x1x192_S64x1x192_S64x1x192_S64x1x192_S64x1x192_S64x1x192_S64x1x192_S64x15x192_d1 (ix3 bb (⟨2, by omega⟩ : Fin 15) k)
      2 (by show (2 : ℕ) < 15; omega) S64x1x192 _ rfl rfl 2 rfl (ix3 bb (0 : Fin 1) k) (fun b hb => by
        match b with
        | ⟨0, _⟩ => rfl
        | ⟨1, _⟩ => exact absurd rfl hb
        | ⟨2, _⟩ => rfl) rfl).trans ?_
    exact (Cert.Layout3.shapeCast_ab_a1b_apply _ shapeCasts_S64x192_S64x1x192 bb 0 k).trans
      (pairRow_apply 4 5 _ _ v0 bb k _ (by
        show agentNat (2 * 2 + k.val / 96) = if k.val < 96 then 4 else 5
        unfold agentNat; split <;> omega))
  | ⟨3, _⟩ =>
    refine (concatenate_apply_piece (1 : Fin S64x15x192.rank) (rowList v0) concatenates_S64x1x192_S64x1x192_S64x1x192_S64x1x192_S64x1x192_S64x1x192_S64x1x192_S64x1x192_S64x1x192_S64x1x192_S64x1x192_S64x1x192_S64x1x192_S64x1x192_S64x1x192_S64x15x192_d1 (ix3 bb (⟨3, by omega⟩ : Fin 15) k)
      3 (by show (3 : ℕ) < 15; omega) S64x1x192 _ rfl rfl 3 rfl (ix3 bb (0 : Fin 1) k) (fun b hb => by
        match b with
        | ⟨0, _⟩ => rfl
        | ⟨1, _⟩ => exact absurd rfl hb
        | ⟨2, _⟩ => rfl) rfl).trans ?_
    exact (Cert.Layout3.shapeCast_ab_a1b_apply _ shapeCasts_S64x192_S64x1x192 bb 0 k).trans
      (pairRow_apply 6 7 _ _ v0 bb k _ (by
        show agentNat (2 * 3 + k.val / 96) = if k.val < 96 then 6 else 7
        unfold agentNat; split <;> omega))
  | ⟨4, _⟩ =>
    refine (concatenate_apply_piece (1 : Fin S64x15x192.rank) (rowList v0) concatenates_S64x1x192_S64x1x192_S64x1x192_S64x1x192_S64x1x192_S64x1x192_S64x1x192_S64x1x192_S64x1x192_S64x1x192_S64x1x192_S64x1x192_S64x1x192_S64x1x192_S64x1x192_S64x15x192_d1 (ix3 bb (⟨4, by omega⟩ : Fin 15) k)
      4 (by show (4 : ℕ) < 15; omega) S64x1x192 _ rfl rfl 4 rfl (ix3 bb (0 : Fin 1) k) (fun b hb => by
        match b with
        | ⟨0, _⟩ => rfl
        | ⟨1, _⟩ => exact absurd rfl hb
        | ⟨2, _⟩ => rfl) rfl).trans ?_
    exact (Cert.Layout3.shapeCast_ab_a1b_apply _ shapeCasts_S64x192_S64x1x192 bb 0 k).trans
      (pairRow_apply 8 9 _ _ v0 bb k _ (by
        show agentNat (2 * 4 + k.val / 96) = if k.val < 96 then 8 else 9
        unfold agentNat; split <;> omega))
  | ⟨5, _⟩ =>
    refine (concatenate_apply_piece (1 : Fin S64x15x192.rank) (rowList v0) concatenates_S64x1x192_S64x1x192_S64x1x192_S64x1x192_S64x1x192_S64x1x192_S64x1x192_S64x1x192_S64x1x192_S64x1x192_S64x1x192_S64x1x192_S64x1x192_S64x1x192_S64x1x192_S64x15x192_d1 (ix3 bb (⟨5, by omega⟩ : Fin 15) k)
      5 (by show (5 : ℕ) < 15; omega) S64x1x192 _ rfl rfl 5 rfl (ix3 bb (0 : Fin 1) k) (fun b hb => by
        match b with
        | ⟨0, _⟩ => rfl
        | ⟨1, _⟩ => exact absurd rfl hb
        | ⟨2, _⟩ => rfl) rfl).trans ?_
    exact (Cert.Layout3.shapeCast_ab_a1b_apply _ shapeCasts_S64x192_S64x1x192 bb 0 k).trans
      (pairRow_apply 10 11 _ _ v0 bb k _ (by
        show agentNat (2 * 5 + k.val / 96) = if k.val < 96 then 10 else 11
        unfold agentNat; split <;> omega))
  | ⟨6, _⟩ =>
    refine (concatenate_apply_piece (1 : Fin S64x15x192.rank) (rowList v0) concatenates_S64x1x192_S64x1x192_S64x1x192_S64x1x192_S64x1x192_S64x1x192_S64x1x192_S64x1x192_S64x1x192_S64x1x192_S64x1x192_S64x1x192_S64x1x192_S64x1x192_S64x1x192_S64x15x192_d1 (ix3 bb (⟨6, by omega⟩ : Fin 15) k)
      6 (by show (6 : ℕ) < 15; omega) S64x1x192 _ rfl rfl 6 rfl (ix3 bb (0 : Fin 1) k) (fun b hb => by
        match b with
        | ⟨0, _⟩ => rfl
        | ⟨1, _⟩ => exact absurd rfl hb
        | ⟨2, _⟩ => rfl) rfl).trans ?_
    exact (Cert.Layout3.shapeCast_ab_a1b_apply _ shapeCasts_S64x192_S64x1x192 bb 0 k).trans
      (pairRow_apply 12 13 _ _ v0 bb k _ (by
        show agentNat (2 * 6 + k.val / 96) = if k.val < 96 then 12 else 13
        unfold agentNat; split <;> omega))
  | ⟨7, _⟩ =>
    refine (concatenate_apply_piece (1 : Fin S64x15x192.rank) (rowList v0) concatenates_S64x1x192_S64x1x192_S64x1x192_S64x1x192_S64x1x192_S64x1x192_S64x1x192_S64x1x192_S64x1x192_S64x1x192_S64x1x192_S64x1x192_S64x1x192_S64x1x192_S64x1x192_S64x15x192_d1 (ix3 bb (⟨7, by omega⟩ : Fin 15) k)
      7 (by show (7 : ℕ) < 15; omega) S64x1x192 _ rfl rfl 7 rfl (ix3 bb (0 : Fin 1) k) (fun b hb => by
        match b with
        | ⟨0, _⟩ => rfl
        | ⟨1, _⟩ => exact absurd rfl hb
        | ⟨2, _⟩ => rfl) rfl).trans ?_
    exact (Cert.Layout3.shapeCast_ab_a1b_apply _ shapeCasts_S64x192_S64x1x192 bb 0 k).trans
      (pairRow_apply 14 1 _ _ v0 bb k _ (by
        show agentNat (2 * 7 + k.val / 96) = if k.val < 96 then 14 else 1
        unfold agentNat; split <;> omega))
  | ⟨8, _⟩ =>
    refine (concatenate_apply_piece (1 : Fin S64x15x192.rank) (rowList v0) concatenates_S64x1x192_S64x1x192_S64x1x192_S64x1x192_S64x1x192_S64x1x192_S64x1x192_S64x1x192_S64x1x192_S64x1x192_S64x1x192_S64x1x192_S64x1x192_S64x1x192_S64x1x192_S64x15x192_d1 (ix3 bb (⟨8, by omega⟩ : Fin 15) k)
      8 (by show (8 : ℕ) < 15; omega) S64x1x192 _ rfl rfl 8 rfl (ix3 bb (0 : Fin 1) k) (fun b hb => by
        match b with
        | ⟨0, _⟩ => rfl
        | ⟨1, _⟩ => exact absurd rfl hb
        | ⟨2, _⟩ => rfl) rfl).trans ?_
    exact (Cert.Layout3.shapeCast_ab_a1b_apply _ shapeCasts_S64x192_S64x1x192 bb 0 k).trans
      (pairRow_apply 2 3 _ _ v0 bb k _ (by
        show agentNat (2 * 8 + k.val / 96) = if k.val < 96 then 2 else 3
        unfold agentNat; split <;> omega))
  | ⟨9, _⟩ =>
    refine (concatenate_apply_piece (1 : Fin S64x15x192.rank) (rowList v0) concatenates_S64x1x192_S64x1x192_S64x1x192_S64x1x192_S64x1x192_S64x1x192_S64x1x192_S64x1x192_S64x1x192_S64x1x192_S64x1x192_S64x1x192_S64x1x192_S64x1x192_S64x1x192_S64x15x192_d1 (ix3 bb (⟨9, by omega⟩ : Fin 15) k)
      9 (by show (9 : ℕ) < 15; omega) S64x1x192 _ rfl rfl 9 rfl (ix3 bb (0 : Fin 1) k) (fun b hb => by
        match b with
        | ⟨0, _⟩ => rfl
        | ⟨1, _⟩ => exact absurd rfl hb
        | ⟨2, _⟩ => rfl) rfl).trans ?_
    exact (Cert.Layout3.shapeCast_ab_a1b_apply _ shapeCasts_S64x192_S64x1x192 bb 0 k).trans
      (pairRow_apply 4 5 _ _ v0 bb k _ (by
        show agentNat (2 * 9 + k.val / 96) = if k.val < 96 then 4 else 5
        unfold agentNat; split <;> omega))
  | ⟨10, _⟩ =>
    refine (concatenate_apply_piece (1 : Fin S64x15x192.rank) (rowList v0) concatenates_S64x1x192_S64x1x192_S64x1x192_S64x1x192_S64x1x192_S64x1x192_S64x1x192_S64x1x192_S64x1x192_S64x1x192_S64x1x192_S64x1x192_S64x1x192_S64x1x192_S64x1x192_S64x15x192_d1 (ix3 bb (⟨10, by omega⟩ : Fin 15) k)
      10 (by show (10 : ℕ) < 15; omega) S64x1x192 _ rfl rfl 10 rfl (ix3 bb (0 : Fin 1) k) (fun b hb => by
        match b with
        | ⟨0, _⟩ => rfl
        | ⟨1, _⟩ => exact absurd rfl hb
        | ⟨2, _⟩ => rfl) rfl).trans ?_
    exact (Cert.Layout3.shapeCast_ab_a1b_apply _ shapeCasts_S64x192_S64x1x192 bb 0 k).trans
      (pairRow_apply 6 7 _ _ v0 bb k _ (by
        show agentNat (2 * 10 + k.val / 96) = if k.val < 96 then 6 else 7
        unfold agentNat; split <;> omega))
  | ⟨11, _⟩ =>
    refine (concatenate_apply_piece (1 : Fin S64x15x192.rank) (rowList v0) concatenates_S64x1x192_S64x1x192_S64x1x192_S64x1x192_S64x1x192_S64x1x192_S64x1x192_S64x1x192_S64x1x192_S64x1x192_S64x1x192_S64x1x192_S64x1x192_S64x1x192_S64x1x192_S64x15x192_d1 (ix3 bb (⟨11, by omega⟩ : Fin 15) k)
      11 (by show (11 : ℕ) < 15; omega) S64x1x192 _ rfl rfl 11 rfl (ix3 bb (0 : Fin 1) k) (fun b hb => by
        match b with
        | ⟨0, _⟩ => rfl
        | ⟨1, _⟩ => exact absurd rfl hb
        | ⟨2, _⟩ => rfl) rfl).trans ?_
    exact (Cert.Layout3.shapeCast_ab_a1b_apply _ shapeCasts_S64x192_S64x1x192 bb 0 k).trans
      (pairRow_apply 8 9 _ _ v0 bb k _ (by
        show agentNat (2 * 11 + k.val / 96) = if k.val < 96 then 8 else 9
        unfold agentNat; split <;> omega))
  | ⟨12, _⟩ =>
    refine (concatenate_apply_piece (1 : Fin S64x15x192.rank) (rowList v0) concatenates_S64x1x192_S64x1x192_S64x1x192_S64x1x192_S64x1x192_S64x1x192_S64x1x192_S64x1x192_S64x1x192_S64x1x192_S64x1x192_S64x1x192_S64x1x192_S64x1x192_S64x1x192_S64x15x192_d1 (ix3 bb (⟨12, by omega⟩ : Fin 15) k)
      12 (by show (12 : ℕ) < 15; omega) S64x1x192 _ rfl rfl 12 rfl (ix3 bb (0 : Fin 1) k) (fun b hb => by
        match b with
        | ⟨0, _⟩ => rfl
        | ⟨1, _⟩ => exact absurd rfl hb
        | ⟨2, _⟩ => rfl) rfl).trans ?_
    exact (Cert.Layout3.shapeCast_ab_a1b_apply _ shapeCasts_S64x192_S64x1x192 bb 0 k).trans
      (pairRow_apply 10 11 _ _ v0 bb k _ (by
        show agentNat (2 * 12 + k.val / 96) = if k.val < 96 then 10 else 11
        unfold agentNat; split <;> omega))
  | ⟨13, _⟩ =>
    refine (concatenate_apply_piece (1 : Fin S64x15x192.rank) (rowList v0) concatenates_S64x1x192_S64x1x192_S64x1x192_S64x1x192_S64x1x192_S64x1x192_S64x1x192_S64x1x192_S64x1x192_S64x1x192_S64x1x192_S64x1x192_S64x1x192_S64x1x192_S64x1x192_S64x15x192_d1 (ix3 bb (⟨13, by omega⟩ : Fin 15) k)
      13 (by show (13 : ℕ) < 15; omega) S64x1x192 _ rfl rfl 13 rfl (ix3 bb (0 : Fin 1) k) (fun b hb => by
        match b with
        | ⟨0, _⟩ => rfl
        | ⟨1, _⟩ => exact absurd rfl hb
        | ⟨2, _⟩ => rfl) rfl).trans ?_
    exact (Cert.Layout3.shapeCast_ab_a1b_apply _ shapeCasts_S64x192_S64x1x192 bb 0 k).trans
      (pairRow_apply 12 13 _ _ v0 bb k _ (by
        show agentNat (2 * 13 + k.val / 96) = if k.val < 96 then 12 else 13
        unfold agentNat; split <;> omega))
  | ⟨14, _⟩ =>
    refine (concatenate_apply_piece (1 : Fin S64x15x192.rank) (rowList v0) concatenates_S64x1x192_S64x1x192_S64x1x192_S64x1x192_S64x1x192_S64x1x192_S64x1x192_S64x1x192_S64x1x192_S64x1x192_S64x1x192_S64x1x192_S64x1x192_S64x1x192_S64x1x192_S64x15x192_d1 (ix3 bb (⟨14, by omega⟩ : Fin 15) k)
      14 (by show (14 : ℕ) < 15; omega) S64x1x192 _ rfl rfl 14 rfl (ix3 bb (0 : Fin 1) k) (fun b hb => by
        match b with
        | ⟨0, _⟩ => rfl
        | ⟨1, _⟩ => exact absurd rfl hb
        | ⟨2, _⟩ => rfl) rfl).trans ?_
    exact (Cert.Layout3.shapeCast_ab_a1b_apply _ shapeCasts_S64x192_S64x1x192 bb 0 k).trans
      (pairRow_apply 14 15 _ _ v0 bb k _ (by
        show agentNat (2 * 14 + k.val / 96) = if k.val < 96 then 14 else 15
        unfold agentNat; split <;> omega))
  | ⟨n + 15, h⟩ => exact absurd h (by omega)

/-- Row r = 15·b + j of the block's pair rows, column k. -/
theorem pairsBlk_apply (v0 : FVec Ideal S64x16x96 .f32) (bb : Fin 64) (j : Fin 15) (k : Fin 192) (r : Fin 960)
    (hr : r.val = bb.val * 15 + j.val) :
    pairsBlk v0 (ix2 r k)
      = v0 (ix3 bb (⟨agentNat (2 * j.val + k.val / 96), agentNat_lt j.isLt k.isLt⟩ : Fin 16) (⟨k.val % 96, Nat.mod_lt _ (by norm_num)⟩ : Fin 96)) := by
  unfold pairsBlk
  rw [Cert.RowReshape.shapeCast_abc_mc_apply _ shapeCasts_S64x15x192_S960x192 bb j k r hr]
  exact stack_apply v0 bb j k

end Cert.KernelIdeal.Pairs

end
-- ==== Proof.KernelIdealPoint.lean ====
/-
  One grid point's hidden-state block against the specification. If the agents' block holds batches 64·t … 64·t + 63
  of an array A0 and the hidden block rows 960·t … 960·t + 959 of an array A1, then entry (p, j) of what the body
  stores is `GruSpec.hpAt` at the global row 960·t + p: a row of the cell only reads its own row of the gate layers and
  of the carried state, a row of a dense layer only its own input row, and pair row p of the block is pair p mod 15 of
  batch p / 15 — since 960 = 64 · 15, the global row's batch is 64·t + p / 15 and its pair is p mod 15.
-/
import proofs.«128030_j52063593562852_2_alg».proof.Proof.KernelIdealBody
import proofs.«128030_j52063593562852_2_alg».proof.Proof.KernelIdealGates
import proofs.«128030_j52063593562852_2_alg».proof.Proof.KernelIdealPairs

noncomputable section

open scoped BigOperators

namespace Cert.KernelIdeal.Point

open Cert.KernelIdeal Cert.KernelIdeal.Gen Cert.KernelIdeal.Body Cert.KernelIdeal.Gates Cert.KernelIdeal.Pairs Cert.GruSpec
open Idealize.ShloMosaic Idealize.ShloMosaic.ValueIdx

/-! ## Rows only read their own row -/

theorem dense_row {N N' K M : ℕ} (X : Fin N → Fin K → EReal) (X' : Fin N' → Fin K → EReal)
    (W : (⟨2, ![K, M]⟩ : Shape).Idx → EReal) (b : (⟨1, ![M]⟩ : Shape).Idx → EReal) (p : Fin N) (n : Fin N') (j : Fin M)
    (h : ∀ k, X p k = X' n k) : dense X W b p j = dense X' W b n j := by
  unfold dense
  rw [Finset.sum_congr rfl fun k _ => by rw [h k]]

theorem cell_row {N N' : ℕ} (gi gh : Fin N → Fin 768 → EReal) (hid : Fin N → Fin 256 → EReal)
    (gi' gh' : Fin N' → Fin 768 → EReal) (hid' : Fin N' → Fin 256 → EReal) (p : Fin N) (n : Fin N') (j : Fin 256)
    (hgi : ∀ c, gi p c = gi' n c) (hgh : ∀ c, gh p c = gh' n c) (hh : ∀ c, hid p c = hid' n c) :
    cell gi gh hid p j = cell gi' gh' hid' n j := by
  unfold cell
  simp only [hgi, hgh, hh]

theorem decAt_row {N N' : ℕ} (hp : Fin N → Fin 256 → EReal) (hp' : Fin N' → Fin 256 → EReal)
    (w2 : (⟨2, ![256, 256]⟩ : Shape).Idx → EReal) (b2 : (⟨1, ![256]⟩ : Shape).Idx → EReal) (p : Fin N) (n : Fin N')
    (j : Fin 16) (u : Fin 2) (h : ∀ k, hp p k = hp' n k) : decAt hp w2 b2 p j u = decAt hp' w2 b2 n j u := by
  unfold decAt gridAt
  simp only [dense_row hp hp' w2 b2 p n _ h]

/-! ## The gate payload is the two layers over the pair rows -/

theorem pay13_eq (v0 : FVec Ideal S64x16x96 .f32) (v94 : FVec Ideal S192x256 .bf16) (v97 : FVec Ideal S256 .f32)
    (v104 : FVec Ideal S256x768 .bf16) :
    k0_pay13 v0 (k0_pay2 v0) (k0_pay3 v0) (k0_pay4 v0) (k0_pay5 v0) (k0_pay6 v0) (k0_pay7 v0) (k0_pay8 v0) (k0_pay9 v0)
        (k0_pay10 v0) (k0_pay11 v0) (k0_pay12 v0) v94 v97 v104
      = gateMul (layer1 (pairsBlk v0) v94 v97) v104 := rfl

/-! ## The block against the specification -/

section Block

variable (x0 : FVec Ideal S64x16x96 .f32) (x1 : FVec Ideal S960x256 .f32) (x2 : FVec Ideal S192x256 .bf16)
  (x3 : FVec Ideal S256 .f32) (x4 : FVec Ideal S256x768 .bf16) (x5 : FVec Ideal S768 .f32)
  (x6 : FVec Ideal S256x768 .bf16) (x7 : FVec Ideal S768 .f32)
  (A0 : (⟨3, ![16384, 16, 96]⟩ : Shape).Idx → EReal) (A1 : (⟨2, ![245760, 256]⟩ : Shape).Idx → EReal)
  (tt : ℕ) (htt : tt < 256)
  (h0 : ∀ (bb : Fin 64) (ag : Fin 16) (f : Fin 96),
    x0 (ix3 bb ag f) = A0 (ix3 (⟨64 * tt + bb.val, by omega⟩ : Fin 16384) ag f))
  (h1 : ∀ (p : Fin 960) (k : Fin 256), x1 (ix2 p k) = A1 (ix2 (⟨960 * tt + p.val, by omega⟩ : Fin 245760) k))

include h0 in
/-- Pair row p of the block is the global pair row. -/
theorem pairs_row (p : Fin 960) (k : Fin 192) :
    pairsBlk x0 (ix2 p k) = pairAt A0 (⟨960 * tt + p.val, by omega⟩ : Fin 245760) k := by
  have hp := p.isLt
  rw [pairsBlk_apply x0 (⟨p.val / 15, by omega⟩ : Fin 64) (⟨p.val % 15, Nat.mod_lt _ (by norm_num)⟩ : Fin 15) k p
    (by show p.val = p.val / 15 * 15 + p.val % 15; omega), h0]
  unfold pairAt
  have e1 : (960 * tt + p.val) / 15 = 64 * tt + p.val / 15 := by omega
  have e2 : (960 * tt + p.val) % 15 = p.val % 15 := by omega
  refine congrArg A0 (funext fun a => ?_)
  match a with
  | ⟨0, _⟩ => exact Fin.ext e1.symm
  | ⟨1, _⟩ => exact Fin.ext (by show agentNat (2 * (p.val % 15) + k.val / 96) = agentNat (2 * ((960 * tt + p.val) % 15) + k.val / 96); rw [e2])
  | ⟨2, _⟩ => rfl

include h0 in
/-- The first layer's row. -/
theorem act_row (p : Fin 960) (k : Fin 256) :
    layer1 (pairsBlk x0) x2 x3 (ix2 p k) = act1 A0 x2 x3 (⟨960 * tt + p.val, by omega⟩ : Fin 245760) k := by
  rw [layer1_apply]
  unfold act1 dense
  simp only [pairs_row x0 A0 tt htt h0]

include h0 h1 in
/-- Entry (p, j) of the stored hidden block is the specification at global row 960·t + p. -/
theorem hid_block (p : Fin 960) (j : Fin 256) :
    hidOut (F := Ideal) x0 x1 x2 x3 x4 x5 x6 x7 (ix2 p j)
      = hpAt A0 A1 x2 x3 x4 x6 x5 x7 (⟨960 * tt + p.val, by omega⟩ : Fin 245760) j := by
  unfold hidOut giOf
  simp only [View.ld_unit_zero (S := S64x16x96) zero3, View.ld_unit_zero (S := S960x256) zero2,
    View.ld_unit_zero (S := S192x256) zero2, View.ld_unit_zero (S := S256) zero1,
    View.ld_unit_zero (S := S256x768) zero2, View.ld_unit_zero (S := S768) zero1]
  rw [pay14_apply, pay13_eq]
  unfold hpAt
  refine cell_row _ _ _ _ _ _ p _ j (fun c => ?_) (fun c => ?_) (fun c => ?_)
  · rw [gateMul_apply]
    unfold dense
    simp only [act_row x0 x2 x3 A0 tt htt h0]
  · unfold dense
    simp only [h1]
  · exact h1 p c

end Block

end Cert.KernelIdeal.Point

end
-- ==== Proof.LibTrailingMerge.lean ====
/-
  Two reshapes read at an index given by coordinates: the one that merges the two trailing axes of a rank-3 array,
  `[a, b, c] → [a, n]` with `n = b · c`, and the one that splits the trailing axis of a matrix in two and appends a unit
  axis, `[a, n] → [a, b, c, 1]`. In both, the merged coordinate is `l = j · c + k`: the two indices have the same
  row-major position.
-/
import Idealize.ShloMosaic.Lib.Pipeline.Value
import Idealize.ShloMosaic.Lib.ValueIdx

namespace Cert.TrailingMerge

open Idealize.ShloMosaic Idealize.ShloMosaic.ValueIdx

variable {α : Type}

/-- `[a, b, c]` reshaped to `[a, b · c]` reads, at `(i, j · c + k)`, the operand at `(i, j, k)`. -/
theorem shapeCast_abc_an_apply {a b c n : ℕ} (hn : n = b * c) (x : (⟨3, ![a, b, c]⟩ : Shape).Idx → α)
    (h : (⟨3, ![a, b, c]⟩ : Shape).ShapeCasts ⟨2, ![a, n]⟩) (i : Fin a) (l : Fin n) (j : Fin b) (k : Fin c)
    (hl : l.val = j.val * c + k.val) : shapeCast ⟨2, ![a, n]⟩ x h (ix2 i l) = x (ix3 i j k) :=
  shapeCast_apply x h _ _ (by
    rw [Shape.rowMajor_val_three, Shape.rowMajor_val_two]
    show (i.val * b + j.val) * c + k.val = i.val * n + l.val
    subst hn
    rw [hl]
    ring)

/-- `[a, b · c]` reshaped to `[a, b, c, 1]` reads, at `(i, j, k, u)`, the operand at `(i, j · c + k)`. -/
theorem shapeCast_an_abc1_apply {a b c n : ℕ} (hn : n = b * c) (y : (⟨2, ![a, n]⟩ : Shape).Idx → α)
    (h : (⟨2, ![a, n]⟩ : Shape).ShapeCasts ⟨4, ![a, b, c, 1]⟩) (i : Fin a) (j : Fin b) (k : Fin c) (u : Fin 1) (l : Fin n)
    (hl : l.val = j.val * c + k.val) : shapeCast ⟨4, ![a, b, c, 1]⟩ y h (ix4 i j k u) = y (ix2 i l) :=
  shapeCast_apply y h _ _ (by
    rw [Shape.rowMajor_val_two, Shape.rowMajor_val_four]
    show i.val * n + l.val = ((i.val * b + j.val) * c + k.val) * 1 + u.val
    have hu : u.val = 0 := by omega
    subst hn
    rw [hl, hu]
    ring)

end Cert.TrailingMerge
-- ==== Proof.KernelIdealDecode.lean ====
/-
  The decode half of the kernel's body, read at an index, at the ideal values.

  The body keeps a block of 960 hidden rows. The head multiplies the block by the 256 × 256 weights (stored in a narrower
  format, which at the ideal values is the same number), adds the bias to every row, and reads each row's 256 outputs
  as a 16 × 16 grid, output 16a + b at (a, b). The decode takes, for each grid row j, its maximum over the columns, and
  for each grid column j, its maximum over the rows; the two are laid side by side as 16 pairs and the pairs flattened,
  so position l of a decoded row is entry (l / 2, l % 2): the row maximum of grid row l / 2 at an even l, the column
  maximum of grid column l / 2 at an odd l. `grid3` and `decBlk` spell these operations as the kernel prints them,
  over any stored hidden block; `pay_eq` says the kernel's stored payload is `decBlk` of its hidden-state payload, and
  `decBlk_apply` reads `decBlk` at (r, l) as the specification's `decAt`.
-/
import proofs.«128030_j52063593562852_2_alg».proof.Proof.Gen.KernelIdeal.Skeleton
import proofs.«128030_j52063593562852_2_alg».proof.Proof.GruSpec
import proofs.«128030_j52063593562852_2_alg».proof.Proof.LibDenseLayer
import proofs.«128030_j52063593562852_2_alg».proof.Proof.LibTrailingMerge
import proofs.«128030_j52063593562852_2_alg».proof.Proof.LibLayout3
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

namespace Cert.KernelIdeal.Decode

open Cert.KernelIdeal Cert.KernelIdeal.Gen Cert.GruSpec Idealize.ShloMosaic Idealize.ShloMosaic.ValueIdx

/-- The head's action grid of the block: the stored hidden block against the head's weights (a change of format is the
    identity at the ideal values), plus the bias on every row, the 256 outputs of a row read as a 16 × 16 grid. -/
def grid3 (hpB : FVec Ideal S960x256 .f32) (w2b : Vec Ideal S256x256 .bf16) (b2 : Vec Ideal S256 .f32) : FVec Ideal S960x16x16 .f32 :=
  shapeCast S960x16x16 (addf (matmul dot_S960x256_S256x256_S960x256_1_0_0_1_n_n none (truncf .bf16 hpB bitsLt_bf16_f32) (shapeCast S256x256 w2b shapeCasts_S256x256_S256x256 : FVec Ideal S256x256 .bf16) (constant S960x256 .f32 0x00000000#32)) (broadcastTo S960x256 (shapeCast S1x256 b2 shapeCasts_S256_S1x256 : FVec Ideal S1x256 .f32) broadcasts_S1x256_S960x256)) shapeCasts_S960x256_S960x16x16

/-- The block's decode: for each grid row its maximum and for each grid column its maximum, the two laid side by side as
    16 pairs per row of the block and the pairs flattened to 32 entries. -/
def decBlk (hpB : FVec Ideal S960x256 .f32) (w2b : Vec Ideal S256x256 .bf16) (b2 : Vec Ideal S256 .f32) : FVec Ideal S960x32 .f32 :=
  shapeCast S960x32 (concatenate S960x16x2 2 [⟨S960x16x1, shapeCast S960x16x1 (multiReduction .maximumf [2] S960x16 (grid3 hpB w2b b2) 0xFF800000#32 reduces_S960x16x16_S960x16 (.inl rfl) rfl) shapeCasts_S960x16_S960x16x1⟩, ⟨S960x16x1, shapeCast S960x16x1 (multiReduction .maximumf [1] S960x16 (grid3 hpB w2b b2) 0xFF800000#32 reduces_S960x16x16_S960x16_2 (.inl rfl) rfl) shapeCasts_S960x16_S960x16x1⟩] concatenates_S960x16x1_S960x16x1_S960x16x2_d2) shapeCasts_S960x16x2_S960x32

/-- The kernel's stored decode payload is the block's decode of its hidden-state payload. -/
theorem pay_eq (v106 : FVec Ideal S960x768 .f32) (v107 : Vec Ideal S768 .f32) (v111 : Vec Ideal S960x256 .f32) (v113 : Vec Ideal S256x768 .bf16) (v116 : Vec Ideal S768 .f32) (v140 : Vec Ideal S256x256 .bf16) (v143 : Vec Ideal S256 .f32) :
    k0_pay1 (k0_pay16 v106 v107 v111 v113 v116 v140 v143) (k0_pay17 v106 v107 v111 v113 v116 v140 v143) = decBlk (k0_pay14 v106 v107 v111 v113 v116) v140 v143 := rfl

/-! ## The grid at an index -/

/-- Entry (r, a, b) of the grid is output 16a + b of row r of the head: the hidden row against column 16a + b of the
    weights, plus that entry of the bias. -/
theorem grid3_apply (hpB : FVec Ideal S960x256 .f32) (w2b : Vec Ideal S256x256 .bf16) (b2 : Vec Ideal S256 .f32)
    (r : Fin 960) (a b : Fin 16) :
    grid3 hpB w2b b2 (ix3 r a b) = gridAt (fun (n : Fin 960) (j : Fin 256) => hpB (ix2 n j)) w2b b2 r a b := by
  unfold grid3
  refine (shapeCast_apply _ _ (ix3 r a b) (ix2 r (⟨16 * a.val + b.val, by omega⟩ : Fin 256)) ?_).trans ?_
  · rw [Shape.rowMajor_val_three, Shape.rowMajor_val_two]
    show r.val * 256 + (16 * a.val + b.val) = (r.val * 16 + a.val) * 16 + b.val
    omega
  · rw [addf_apply]
    unfold gridAt dense
    congr 1
    · refine (Cert.DenseLayer.matmul_rows_cols dot_S960x256_S256x256_S960x256_1_0_0_1_n_n rfl rfl
        (fun _ _ => rfl) (fun _ _ => rfl) (fun _ _ => rfl) (fun _ _ => rfl) none _ _ r _).trans ?_
      refine Finset.sum_congr rfl fun k _ => ?_
      rw [truncf_apply, shapeCast_self]
    · refine (broadcastTo_1b_ab_apply _ _ r _).trans ?_
      exact shapeCast_a_1a_apply _ _ _ _

/-! ## The two lane maxima at an index -/

/-- A rank-3 array reduced along its last axis: (p, q) with coordinate c inserted is (p, q, c). -/
theorem lift_last {a b c : ℕ} (h : (⟨3, ![a, b, c]⟩ : Shape).Reduces [2] ⟨2, ![a, b]⟩) (p : Fin a) (q : Fin b) (k : Fin c) :
    h.lift (ix2 p q) k = ix3 p q k :=
  funext fun ax => Fin.ext (by match ax with | ⟨0, _⟩ => rfl | ⟨1, _⟩ => rfl | ⟨2, _⟩ => rfl)

/-- A rank-3 array reduced along its middle axis: (p, q) with coordinate c inserted is (p, c, q). -/
theorem lift_mid {a b c : ℕ} (h : (⟨3, ![a, b, c]⟩ : Shape).Reduces [1] ⟨2, ![a, c]⟩) (p : Fin a) (q : Fin c) (k : Fin b) :
    h.lift (ix2 p q) k = ix3 p k q :=
  funext fun ax => Fin.ext (by match ax with | ⟨0, _⟩ => rfl | ⟨1, _⟩ => rfl | ⟨2, _⟩ => rfl)

/-- The maximum along the last axis at (r, j): the fold of max, from -inf, of the grid's row j. -/
theorem maxLast_apply (g : FVec Ideal S960x16x16 .f32) (h : S960x16x16.Reduces [2] S960x16) (hφ : FKind.Formats .f32)
    (hacc : (0xFF800000#32 : BitVec FTy.f32.bits) = FKind.maximumf.neutral .f32 hφ) (r : Fin 960) (j : Fin 16) :
    multiReduction .maximumf [2] S960x16 g 0xFF800000#32 h hφ hacc (ix2 r j)
      = (Finset.univ : Finset (Fin 16)).fold max negInfF (fun b => g (ix3 r j b)) := by
  refine (Ideal.multiReduction_maximumf_single g _ h hφ hacc (ix2 r j)).trans ?_
  show (Finset.univ : Finset (Fin 16)).fold max negInfF (g ∘ h.lift (ix2 r j)) = _
  exact Finset.fold_congr fun b _ => congrArg g (lift_last h r j b)

/-- The maximum along the middle axis at (r, j): the fold of max, from -inf, of the grid's column j. -/
theorem maxMid_apply (g : FVec Ideal S960x16x16 .f32) (h : S960x16x16.Reduces [1] S960x16) (hφ : FKind.Formats .f32)
    (hacc : (0xFF800000#32 : BitVec FTy.f32.bits) = FKind.maximumf.neutral .f32 hφ) (r : Fin 960) (j : Fin 16) :
    multiReduction .maximumf [1] S960x16 g 0xFF800000#32 h hφ hacc (ix2 r j)
      = (Finset.univ : Finset (Fin 16)).fold max negInfF (fun a => g (ix3 r a j)) := by
  refine (Ideal.multiReduction_maximumf_single g _ h hφ hacc (ix2 r j)).trans ?_
  show (Finset.univ : Finset (Fin 16)).fold max negInfF (g ∘ h.lift (ix2 r j)) = _
  exact Finset.fold_congr fun a _ => congrArg g (lift_mid h r j a)

/-! ## The pair list at an index -/

/-- Two [960, 16, 1] stacks laid side by side along the last axis: position u = 0 reads the first, u = 1 the second. -/
theorem pair_apply {α : Type} (x₁ x₂ : S960x16x1.Idx → α) (h : Shape.Concatenates [S960x16x1, S960x16x1] S960x16x2 2)
    (r : Fin 960) (j : Fin 16) (u : Fin 2) :
    concatenate S960x16x2 2 [⟨S960x16x1, x₁⟩, ⟨S960x16x1, x₂⟩] h (ix3 r j u)
      = if u.val = 0 then x₁ (ix3 r j (0 : Fin 1)) else x₂ (ix3 r j (0 : Fin 1)) := by
  split
  · next hu =>
    exact concatenate_pair_apply_left 2 x₁ x₂ h (ix3 r j u) rfl (ix3 r j (0 : Fin 1)) fun b => by
      match b with
      | ⟨0, _⟩ => rfl
      | ⟨1, _⟩ => rfl
      | ⟨2, _⟩ => exact hu.symm
  · next hu =>
    exact concatenate_pair_apply_right 2 x₁ x₂ h (ix3 r j u) rfl rfl (ix3 r j (0 : Fin 1)) (fun b hb => by
      match b, hb with
      | ⟨0, _⟩, _ => rfl
      | ⟨1, _⟩, _ => rfl
      | ⟨2, _⟩, hb => exact absurd rfl hb) (by
        show 0 + 1 = u.val
        have := u.isLt
        omega)

/-! ## The block's decode at an index -/

/-- Position l of row r of the block's decode is entry (l / 2, l % 2) of that row's decode: the maximum of grid row l / 2
    at an even position, of grid column l / 2 at an odd one. -/
theorem decBlk_apply (hpB : FVec Ideal S960x256 .f32) (w2b : Vec Ideal S256x256 .bf16) (b2 : Vec Ideal S256 .f32)
    (r : Fin 960) (l : Fin 32) :
    decBlk hpB w2b b2 (ix2 r l)
      = decAt (fun (n : Fin 960) (j : Fin 256) => hpB (ix2 n j)) w2b b2 r
          (⟨l.val / 2, by have := l.isLt; omega⟩ : Fin 16) (⟨l.val % 2, Nat.mod_lt _ (by norm_num)⟩ : Fin 2) := by
  unfold decBlk
  refine (Cert.TrailingMerge.shapeCast_abc_an_apply (b := 16) (c := 2) rfl _ _ r l
    (⟨l.val / 2, by have := l.isLt; omega⟩ : Fin 16) (⟨l.val % 2, Nat.mod_lt _ (by norm_num)⟩ : Fin 2) ?_).trans ?_
  · show l.val = l.val / 2 * 2 + l.val % 2
    omega
  refine (pair_apply _ _ _ r _ _).trans ?_
  unfold decAt
  refine if_congr Iff.rfl ?_ ?_
  · refine (Cert.Layout3.shapeCast_ab_ab1_apply _ _ r _ 0).trans ?_
    refine (maxLast_apply _ _ _ _ r _).trans ?_
    exact Finset.fold_congr fun b _ => grid3_apply hpB w2b b2 r _ b
  · refine (Cert.Layout3.shapeCast_ab_ab1_apply _ _ r _ 0).trans ?_
    refine (maxMid_apply _ _ _ _ r _).trans ?_
    exact Finset.fold_congr fun a _ => grid3_apply hpB w2b b2 r a _

end Cert.KernelIdeal.Decode

end
-- ==== Proof.KernelIdealArrays.lean ====
/-
  From blocks to arrays, for the idealized kernel. Window 0 stages batches 64·t … 64·t + 63 of the agents' array at grid
  point t, windows 1, 10 and 11 rows 960·t … 960·t + 959 of the hidden-state, new-hidden-state and decode arrays, and
  windows 2 … 9 the weights and biases whole at every point. So what point t writes back into window 10 is rows
  960·t … of ONE function of the argument arrays — the specification's new hidden state — and into window 11 rows 960·t …
  of its decode; the 256 points' blocks tile both arrays, which therefore end holding those functions.
-/
import proofs.«128030_j52063593562852_2_alg».proof.Proof.KernelIdealFrame
import proofs.«128030_j52063593562852_2_alg».proof.Proof.KernelIdealPoint
import proofs.«128030_j52063593562852_2_alg».proof.Proof.KernelIdealDecode

set_option maxRecDepth 16384

noncomputable section

namespace Cert.KernelIdeal.Arrays

open Cert.KernelIdeal Cert.KernelIdeal.Gen Cert.KernelIdeal.Host Cert.KernelIdeal.Body Cert.KernelIdeal.Frame
open Cert.KernelIdeal.Point Cert.KernelIdeal.Decode Cert.GruSpec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The printed index maps, decided over the grid. -/
theorem idx_facts : ∀ t : Fin cfg0.N,
    win0_0.index t (0 : Fin 3) = t.val
    ∧ win0_0.index t (1 : Fin 3) = 0
    ∧ win0_0.index t (2 : Fin 3) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 1) = 0
    ∧ win0_4.index t (0 : Fin 2) = 0
    ∧ win0_4.index t (1 : Fin 2) = 0
    ∧ win0_5.index t (0 : Fin 1) = 0
    ∧ win0_6.index t (0 : Fin 2) = 0
    ∧ win0_6.index t (1 : Fin 2) = 0
    ∧ win0_7.index t (0 : Fin 1) = 0
    ∧ win0_8.index t (0 : Fin 2) = 0
    ∧ win0_8.index t (1 : Fin 2) = 0
    ∧ win0_9.index t (0 : Fin 1) = 0
    ∧ win0_10.index t (0 : Fin 2) = t.val
    ∧ win0_10.index t (1 : Fin 2) = 0
    ∧ win0_11.index t (0 : Fin 2) = t.val
    ∧ win0_11.index t (1 : Fin 2) = 0 :=
  (by decide +kernel : ∀ t : Fin grid0.N, _)

/-! ## Each window's block, read off its array -/

/-- The agents' block at point t is batches 64·t … of the array. -/
theorem blk0 (c : Dev nD) (t : Fin cfg0.N) (bb : Fin 64) (ag : Fin 16) (f : Fin 96) :
    iblk m c 0 t (ix3 bb ag f)
      = V m c main_arg0 (ix3 (⟨64 * t.val + bb.val, by have := t.isLt; have h : cfg0.N = 256 := N_0; omega⟩ : Fin 16384) ag f) := by
  obtain ⟨e0, e1, e2, e3, e4, e5, e6, e7, e8, e9, e10, e11, e12, e13, e14, e15, e16, e17, e18, e19, e20⟩ := idx_facts t
  show V m c main_arg0 (((cfg0.win 0).blk t).view.emb (ix3 bb ag f)) = _
  refine congrArg (V m c main_arg0) (funext fun a => Fin.ext ?_)
  match a with
  | ⟨0, _⟩ => show win0_0.index t (0 : Fin 3) * 64 + 1 * bb.val = 64 * t.val + bb.val; omega
  | ⟨1, _⟩ => show win0_0.index t (1 : Fin 3) * 16 + 1 * ag.val = ag.val; omega
  | ⟨2, _⟩ => show win0_0.index t (2 : Fin 3) * 96 + 1 * f.val = f.val; omega

/-- The hidden-state block at point t is rows 960·t … of the array. -/
theorem blk1 (c : Dev nD) (t : Fin cfg0.N) (p : Fin 960) (k : Fin 256) :
    iblk m c 1 t (ix2 p k)
      = V m c main_arg1 (ix2 (⟨960 * t.val + p.val, by have := t.isLt; have h : cfg0.N = 256 := N_0; omega⟩ : Fin 245760) k) := by
  obtain ⟨e0, e1, e2, e3, e4, e5, e6, e7, e8, e9, e10, e11, e12, e13, e14, e15, e16, e17, e18, e19, e20⟩ := idx_facts t
  show V m c main_arg1 (((cfg0.win 1).blk t).view.emb (ix2 p k)) = _
  refine congrArg (V m c main_arg1) (funext fun a => Fin.ext ?_)
  match a with
  | ⟨0, _⟩ => show win0_1.index t (0 : Fin 2) * 960 + 1 * p.val = 960 * t.val + p.val; omega
  | ⟨1, _⟩ => show win0_1.index t (1 : Fin 2) * 256 + 1 * k.val = k.val; omega

/-- Window 2's block is its whole array at every point. -/
theorem blk2 (c : Dev nD) (t : Fin cfg0.N) : (iblk m c 2 t : S192x256.Idx → _) = V m c main_v0 := by
  obtain ⟨e0, e1, e2, e3, e4, e5, e6, e7, e8, e9, e10, e11, e12, e13, e14, e15, e16, e17, e18, e19, e20⟩ := idx_facts t
  funext y
  show V m c main_v0 (((cfg0.win 2).blk t).view.emb y) = V m c main_v0 y
  refine congrArg (V m c main_v0) (funext fun a => Fin.ext ?_)
  match a with
  | ⟨0, _⟩ => show win0_2.index t (0 : Fin 2) * 192 + 1 * (y 0).val = (y 0).val; omega
  | ⟨1, _⟩ => show win0_2.index t (1 : Fin 2) * 256 + 1 * (y 1).val = (y 1).val; omega

/-- Window 3's block is its whole array at every point. -/
theorem blk3 (c : Dev nD) (t : Fin cfg0.N) : (iblk m c 3 t : S256.Idx → _) = V m c main_arg3 := by
  obtain ⟨e0, e1, e2, e3, e4, e5, e6, e7, e8, e9, e10, e11, e12, e13, e14, e15, e16, e17, e18, e19, e20⟩ := idx_facts t
  funext y
  show V m c main_arg3 (((cfg0.win 3).blk t).view.emb y) = V m c main_arg3 y
  refine congrArg (V m c main_arg3) (funext fun a => Fin.ext ?_)
  match a with
  | ⟨0, _⟩ => show win0_3.index t (0 : Fin 1) * 256 + 1 * (y 0).val = (y 0).val; omega

/-- Window 4's block is its whole array at every point. -/
theorem blk4 (c : Dev nD) (t : Fin cfg0.N) : (iblk m c 4 t : S256x768.Idx → _) = V m c main_v1 := by
  obtain ⟨e0, e1, e2, e3, e4, e5, e6, e7, e8, e9, e10, e11, e12, e13, e14, e15, e16, e17, e18, e19, e20⟩ := idx_facts t
  funext y
  show V m c main_v1 (((cfg0.win 4).blk t).view.emb y) = V m c main_v1 y
  refine congrArg (V m c main_v1) (funext fun a => Fin.ext ?_)
  match a with
  | ⟨0, _⟩ => show win0_4.index t (0 : Fin 2) * 256 + 1 * (y 0).val = (y 0).val; omega
  | ⟨1, _⟩ => show win0_4.index t (1 : Fin 2) * 768 + 1 * (y 1).val = (y 1).val; omega

/-- Window 5's block is its whole array at every point. -/
theorem blk5 (c : Dev nD) (t : Fin cfg0.N) : (iblk m c 5 t : S768.Idx → _) = V m c main_arg6 := by
  obtain ⟨e0, e1, e2, e3, e4, e5, e6, e7, e8, e9, e10, e11, e12, e13, e14, e15, e16, e17, e18, e19, e20⟩ := idx_facts t
  funext y
  show V m c main_arg6 (((cfg0.win 5).blk t).view.emb y) = V m c main_arg6 y
  refine congrArg (V m c main_arg6) (funext fun a => Fin.ext ?_)
  match a with
  | ⟨0, _⟩ => show win0_5.index t (0 : Fin 1) * 768 + 1 * (y 0).val = (y 0).val; omega

/-- Window 6's block is its whole array at every point. -/
theorem blk6 (c : Dev nD) (t : Fin cfg0.N) : (iblk m c 6 t : S256x768.Idx → _) = V m c main_v2 := by
  obtain ⟨e0, e1, e2, e3, e4, e5, e6, e7, e8, e9, e10, e11, e12, e13, e14, e15, e16, e17, e18, e19, e20⟩ := idx_facts t
  funext y
  show V m c main_v2 (((cfg0.win 6).blk t).view.emb y) = V m c main_v2 y
  refine congrArg (V m c main_v2) (funext fun a => Fin.ext ?_)
  match a with
  | ⟨0, _⟩ => show win0_6.index t (0 : Fin 2) * 256 + 1 * (y 0).val = (y 0).val; omega
  | ⟨1, _⟩ => show win0_6.index t (1 : Fin 2) * 768 + 1 * (y 1).val = (y 1).val; omega

/-- Window 7's block is its whole array at every point. -/
theorem blk7 (c : Dev nD) (t : Fin cfg0.N) : (iblk m c 7 t : S768.Idx → _) = V m c main_arg7 := by
  obtain ⟨e0, e1, e2, e3, e4, e5, e6, e7, e8, e9, e10, e11, e12, e13, e14, e15, e16, e17, e18, e19, e20⟩ := idx_facts t
  funext y
  show V m c main_arg7 (((cfg0.win 7).blk t).view.emb y) = V m c main_arg7 y
  refine congrArg (V m c main_arg7) (funext fun a => Fin.ext ?_)
  match a with
  | ⟨0, _⟩ => show win0_7.index t (0 : Fin 1) * 768 + 1 * (y 0).val = (y 0).val; omega

/-- Window 8's block is its whole array at every point. -/
theorem blk8 (c : Dev nD) (t : Fin cfg0.N) : (iblk m c 8 t : S256x256.Idx → _) = V m c main_v3 := by
  obtain ⟨e0, e1, e2, e3, e4, e5, e6, e7, e8, e9, e10, e11, e12, e13, e14, e15, e16, e17, e18, e19, e20⟩ := idx_facts t
  funext y
  show V m c main_v3 (((cfg0.win 8).blk t).view.emb y) = V m c main_v3 y
  refine congrArg (V m c main_v3) (funext fun a => Fin.ext ?_)
  match a with
  | ⟨0, _⟩ => show win0_8.index t (0 : Fin 2) * 256 + 1 * (y 0).val = (y 0).val; omega
  | ⟨1, _⟩ => show win0_8.index t (1 : Fin 2) * 256 + 1 * (y 1).val = (y 1).val; omega

/-- Window 9's block is its whole array at every point. -/
theorem blk9 (c : Dev nD) (t : Fin cfg0.N) : (iblk m c 9 t : S256.Idx → _) = V m c main_arg9 := by
  obtain ⟨e0, e1, e2, e3, e4, e5, e6, e7, e8, e9, e10, e11, e12, e13, e14, e15, e16, e17, e18, e19, e20⟩ := idx_facts t
  funext y
  show V m c main_arg9 (((cfg0.win 9).blk t).view.emb y) = V m c main_arg9 y
  refine congrArg (V m c main_arg9) (funext fun a => Fin.ext ?_)
  match a with
  | ⟨0, _⟩ => show win0_9.index t (0 : Fin 1) * 256 + 1 * (y 0).val = (y 0).val; omega

/-! ## The two output arrays as functions of the arrays the region finds -/

/-- The new hidden state of every row. -/
def HP (c : Dev nD) : S245760x256.Idx → EReal := fun i =>
  hpAt (V m c main_arg0) (V m c main_arg1) (V m c main_v0) (V m c main_arg3) (V m c main_v1) (V m c main_v2)
    (V m c main_arg6) (V m c main_arg7) (i 0) (i 1)

/-- The decode of every row, two entries per grid row or column: position l holds (l / 2, l mod 2). -/
def DEC (c : Dev nD) : S245760x32.Idx → EReal := fun i =>
  decAt (fun n j => HP m c (ix2 n j)) (V m c main_v3) (V m c main_arg9) (i 0)
    (⟨(i 1).val / 2, by have h : (i 1).val < 32 := (i 1).isLt; show (i 1).val / 2 < 16; omega⟩ : Fin 16)
    (⟨(i 1).val % 2, Nat.mod_lt _ (by norm_num)⟩ : Fin 2)

/-- Entry (p, j) of the hidden-state block stored at point t. -/
theorem hid_point (c : Dev nD) (t : Fin cfg0.N) (p : Fin 960) (j : Fin 256) :
    hidOut (iblk m c 0 t) (iblk m c 1 t) (iblk m c 2 t) (iblk m c 3 t) (iblk m c 4 t) (iblk m c 5 t) (iblk m c 6 t) (iblk m c 7 t) (ix2 p j)
      = HP m c (ix2 (⟨960 * t.val + p.val, by have := t.isLt; have h : cfg0.N = 256 := N_0; omega⟩ : Fin 245760) j) := by
  have hN : cfg0.N = 256 := N_0
  refine (hid_block (iblk m c 0 t) (iblk m c 1 t) (iblk m c 2 t) (iblk m c 3 t) (iblk m c 4 t) (iblk m c 5 t) (iblk m c 6 t) (iblk m c 7 t)
    (V m c main_arg0) (V m c main_arg1) t.val (by have := t.isLt; omega) (blk0 m c t) (blk1 m c t) p j).trans ?_
  rw [blk2 m c t, blk3 m c t, blk4 m c t, blk5 m c t, blk6 m c t, blk7 m c t]
  rfl

/-- What point t writes back into window 10 is rows 960·t … of the new hidden state. -/
theorem flushed10_eq (c : Dev nD) (t : Fin cfg0.N) :
    (dats m 0 c).flushed 10 t = ((cfg0.win 10).blk t).view.read (Elt Ideal) (HP m c) := by
  show (cfg0.win 10).cut (grid0.coords t) ((dats m 0 c).after 10 t) = _
  rw [after10]
  obtain ⟨e0, e1, e2, e3, e4, e5, e6, e7, e8, e9, e10, e11, e12, e13, e14, e15, e16, e17, e18, e19, e20⟩ := idx_facts t
  funext y
  obtain ⟨p, j, rfl⟩ : ∃ (p : Fin 960) (j : Fin 256), y = ix2 p j := ⟨y 0, y 1, eq_ix2 y⟩
  show hidOut (iblk m c 0 t) (iblk m c 1 t) (iblk m c 2 t) (iblk m c 3 t) (iblk m c 4 t) (iblk m c 5 t) (iblk m c 6 t) (iblk m c 7 t) (ix2 p j)
    = HP m c (((cfg0.win 10).blk t).view.emb (ix2 p j))
  rw [hid_point m c t p j]
  refine congrArg (HP m c) (funext fun a => Fin.ext ?_)
  match a with
  | ⟨0, _⟩ => show 960 * t.val + p.val = win0_10.index t (0 : Fin 2) * 960 + 1 * p.val; omega
  | ⟨1, _⟩ => show j.val = win0_10.index t (1 : Fin 2) * 256 + 1 * j.val; omega

/-- What point t writes back into window 11 is rows 960·t … of the decode. -/
theorem flushed11_eq (c : Dev nD) (t : Fin cfg0.N) :
    (dats m 0 c).flushed 11 t = ((cfg0.win 11).blk t).view.read (Elt Ideal) (DEC m c) := by
  show (cfg0.win 11).cut (grid0.coords t) ((dats m 0 c).after 11 t) = _
  rw [after11]
  obtain ⟨e0, e1, e2, e3, e4, e5, e6, e7, e8, e9, e10, e11, e12, e13, e14, e15, e16, e17, e18, e19, e20⟩ := idx_facts t
  have hN : cfg0.N = 256 := N_0
  funext y
  obtain ⟨p, l, rfl⟩ : ∃ (p : Fin 960) (l : Fin 32), y = ix2 p l := ⟨y 0, y 1, eq_ix2 y⟩
  show decOut (iblk m c 0 t) (iblk m c 1 t) (iblk m c 2 t) (iblk m c 3 t) (iblk m c 4 t) (iblk m c 5 t) (iblk m c 6 t) (iblk m c 7 t) (iblk m c 8 t) (iblk m c 9 t) (ix2 p l)
    = DEC m c (((cfg0.win 11).blk t).view.emb (ix2 p l))
  have hemb : ((cfg0.win 11).blk t).view.emb (ix2 p l)
      = ix2 (⟨960 * t.val + p.val, by have := t.isLt; omega⟩ : Fin 245760) l := funext fun a => Fin.ext (by
    match a with
    | ⟨0, _⟩ => show win0_11.index t (0 : Fin 2) * 960 + 1 * p.val = 960 * t.val + p.val; omega
    | ⟨1, _⟩ => show win0_11.index t (1 : Fin 2) * 32 + 1 * l.val = l.val; omega)
  rw [hemb]
  unfold decOut
  rw [pay_eq]
  show decBlk (hidOut (iblk m c 0 t) (iblk m c 1 t) (iblk m c 2 t) (iblk m c 3 t) (iblk m c 4 t) (iblk m c 5 t) (iblk m c 6 t) (iblk m c 7 t))
      (View.ld (iblk m c 8 t) rW2) (View.ld (iblk m c 9 t) rB256) (ix2 p l) = _
  rw [View.ld_unit_zero (S := S256x256) zero2, View.ld_unit_zero (S := S256) zero1, decBlk_apply, blk8 m c t, blk9 m c t]
  unfold DEC
  exact decAt_row _ _ _ _ p _ _ _ (fun k => hid_point m c t p k)

/-! ## The blocks tile the arrays -/

theorem mem_blk10 (t : Fin cfg0.N) (i : S245760x256.Idx) :
    i ∈ ((cfg0.win 10).blk t).view.set ↔ ∀ a : Fin 2, win0_10.index t a * S960x256.size a ≤ (i a).val ∧ (i a).val < win0_10.index t a * S960x256.size a + S960x256.size a := by
  show i ∈ ((View.whole main_v4_0).slice (win0_10.rect t)).set ↔ _
  rw [View.set_slice_whole, Rect.mem_set_unit]
  exact Iff.rfl

theorem mem_blk11 (t : Fin cfg0.N) (i : S245760x32.Idx) :
    i ∈ ((cfg0.win 11).blk t).view.set ↔ ∀ a : Fin 2, win0_11.index t a * S960x32.size a ≤ (i a).val ∧ (i a).val < win0_11.index t a * S960x32.size a + S960x32.size a := by
  show i ∈ ((View.whole main_v4_1).slice (win0_11.rect t)).set ↔ _
  rw [View.set_slice_whole, Rect.mem_set_unit]
  exact Iff.rfl

/-- Row r of the new-hidden-state array is in the block of point r / 960. -/
theorem cover10 (i : S245760x256.Idx) :
    ∃ t : Fin cfg0.N, (cfg0.win 10).flush t = true ∧ i ∈ ((cfg0.win 10).blk t).view.set := by
  have hi0 : (i 0).val < 245760 := (i 0).isLt
  have hi1 : (i 1).val < 256 := (i 1).isLt
  have hN : cfg0.N = 256 := N_0
  refine ⟨⟨(i 0).val / 960, by omega⟩, flush0_10 _, ?_⟩
  rw [mem_blk10]
  obtain ⟨e0, e1, e2, e3, e4, e5, e6, e7, e8, e9, e10, e11, e12, e13, e14, e15, e16, e17, e18, e19, e20⟩ := idx_facts (⟨(i 0).val / 960, by omega⟩ : Fin cfg0.N)
  intro a
  match a with
  | ⟨0, _⟩ =>
    show win0_10.index ⟨(i 0).val / 960, _⟩ (0 : Fin 2) * 960 ≤ (i 0).val ∧ (i 0).val < win0_10.index ⟨(i 0).val / 960, _⟩ (0 : Fin 2) * 960 + 960
    rw [e17]; show (i 0).val / 960 * 960 ≤ (i 0).val ∧ (i 0).val < (i 0).val / 960 * 960 + 960; omega
  | ⟨1, _⟩ =>
    show win0_10.index ⟨(i 0).val / 960, _⟩ (1 : Fin 2) * 256 ≤ (i 1).val ∧ (i 1).val < win0_10.index ⟨(i 0).val / 960, _⟩ (1 : Fin 2) * 256 + 256
    rw [e18]; omega

/-- The same for the decode array. -/
theorem cover11 (i : S245760x32.Idx) :
    ∃ t : Fin cfg0.N, (cfg0.win 11).flush t = true ∧ i ∈ ((cfg0.win 11).blk t).view.set := by
  have hi0 : (i 0).val < 245760 := (i 0).isLt
  have hi1 : (i 1).val < 32 := (i 1).isLt
  have hN : cfg0.N = 256 := N_0
  refine ⟨⟨(i 0).val / 960, by omega⟩, flush0_11 _, ?_⟩
  rw [mem_blk11]
  obtain ⟨e0, e1, e2, e3, e4, e5, e6, e7, e8, e9, e10, e11, e12, e13, e14, e15, e16, e17, e18, e19, e20⟩ := idx_facts (⟨(i 0).val / 960, by omega⟩ : Fin cfg0.N)
  intro a
  match a with
  | ⟨0, _⟩ =>
    show win0_11.index ⟨(i 0).val / 960, _⟩ (0 : Fin 2) * 960 ≤ (i 0).val ∧ (i 0).val < win0_11.index ⟨(i 0).val / 960, _⟩ (0 : Fin 2) * 960 + 960
    rw [e19]; show (i 0).val / 960 * 960 ≤ (i 0).val ∧ (i 0).val < (i 0).val / 960 * 960 + 960; omega
  | ⟨1, _⟩ =>
    show win0_11.index ⟨(i 0).val / 960, _⟩ (1 : Fin 2) * 32 ≤ (i 1).val ∧ (i 1).val < win0_11.index ⟨(i 0).val / 960, _⟩ (1 : Fin 2) * 32 + 32
    rw [e20]; omega

/-- The new-hidden-state array after the run. -/
theorem final10 (c : Dev nD) : (dats m 0 c).arrAt 10 cfg0.N = HP m c :=
  (dats m 0 c).arrAt_eq_of_cover 10 (HP m c) (fun t _ => flushed10_eq m c t) (cover10)

/-- The decode array after the run. -/
theorem final11 (c : Dev nD) : (dats m 0 c).arrAt 11 cfg0.N = DEC m c :=
  (dats m 0 c).arrAt_eq_of_cover 11 (DEC m c) (fun t _ => flushed11_eq m c t) (cover11)

end Cert.KernelIdeal.Arrays

end
-- ==== Proof.KernelIdealTail.lean ====
/-
  The host operations the idealized kernel program runs after its one region, as functions of their operands at the
  ideal values, and each of them read at an index.

  The region leaves two arrays: the new hidden state hp, [245760, 256], and the decoded rows dec, [245760, 32].
  After it the host
    * views dec as [491520, 16] and then as [32768, 15, 16] (kv5, kv6): a reshape keeps every entry's row-major
      position, so entry (p, q, k) of the last view is position 16 (15 p + q) + k of dec, that is row (15 p + q) / 2,
      column 16 ((15 p + q) mod 2) + k;
    * takes the first 15 rows of hp (kv7), multiplies them by the head's weights and adds its bias (kv8, kv11):
      entry (n, c) is the dense layer (sum over k of hp(n, k) w2(k, c)) + b2(c);
    * views each row's 256 outputs as a 16 x 16 grid (kv12): grid(n, a, b) is output 16 a + b;
    * takes the grid's row maxima (kv13, the maximum over b from -inf) and column maxima (kv14, over a), and
      interleaves them on a new last axis of extent 2 (kv17): entry (n, j, 0) is the maximum of grid row j, entry
      (n, j, 1) the maximum of grid column j -- the decode of row n;
    * views that [15, 16, 2] array as [30, 16] (kv18): row r, column k is row-major position 16 r + k, that is entry
      (r / 2, (16 (r mod 2) + k) / 2, k mod 2);
    * views it as [2, 15, 16] (kv19) and cuts two [14, 16] blocks: rows 1..14 of the first half (kv21), which are rows
      a + 1 of the [30, 16] view, and rows 0..13 of the second half (kv23), which are rows 15 + a.
-/
import proofs.«128030_j52063593562852_2_alg».proof.Proof.Gen.KernelIdeal
import proofs.«128030_j52063593562852_2_alg».proof.Proof.GruSpec
import Idealize.ShloMosaic.Lib.ValueIdx
import Idealize.ShloMosaic.Lib.Pipeline.Value
import Idealize.ShloMosaic.PureOps.Ideal.Laws
import Idealize.ShloMosaic.PureOps.Reduce

set_option maxRecDepth 16384

noncomputable section

open scoped BigOperators

namespace Cert.KernelIdeal.Tail

open Cert.KernelIdeal Cert.GruSpec Idealize.ShloMosaic Idealize.ShloMosaic.ValueIdx
open Cert.KernelIdeal.Facts₀

/-! ## The operations -/

/-- The decoded rows viewed as [491520, 16]. -/
def kv5 (dec : FVec Ideal S245760x32 .f32) : FVec Ideal S491520x16 .f32 :=
  shapeCast S491520x16 dec shapeCasts_S245760x32_S491520x16

/-- The decoded rows viewed as [32768, 15, 16]. -/
def kv6 (dec : FVec Ideal S245760x32 .f32) : FVec Ideal S32768x15x16 .f32 :=
  shapeCast S32768x15x16 (kv5 dec) shapeCasts_S491520x16_S32768x15x16

/-- The first 15 rows of the hidden state. -/
def kv7 (hp : FVec Ideal S245760x256 .f32) : FVec Ideal S15x256 .f32 :=
  extractStridedSlice S15x256 ![0, 0] hp slices_S245760x256_S15x256_0_0

/-- Those rows times the head's weights. -/
def kv8 (hp : FVec Ideal S245760x256 .f32) (w2 : FVec Ideal S256x256 .f32) : FVec Ideal S15x256 .f32 :=
  Host.dotGeneral (F := Ideal) dot_S15x256_S256x256_S15x256_1_0_0_1_n_n (some .fp32) (kv7 hp) w2

/-- Plus the head's bias, spread over the rows. -/
def kv11 (hp : FVec Ideal S245760x256 .f32) (w2 : FVec Ideal S256x256 .f32) (b2 : FVec Ideal S256 .f32) :
    FVec Ideal S15x256 .f32 :=
  addf (kv8 hp w2) (broadcastInDim S15x256 ![0, 1] bcast_S1x256_S15x256_0_1 (broadcastInDim S1x256 ![1] bcast_S256_S1x256_1 b2))

/-- Each row's outputs as a 16 x 16 grid. -/
def kv12 (hp : FVec Ideal S245760x256 .f32) (w2 : FVec Ideal S256x256 .f32) (b2 : FVec Ideal S256 .f32) :
    FVec Ideal S15x16x16 .f32 :=
  shapeCast S15x16x16 (kv11 hp w2 b2) shapeCasts_S15x256_S15x16x16

/-- The grids' row maxima. -/
def kv13 (hp : FVec Ideal S245760x256 .f32) (w2 : FVec Ideal S256x256 .f32) (b2 : FVec Ideal S256 .f32) :
    FVec Ideal S15x16 .f32 :=
  Host.reduce FloatOps.maximumf (kv12 hp w2 b2) (constant (F := Ideal) S_ .f32 0xFF800000#32) reducesTo_S15x16x16_S15x16_d2 h_S_

/-- The grids' column maxima. -/
def kv14 (hp : FVec Ideal S245760x256 .f32) (w2 : FVec Ideal S256x256 .f32) (b2 : FVec Ideal S256 .f32) :
    FVec Ideal S15x16 .f32 :=
  Host.reduce FloatOps.maximumf (kv12 hp w2 b2) (constant (F := Ideal) S_ .f32 0xFF800000#32) reducesTo_S15x16x16_S15x16_d1 h_S_

/-- The two interleaved on a new last axis. -/
def kv17 (hp : FVec Ideal S245760x256 .f32) (w2 : FVec Ideal S256x256 .f32) (b2 : FVec Ideal S256 .f32) :
    FVec Ideal S15x16x2 .f32 :=
  concatenate S15x16x2 2
    [⟨S15x16x1, broadcastInDim S15x16x1 ![0, 1] bcast_S15x16_S15x16x1_0_1 (kv13 hp w2 b2)⟩,
     ⟨S15x16x1, broadcastInDim S15x16x1 ![0, 1] bcast_S15x16_S15x16x1_0_1 (kv14 hp w2 b2)⟩]
    concatenates_S15x16x1_S15x16x1_S15x16x2_d2

/-- That array viewed as [30, 16]. -/
def kv18 (hp : FVec Ideal S245760x256 .f32) (w2 : FVec Ideal S256x256 .f32) (b2 : FVec Ideal S256 .f32) :
    FVec Ideal S30x16 .f32 :=
  shapeCast S30x16 (kv17 hp w2 b2) shapeCasts_S15x16x2_S30x16

/-- And as [2, 15, 16]. -/
def kv19 (hp : FVec Ideal S245760x256 .f32) (w2 : FVec Ideal S256x256 .f32) (b2 : FVec Ideal S256 .f32) :
    FVec Ideal S2x15x16 .f32 :=
  shapeCast S2x15x16 (kv18 hp w2 b2) shapeCasts_S30x16_S2x15x16

/-- Rows 1..14 of the first half. -/
def kv21 (hp : FVec Ideal S245760x256 .f32) (w2 : FVec Ideal S256x256 .f32) (b2 : FVec Ideal S256 .f32) :
    FVec Ideal S14x16 .f32 :=
  shapeCast S14x16 (extractStridedSlice S1x14x16 ![0, 1, 0] (kv19 hp w2 b2) slices_S2x15x16_S1x14x16_0_1_0)
    shapeCasts_S1x14x16_S14x16

/-- Rows 0..13 of the second half. -/
def kv23 (hp : FVec Ideal S245760x256 .f32) (w2 : FVec Ideal S256x256 .f32) (b2 : FVec Ideal S256 .f32) :
    FVec Ideal S14x16 .f32 :=
  shapeCast S14x16 (extractStridedSlice S1x14x16 ![1, 0, 0] (kv19 hp w2 b2) slices_S2x15x16_S1x14x16_1_0_0)
    shapeCasts_S1x14x16_S14x16

/-! ## The two views of the decoded rows -/

/-- Entry (p, q, k) of the [32768, 15, 16] view is position 16 (15 p + q) + k of the decoded rows. -/
theorem kv6_apply (dec : FVec Ideal S245760x32 .f32) (p : Fin 32768) (q : Fin 15) (k : Fin 16) :
    kv6 dec (ix3 p q k)
      = dec (ix2 (⟨(15 * p.val + q.val) / 2, by omega⟩ : Fin 245760)
          (⟨16 * ((15 * p.val + q.val) % 2) + k.val, by omega⟩ : Fin 32)) := by
  refine (shapeCast_apply (kv5 dec) shapeCasts_S491520x16_S32768x15x16 (ix3 p q k)
    (ix2 (⟨15 * p.val + q.val, by omega⟩ : Fin 491520) k) ?_).trans ?_
  · rw [Shape.rowMajor_val_two, Shape.rowMajor_val_three]
    show (15 * p.val + q.val) * 16 + k.val = (p.val * 15 + q.val) * 16 + k.val
    omega
  · refine shapeCast_apply dec shapeCasts_S245760x32_S491520x16 _ _ ?_
    rw [Shape.rowMajor_val_two, Shape.rowMajor_val_two]
    show ((15 * p.val + q.val) / 2) * 32 + (16 * ((15 * p.val + q.val) % 2) + k.val)
      = (15 * p.val + q.val) * 16 + k.val
    omega

/-! ## The head on the first 15 rows -/

/-- The first 15 rows of a hidden-state array, by coordinates. -/
abbrev top15 (hp : FVec Ideal S245760x256 .f32) : Fin 15 → Fin 256 → EReal :=
  fun (n : Fin 15) (j : Fin 256) => hp (ix2 (⟨n.val, by omega⟩ : Fin 245760) j)

/-- The slice reads the array's own rows. -/
theorem kv7_apply (hp : FVec Ideal S245760x256 .f32) (n : Fin 15) (k : Fin 256) :
    kv7 hp (ix2 n k) = top15 hp n k := by
  refine extractStridedSlice_apply ![0, 0] hp slices_S245760x256_S15x256_0_0 (ix2 n k) _ fun a => ?_
  match a with
  | ⟨0, _⟩ => show n.val = 0 + n.val; omega
  | ⟨1, _⟩ => show k.val = 0 + k.val; omega

/-- The head's dimension numbers: rows by contraction times contraction by columns. -/
abbrev D15 : DotDims S15x256 S256x256 S15x256 := dot_S15x256_S256x256_S15x256_1_0_0_1_n_n

/-- The product at (n, c): row n of the slice against column c of the weights. -/
theorem kv8_apply (hp : FVec Ideal S245760x256 .f32) (w2 : FVec Ideal S256x256 .f32) (n : Fin 15) (c : Fin 256) :
    kv8 hp w2 (ix2 n c) = ∑ k : Fin 256, top15 hp n k * w2 (ix2 k c) := by
  refine (Ideal.dotGeneral_apply D15 (some .fp32) .single (kv7 hp) w2 (ix2 n c)).trans ?_
  refine (Equiv.sum_comp (contrEquiv1 D15 256 rfl rfl).symm
    (fun q => kv7 hp (D15.lhsIdx (ix2 n c) q) * w2 (D15.rhsIdx (ix2 n c) q))).symm.trans ?_
  refine Finset.sum_congr rfl fun k _ => ?_
  have c2 := contrEquiv1_symm_val D15 256 rfl rfl k
  have l2 : D15.lhsIdx (ix2 n c) ((contrEquiv1 D15 256 rfl rfl).symm k) = ix2 n k :=
    funext fun ax => Fin.ext (by
      match ax with
      | ⟨0, _⟩ => rfl
      | ⟨1, _⟩ => exact c2)
  have r2 : D15.rhsIdx (ix2 n c) ((contrEquiv1 D15 256 rfl rfl).symm k) = ix2 k c :=
    funext fun ax => Fin.ext (by
      match ax with
      | ⟨0, _⟩ => exact c2
      | ⟨1, _⟩ => rfl)
  show kv7 hp (D15.lhsIdx (ix2 n c) ((contrEquiv1 D15 256 rfl rfl).symm k))
      * w2 (D15.rhsIdx (ix2 n c) ((contrEquiv1 D15 256 rfl rfl).symm k)) = _
  rw [l2, r2, kv7_apply]

/-- With the bias: the dense layer. -/
theorem kv11_apply (hp : FVec Ideal S245760x256 .f32) (w2 : FVec Ideal S256x256 .f32) (b2 : FVec Ideal S256 .f32)
    (n : Fin 15) (c : Fin 256) : kv11 hp w2 b2 (ix2 n c) = dense (top15 hp) w2 b2 n c := by
  show kv8 hp w2 (ix2 n c) + _ = (∑ k : Fin 256, top15 hp n k * w2 (ix2 k c)) + b2 (ix1 c)
  refine congrArg₂ (· + ·) (kv8_apply hp w2 n c) ?_
  refine (broadcastInDim_apply ![0, 1] bcast_S1x256_S15x256_0_1 _ (ix2 n c) (ix2 (0 : Fin 1) c) fun a => ?_).trans
    (broadcastInDim_apply ![1] bcast_S256_S1x256_1 b2 (ix2 (0 : Fin 1) c) (ix1 c) fun a => ?_)
  · match a with
    | ⟨0, _⟩ => show 0 = if (1 : ℕ) = 1 then 0 else n.val; rw [if_pos rfl]
    | ⟨1, _⟩ => show c.val = if (256 : ℕ) = 1 then 0 else c.val; rw [if_neg (by decide)]
  · match a with
    | ⟨0, _⟩ => show c.val = if (256 : ℕ) = 1 then 0 else c.val; rw [if_neg (by decide)]

/-- The grid view: entry (n, a, b) is output 16 a + b of row n. -/
theorem kv12_apply (hp : FVec Ideal S245760x256 .f32) (w2 : FVec Ideal S256x256 .f32) (b2 : FVec Ideal S256 .f32)
    (n : Fin 15) (a b : Fin 16) : kv12 hp w2 b2 (ix3 n a b) = gridAt (top15 hp) w2 b2 n a b := by
  refine (shapeCast_apply (kv11 hp w2 b2) shapeCasts_S15x256_S15x16x16 (ix3 n a b)
    (ix2 n (⟨16 * a.val + b.val, by omega⟩ : Fin 256)) ?_).trans (kv11_apply hp w2 b2 n _)
  rw [Shape.rowMajor_val_two, Shape.rowMajor_val_three]
  show n.val * 256 + (16 * a.val + b.val) = (n.val * 16 + a.val) * 16 + b.val
  omega

/-! ## The grid's maxima -/

/-- Index (n, j) of the row maxima with the coordinate b put back on the last axis is (n, j, b). -/
theorem lift_d2 (h : S15x16x16.Reduces [2] S15x16) (n : Fin 15) (j : Fin 16) (b : Fin 16) :
    h.lift (ix2 n j) b = ix3 n j b :=
  funext fun ax => Fin.ext (by match ax with | ⟨0, _⟩ => rfl | ⟨1, _⟩ => rfl | ⟨2, _⟩ => rfl)

/-- Index (n, j) of the column maxima with the coordinate a put back on the middle axis is (n, a, j). -/
theorem lift_d1 (h : S15x16x16.Reduces [1] S15x16) (n : Fin 15) (j : Fin 16) (a : Fin 16) :
    h.lift (ix2 n j) a = ix3 n a j :=
  funext fun ax => Fin.ext (by match ax with | ⟨0, _⟩ => rfl | ⟨1, _⟩ => rfl | ⟨2, _⟩ => rfl)

/-- The maximum over b of grid row j, taken from -inf (a maximum commutes and associates, so the order in which the
    reduction visits the axis does not matter). -/
theorem kv13_apply (hp : FVec Ideal S245760x256 .f32) (w2 : FVec Ideal S256x256 .f32) (b2 : FVec Ideal S256 .f32)
    (n : Fin 15) (j : Fin 16) :
    kv13 hp w2 b2 (ix2 n j)
      = (Finset.univ : Finset (Fin 16)).fold max negInfF (fun b => gridAt (top15 hp) w2 b2 n j b) := by
  have h : S15x16x16.Reduces [2] S15x16 := by decide
  refine (Host.reduce_eq_fold_single FloatOps.maximumf (kv12 hp w2 b2) (constant (F := Ideal) S_ .f32 0xFF800000#32)
    reducesTo_S15x16x16_S15x16_d2 h h_S_ (ix2 n j)).trans ?_
  exact congrArg (fun f => Finset.fold max negInfF f (Finset.univ : Finset (Fin 16)))
    (funext fun b => (congrArg (kv12 hp w2 b2) (lift_d2 h n j b)).trans (kv12_apply hp w2 b2 n j b))

/-- The maximum over a of grid column j, taken from -inf. -/
theorem kv14_apply (hp : FVec Ideal S245760x256 .f32) (w2 : FVec Ideal S256x256 .f32) (b2 : FVec Ideal S256 .f32)
    (n : Fin 15) (j : Fin 16) :
    kv14 hp w2 b2 (ix2 n j)
      = (Finset.univ : Finset (Fin 16)).fold max negInfF (fun a => gridAt (top15 hp) w2 b2 n a j) := by
  have h : S15x16x16.Reduces [1] S15x16 := by decide
  refine (Host.reduce_eq_fold_single FloatOps.maximumf (kv12 hp w2 b2) (constant (F := Ideal) S_ .f32 0xFF800000#32)
    reducesTo_S15x16x16_S15x16_d1 h h_S_ (ix2 n j)).trans ?_
  exact congrArg (fun f => Finset.fold max negInfF f (Finset.univ : Finset (Fin 16)))
    (funext fun a => (congrArg (kv12 hp w2 b2) (lift_d1 h n j a)).trans (kv12_apply hp w2 b2 n a j))

/-- A [15, 16] array given a unit last axis reads, at (n, j, 0), its entry (n, j). -/
theorem unitAxis_apply (v : FVec Ideal S15x16 .f32) (n : Fin 15) (j : Fin 16) (z : Fin 1) :
    broadcastInDim S15x16x1 ![0, 1] bcast_S15x16_S15x16x1_0_1 v (ix3 n j z) = v (ix2 n j) := by
  refine broadcastInDim_apply ![0, 1] bcast_S15x16_S15x16x1_0_1 v (ix3 n j z) (ix2 n j) fun a => ?_
  match a with
  | ⟨0, _⟩ => show n.val = if (15 : ℕ) = 1 then 0 else n.val; rw [if_neg (by decide)]
  | ⟨1, _⟩ => show j.val = if (16 : ℕ) = 1 then 0 else j.val; rw [if_neg (by decide)]

/-- The interleaved array is the decode: the row maximum at (n, j, 0), the column maximum at (n, j, 1). -/
theorem kv17_apply (hp : FVec Ideal S245760x256 .f32) (w2 : FVec Ideal S256x256 .f32) (b2 : FVec Ideal S256 .f32)
    (n : Fin 15) (j : Fin 16) (u : Fin 2) :
    kv17 hp w2 b2 (ix3 n j u) = decAt (top15 hp) w2 b2 n j u := by
  unfold decAt
  by_cases hu : u.val = 0
  · rw [if_pos hu]
    refine (concatenate_pair_apply_left _ _ _ concatenates_S15x16x1_S15x16x1_S15x16x2_d2 (ix3 n j u) rfl
      (ix3 n j (0 : Fin 1)) fun b => ?_).trans
      ((unitAxis_apply (kv13 hp w2 b2) n j 0).trans (kv13_apply hp w2 b2 n j))
    match b with
    | ⟨0, _⟩ => rfl
    | ⟨1, _⟩ => rfl
    | ⟨2, _⟩ => exact hu.symm
  · rw [if_neg hu]
    refine (concatenate_pair_apply_right _ _ _ concatenates_S15x16x1_S15x16x1_S15x16x2_d2 (ix3 n j u) rfl rfl
      (ix3 n j (0 : Fin 1)) (fun b hb => ?_) ?_).trans
      ((unitAxis_apply (kv14 hp w2 b2) n j 0).trans (kv14_apply hp w2 b2 n j))
    · match b with
      | ⟨0, _⟩ => rfl
      | ⟨1, _⟩ => rfl
      | ⟨2, _⟩ => exact absurd rfl hb
    · show 0 + 1 = u.val
      have := u.isLt
      omega

/-! ## The [30, 16] view and the two blocks cut from it -/

/-- Row r, column k of the [30, 16] view is row-major position 16 r + k of the [15, 16, 2] decode. -/
theorem kv18_apply (hp : FVec Ideal S245760x256 .f32) (w2 : FVec Ideal S256x256 .f32) (b2 : FVec Ideal S256 .f32)
    (r : Fin 30) (k : Fin 16) :
    kv18 hp w2 b2 (ix2 r k)
      = decAt (fun (n : Fin 15) (j : Fin 256) => hp (ix2 (⟨n.val, by omega⟩ : Fin 245760) j)) w2 b2
          (⟨r.val / 2, by omega⟩ : Fin 15) (⟨(16 * (r.val % 2) + k.val) / 2, by omega⟩ : Fin 16)
          (⟨k.val % 2, by omega⟩ : Fin 2) := by
  refine (shapeCast_apply (kv17 hp w2 b2) shapeCasts_S15x16x2_S30x16 (ix2 r k)
    (ix3 (⟨r.val / 2, by omega⟩ : Fin 15) (⟨(16 * (r.val % 2) + k.val) / 2, by omega⟩ : Fin 16)
      (⟨k.val % 2, by omega⟩ : Fin 2)) ?_).trans (kv17_apply hp w2 b2 _ _ _)
  rw [Shape.rowMajor_val_two, Shape.rowMajor_val_three]
  show (r.val / 2 * 16 + (16 * (r.val % 2) + k.val) / 2) * 2 + k.val % 2 = r.val * 16 + k.val
  omega

/-- Entry (h, q, k) of the [2, 15, 16] view is row 15 h + q of the [30, 16] view. -/
theorem kv19_apply (hp : FVec Ideal S245760x256 .f32) (w2 : FVec Ideal S256x256 .f32) (b2 : FVec Ideal S256 .f32)
    (h : Fin 2) (q : Fin 15) (k : Fin 16) (r : Fin 30) (hr : r.val = 15 * h.val + q.val) :
    kv19 hp w2 b2 (ix3 h q k) = kv18 hp w2 b2 (ix2 r k) := by
  refine shapeCast_apply (kv18 hp w2 b2) shapeCasts_S30x16_S2x15x16 (ix3 h q k) (ix2 r k) ?_
  rw [Shape.rowMajor_val_two, Shape.rowMajor_val_three]
  show r.val * 16 + k.val = (h.val * 15 + q.val) * 16 + k.val
  omega

/-- The first block's row a is row a + 1 of the [30, 16] view. -/
theorem kv21_apply (hp : FVec Ideal S245760x256 .f32) (w2 : FVec Ideal S256x256 .f32) (b2 : FVec Ideal S256 .f32)
    (a : Fin 14) (k : Fin 16) :
    kv21 hp w2 b2 (ix2 a k) = kv18 hp w2 b2 (ix2 (⟨a.val + 1, by omega⟩ : Fin 30) k) := by
  refine (shapeCast_apply _ shapeCasts_S1x14x16_S14x16 (ix2 a k) (ix3 (0 : Fin 1) a k) ?_).trans ?_
  · rw [Shape.rowMajor_val_two, Shape.rowMajor_val_three]
    show (0 * 14 + a.val) * 16 + k.val = a.val * 16 + k.val
    omega
  · refine (extractStridedSlice_apply ![0, 1, 0] (kv19 hp w2 b2) slices_S2x15x16_S1x14x16_0_1_0 (ix3 (0 : Fin 1) a k)
      (ix3 (0 : Fin 2) (⟨a.val + 1, by omega⟩ : Fin 15) k) fun c => ?_).trans
      (kv19_apply hp w2 b2 0 _ k _ (by show a.val + 1 = 15 * 0 + (a.val + 1); omega))
    match c with
    | ⟨0, _⟩ => show 0 = 0 + 0; rfl
    | ⟨1, _⟩ => show a.val + 1 = 1 + a.val; omega
    | ⟨2, _⟩ => show k.val = 0 + k.val; omega

/-- Rows 0..13 of the second half of a [2, 15, 16] array, cut out and viewed as a [14, 16] block: row a is the
    array's entry (1, a, ·). -/
theorem blockHi_apply (v : FVec Ideal S2x15x16 .f32) (a : Fin 14) (k : Fin 16) :
    shapeCast S14x16 (extractStridedSlice S1x14x16 ![1, 0, 0] v slices_S2x15x16_S1x14x16_1_0_0) shapeCasts_S1x14x16_S14x16 (ix2 a k)
      = v (ix3 (⟨1, by omega⟩ : Fin 2) (⟨a.val, by omega⟩ : Fin 15) k) := by
  refine (shapeCast_apply (extractStridedSlice S1x14x16 ![1, 0, 0] v slices_S2x15x16_S1x14x16_1_0_0)
    shapeCasts_S1x14x16_S14x16 (ix2 a k) (ix3 (⟨0, by omega⟩ : Fin 1) a k) ?_).trans ?_
  · rw [Shape.rowMajor_val_two, Shape.rowMajor_val_three]
    show (0 * 14 + a.val) * 16 + k.val = a.val * 16 + k.val
    omega
  · refine extractStridedSlice_apply ![1, 0, 0] v slices_S2x15x16_S1x14x16_1_0_0 (ix3 (⟨0, by omega⟩ : Fin 1) a k)
      (ix3 (⟨1, by omega⟩ : Fin 2) (⟨a.val, by omega⟩ : Fin 15) k) fun c => ?_
    match c with
    | ⟨0, _⟩ => rfl
    | ⟨1, _⟩ => exact (Nat.zero_add a.val).symm
    | ⟨2, _⟩ => exact (Nat.zero_add k.val).symm

/-- Row a of the second half is row 15 · 1 + a of the whole. -/
theorem row15_add (a : Fin 14) :
    ((⟨15 + a.val, by omega⟩ : Fin 30)).val
      = 15 * ((⟨1, by omega⟩ : Fin 2)).val + ((⟨a.val, by omega⟩ : Fin 15)).val := by
  show 15 + a.val = 15 * 1 + a.val
  omega

/-- The second block's row a is row 15 + a of the [30, 16] view. -/
theorem kv23_apply (hp : FVec Ideal S245760x256 .f32) (w2 : FVec Ideal S256x256 .f32) (b2 : FVec Ideal S256 .f32)
    (a : Fin 14) (k : Fin 16) :
    kv23 hp w2 b2 (ix2 a k) = kv18 hp w2 b2 (ix2 (⟨15 + a.val, by omega⟩ : Fin 30) k) :=
  (blockHi_apply (kv19 hp w2 b2) a k).trans
    (kv19_apply hp w2 b2 ⟨1, by omega⟩ ⟨a.val, by omega⟩ k ⟨15 + a.val, by omega⟩ (row15_add a))

end Cert.KernelIdeal.Tail

end
-- ==== Proof.DecodeTail.lean ====
/-
  The end of both programs' host side, as two functions of their operands: from the two 14 × 16 blocks L and R of
  decoded rows, the block whose rows are taken from L where L's row maximum exceeds R's and from R elsewhere
  (`midOf`); and from the decoded array viewed as [32768, 15, 16] and that block, the result [16384, 16, 16]: per
  batch its first decoded row, the fourteen rows of the block, its last decoded row (`finalOf`). Stated over literal
  shapes with the operations' side conditions as hypotheses, so that either program's facts instantiate them.
-/
import Idealize.ShloMosaic.PureOps
import Idealize.ShloMosaic.PureOps.Ideal

noncomputable section

namespace Cert.DecodeTail

open Idealize.ShloMosaic

abbrev T_ : Shape := ⟨0, ![]⟩
abbrev T14 : Shape := ⟨1, ![14]⟩
abbrev T14x1 : Shape := ⟨2, ![14, 1]⟩
abbrev T14x16 : Shape := ⟨2, ![14, 16]⟩
abbrev T1x14x16 : Shape := ⟨3, ![1, 14, 16]⟩
abbrev T16384x14x16 : Shape := ⟨3, ![16384, 14, 16]⟩
abbrev T16384x1x16 : Shape := ⟨3, ![16384, 1, 16]⟩
abbrev T16384x16x16 : Shape := ⟨3, ![16384, 16, 16]⟩
abbrev T32768x15x16 : Shape := ⟨3, ![32768, 15, 16]⟩

/-- Rows of L where max L > max R, rows of R elsewhere. -/
def midOf (hr : T14x16.ReducesTo [1] T14) (hu : 0 < T_.numel)
    (hb1 : T14.BroadcastsInDim T14x1 (![0] : Fin 1 → Fin T14x1.rank))
    (hb2 : T14x1.BroadcastsInDim T14x16 (![0, 1] : Fin 2 → Fin T14x16.rank))
    (L R : FVec Ideal T14x16 .f32) : FVec Ideal T14x16 .f32 :=
  select (broadcastInDim T14x16 ![0, 1] hb2 (broadcastInDim T14x1 ![0] hb1
      (cmpf .ogt (Host.reduce FloatOps.maximumf L (constant (F := Ideal) T_ .f32 0xFF800000#32) hr hu)
        (Host.reduce FloatOps.maximumf R (constant (F := Ideal) T_ .f32 0xFF800000#32) hr hu)))) L R

/-- Per batch: decoded row 0, the fourteen rows of `mid`, decoded row 14. -/
def finalOf (hs0 : T32768x15x16.Slices ![0, 0, 0] T16384x1x16) (hs14 : T32768x15x16.Slices ![0, 14, 0] T16384x1x16)
    (hb3 : T14x16.BroadcastsInDim T1x14x16 (![1, 2] : Fin 2 → Fin T1x14x16.rank))
    (hb4 : T1x14x16.BroadcastsInDim T16384x14x16 (![0, 1, 2] : Fin 3 → Fin T16384x14x16.rank))
    (hc : Shape.Concatenates [T16384x1x16, T16384x14x16, T16384x1x16] T16384x16x16 1)
    (D : FVec Ideal T32768x15x16 .f32) (mid : FVec Ideal T14x16 .f32) : FVec Ideal T16384x16x16 .f32 :=
  concatenate T16384x16x16 1
    [⟨T16384x1x16, extractStridedSlice T16384x1x16 ![0, 0, 0] D hs0⟩,
     ⟨T16384x14x16, broadcastInDim T16384x14x16 ![0, 1, 2] hb4 (broadcastInDim T1x14x16 ![1, 2] hb3 mid)⟩,
     ⟨T16384x1x16, extractStridedSlice T16384x1x16 ![0, 14, 0] D hs14⟩] hc

end Cert.DecodeTail

end
-- ==== Proof.KernelIdealRun.lean ====
/-
  The idealized kernel's run, read: the new-hidden-state array ends at the specification's new hidden state of the
  arrays the region finds; the decode array at its decode; and the lines after the region turn these two, the head's
  weights and its bias into the first result: the decode array viewed as [32768, 15, 16] supplies each batch's first
  and last row, and rows 1 … 14 of the first two 15-row groups of a decode recomputed from the first fifteen hidden
  rows supply the two blocks the middle rows are selected from.
-/
import proofs.«128030_j52063593562852_2_alg».proof.Proof.KernelIdealArrays
import proofs.«128030_j52063593562852_2_alg».proof.Proof.KernelIdealTail
import proofs.«128030_j52063593562852_2_alg».proof.Proof.DecodeTail
import proofs.«128030_j52063593562852_2_alg».proof.Proof.LibNary3

set_option maxRecDepth 16384

noncomputable section

namespace Cert.KernelIdeal.ValueRun

open Cert.KernelIdeal Cert.KernelIdeal.Gen Cert.KernelIdeal.Host Cert.KernelIdeal.Frame Cert.KernelIdeal.Arrays Cert.KernelIdeal.Tail
open Cert.DecodeTail Cert.GruSpec
open Idealize.ShloMosaic Idealize.ShloMosaic.TcCoe Idealize.ShloMosaic.ValueIdx Idealize.ShloMosaic.StableHlo
open Idealize.SL Idealize.SL.Sem
open Idealize.ShloMosaic.Pipeline (Dat Cfg Window)

section Lists

variable {F : FTy → Type} [FloatOps F]

/-- The lines after the region up to the recomputed row and column maxima. -/
abbrev tailS1 : List (HloOp τ sig (Elt F)) :=
  [ StableHlo.reshape main_v4_1 main_v5 rfl shapeCasts_S245760x32_S491520x16,
    StableHlo.reshape main_v5 main_v6 rfl shapeCasts_S491520x16_S32768x15x16,
    StableHlo.unary main_v4_0 main_v7 ((extractStridedSlice S15x256 ![0, 0] · slices_S245760x256_S15x256_0_0) : (⟨S245760x256, .f32⟩ : BufTy).Contents (Elt F) → (⟨S15x256, .f32⟩ : BufTy).Contents (Elt F)),
    StableHlo.binary main_v7 main_arg8 main_v8 ((fun l r => Host.dotGeneral dot_S15x256_S256x256_S15x256_1_0_0_1_n_n (some .fp32) l r) : (⟨S15x256, .f32⟩ : BufTy).Contents (Elt F) → (⟨S256x256, .f32⟩ : BufTy).Contents (Elt F) → (⟨S15x256, .f32⟩ : BufTy).Contents (Elt F)),
    StableHlo.unary main_arg9 main_v9 (broadcastInDim S1x256 ![1] bcast_S256_S1x256_1 : (⟨S256, .f32⟩ : BufTy).Contents (Elt F) → (⟨S1x256, .f32⟩ : BufTy).Contents (Elt F)),
    StableHlo.unary main_v9 main_v10 (broadcastInDim S15x256 ![0, 1] bcast_S1x256_S15x256_0_1 : (⟨S1x256, .f32⟩ : BufTy).Contents (Elt F) → (⟨S15x256, .f32⟩ : BufTy).Contents (Elt F)),
    StableHlo.binary main_v8 main_v10 main_v11 (addf : (⟨S15x256, .f32⟩ : BufTy).Contents (Elt F) → (⟨S15x256, .f32⟩ : BufTy).Contents (Elt F) → (⟨S15x256, .f32⟩ : BufTy).Contents (Elt F)),
    StableHlo.reshape main_v11 main_v12 rfl shapeCasts_S15x256_S15x16x16,
    StableHlo.nullary main_cst (constant S_ .f32 0xFF800000#32),
    StableHlo.binary main_v12 main_cst main_v13 ((fun x v => Host.reduce FloatOps.maximumf x v reducesTo_S15x16x16_S15x16_d2 h_S_) : (⟨S15x16x16, .f32⟩ : BufTy).Contents (Elt F) → (⟨S_, .f32⟩ : BufTy).Contents (Elt F) → (⟨S15x16, .f32⟩ : BufTy).Contents (Elt F)),
    StableHlo.nullary main_cst_0 (constant S_ .f32 0xFF800000#32),
    StableHlo.binary main_v12 main_cst_0 main_v14 ((fun x v => Host.reduce FloatOps.maximumf x v reducesTo_S15x16x16_S15x16_d1 h_S_) : (⟨S15x16x16, .f32⟩ : BufTy).Contents (Elt F) → (⟨S_, .f32⟩ : BufTy).Contents (Elt F) → (⟨S15x16, .f32⟩ : BufTy).Contents (Elt F)),
    StableHlo.unary main_v13 main_v15 (broadcastInDim S15x16x1 ![0, 1] bcast_S15x16_S15x16x1_0_1 : (⟨S15x16, .f32⟩ : BufTy).Contents (Elt F) → (⟨S15x16x1, .f32⟩ : BufTy).Contents (Elt F)),
    StableHlo.unary main_v14 main_v16 (broadcastInDim S15x16x1 ![0, 1] bcast_S15x16_S15x16x1_0_1 : (⟨S15x16, .f32⟩ : BufTy).Contents (Elt F) → (⟨S15x16x1, .f32⟩ : BufTy).Contents (Elt F)) ]

/-- The recomputed maxima joined along a new last axis: a concatenation of two arrays. -/
abbrev tailJoin : HloOp τ sig (Elt F) :=
  StableHlo.binary main_v15 main_v16 main_v17 ((fun a b => concatenate S15x16x2 2 [⟨S15x16x1, a⟩, ⟨S15x16x1, b⟩] concatenates_S15x16x1_S15x16x1_S15x16x2_d2) : (⟨S15x16x1, .f32⟩ : BufTy).Contents (Elt F) → (⟨S15x16x1, .f32⟩ : BufTy).Contents (Elt F) → (⟨S15x16x2, .f32⟩ : BufTy).Contents (Elt F))

/-- From the joined maxima to the last line's three operands. -/
abbrev tailS3 : List (HloOp τ sig (Elt F)) :=
  [ StableHlo.reshape main_v17 main_v18 rfl shapeCasts_S15x16x2_S30x16,
    StableHlo.reshape main_v18 main_v19 rfl shapeCasts_S30x16_S2x15x16,
    StableHlo.unary main_v19 main_v20 ((extractStridedSlice S1x14x16 ![0, 1, 0] · slices_S2x15x16_S1x14x16_0_1_0) : (⟨S2x15x16, .f32⟩ : BufTy).Contents (Elt F) → (⟨S1x14x16, .f32⟩ : BufTy).Contents (Elt F)),
    StableHlo.reshape main_v20 main_v21 rfl shapeCasts_S1x14x16_S14x16,
    StableHlo.unary main_v19 main_v22 ((extractStridedSlice S1x14x16 ![1, 0, 0] · slices_S2x15x16_S1x14x16_1_0_0) : (⟨S2x15x16, .f32⟩ : BufTy).Contents (Elt F) → (⟨S1x14x16, .f32⟩ : BufTy).Contents (Elt F)),
    StableHlo.reshape main_v22 main_v23 rfl shapeCasts_S1x14x16_S14x16,
    StableHlo.nullary main_cst_1 (constant S_ .f32 0xFF800000#32),
    StableHlo.binary main_v21 main_cst_1 main_v24 ((fun x v => Host.reduce FloatOps.maximumf x v reducesTo_S14x16_S14_d1 h_S_) : (⟨S14x16, .f32⟩ : BufTy).Contents (Elt F) → (⟨S_, .f32⟩ : BufTy).Contents (Elt F) → (⟨S14, .f32⟩ : BufTy).Contents (Elt F)),
    StableHlo.nullary main_cst_2 (constant S_ .f32 0xFF800000#32),
    StableHlo.binary main_v23 main_cst_2 main_v25 ((fun x v => Host.reduce FloatOps.maximumf x v reducesTo_S14x16_S14_d1 h_S_) : (⟨S14x16, .f32⟩ : BufTy).Contents (Elt F) → (⟨S_, .f32⟩ : BufTy).Contents (Elt F) → (⟨S14, .f32⟩ : BufTy).Contents (Elt F)),
    StableHlo.binary main_v24 main_v25 main_v26 (cmpf .ogt : (⟨S14, .f32⟩ : BufTy).Contents (Elt F) → (⟨S14, .f32⟩ : BufTy).Contents (Elt F) → (⟨S14, .i1⟩ : BufTy).Contents (Elt F)),
    StableHlo.unary main_v26 main_v27 (broadcastInDim S14x1 ![0] bcast_S14_S14x1_0 : (⟨S14, .i1⟩ : BufTy).Contents (Elt F) → (⟨S14x1, .i1⟩ : BufTy).Contents (Elt F)),
    StableHlo.TRef.unary (.of main_v27 : StableHlo.TRef sig ⟨S14x1, .i1⟩) (.of main_call0_v0 : StableHlo.TRef sig ⟨S14x16, .i1⟩) (broadcastInDim S14x16 ![0, 1] bcast_S14x1_S14x16_0_1),
    StableHlo.TRef.ternary (.of main_call0_v0 : StableHlo.TRef sig ⟨S14x16, .i1⟩) (.of main_v21 : StableHlo.TRef sig ⟨S14x16, .f32⟩) (.of main_v23 : StableHlo.TRef sig ⟨S14x16, .f32⟩) (.of main_v28 : StableHlo.TRef sig ⟨S14x16, .f32⟩) select,
    StableHlo.unary main_v6 main_v29 ((extractStridedSlice S16384x1x16 ![0, 0, 0] · slices_S32768x15x16_S16384x1x16_0_0_0) : (⟨S32768x15x16, .f32⟩ : BufTy).Contents (Elt F) → (⟨S16384x1x16, .f32⟩ : BufTy).Contents (Elt F)),
    StableHlo.unary main_v28 main_v30 (broadcastInDim S1x14x16 ![1, 2] bcast_S14x16_S1x14x16_1_2 : (⟨S14x16, .f32⟩ : BufTy).Contents (Elt F) → (⟨S1x14x16, .f32⟩ : BufTy).Contents (Elt F)),
    StableHlo.unary main_v30 main_v31 (broadcastInDim S16384x14x16 ![0, 1, 2] bcast_S1x14x16_S16384x14x16_0_1_2 : (⟨S1x14x16, .f32⟩ : BufTy).Contents (Elt F) → (⟨S16384x14x16, .f32⟩ : BufTy).Contents (Elt F)),
    StableHlo.unary main_v6 main_v32 ((extractStridedSlice S16384x1x16 ![0, 14, 0] · slices_S32768x15x16_S16384x1x16_0_14_0) : (⟨S32768x15x16, .f32⟩ : BufTy).Contents (Elt F) → (⟨S16384x1x16, .f32⟩ : BufTy).Contents (Elt F)) ]

/-- The last line: the concatenation of three arrays. -/
abbrev tailLast : HloOp τ sig (Elt F) :=
  StableHlo.nary ![main_v29, main_v31, main_v32] main_v33 (fun u => concatenate S16384x16x16 1 [⟨S16384x1x16, u 0⟩, ⟨S16384x14x16, u 1⟩, ⟨S16384x1x16, u 2⟩] concatenates_S16384x1x16_S16384x14x16_S16384x1x16_S16384x16x16_d1)

set_option maxRecDepth 65536 in
theorem tail_split : List.flatten (tailOps (F := F)) = tailS1 ++ [tailJoin] ++ tailS3 ++ [tailLast] := rfl

end Lists

set_option maxRecDepth 65536 in
set_option maxHeartbeats 40000000 in
/-- The recomputed row maxima with a unit last axis. -/
theorem s1_v15 (W : Valuation τ sig (Elt Ideal)) (dec : FVec Ideal S245760x32 .f32) (hp : FVec Ideal S245760x256 .f32)
    (w2 : FVec Ideal S256x256 .f32) (b2 : FVec Ideal S256 .f32)
    (h1 : W (Proc.devRef .tc main_v4_1) = dec) (h0 : W (Proc.devRef .tc main_v4_0) = hp)
    (h8 : W (Proc.devRef .tc main_arg8) = w2) (h9 : W (Proc.devRef .tc main_arg9) = b2) :
    StableHlo.after (tailS1 (F := Ideal)) W (Proc.devRef .tc main_v15) = broadcastInDim S15x16x1 ![0, 1] bcast_S15x16_S15x16x1_0_1 (kv13 hp w2 b2) := by
  subst h1 h0 h8 h9
  simp (disch := decide) only [tailS1, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', kv5, kv6, kv7, kv8, kv11, kv12, kv13, kv14]
  <;> rfl

set_option maxRecDepth 65536 in
set_option maxHeartbeats 40000000 in
/-- The recomputed column maxima with a unit last axis. -/
theorem s1_v16 (W : Valuation τ sig (Elt Ideal)) (dec : FVec Ideal S245760x32 .f32) (hp : FVec Ideal S245760x256 .f32)
    (w2 : FVec Ideal S256x256 .f32) (b2 : FVec Ideal S256 .f32)
    (h1 : W (Proc.devRef .tc main_v4_1) = dec) (h0 : W (Proc.devRef .tc main_v4_0) = hp)
    (h8 : W (Proc.devRef .tc main_arg8) = w2) (h9 : W (Proc.devRef .tc main_arg9) = b2) :
    StableHlo.after (tailS1 (F := Ideal)) W (Proc.devRef .tc main_v16) = broadcastInDim S15x16x1 ![0, 1] bcast_S15x16_S15x16x1_0_1 (kv14 hp w2 b2) := by
  subst h1 h0 h8 h9
  simp (disch := decide) only [tailS1, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', kv5, kv6, kv7, kv8, kv11, kv12, kv13, kv14]
  <;> rfl

set_option maxRecDepth 65536 in
set_option maxHeartbeats 40000000 in
/-- The decode array viewed as [32768, 15, 16]. -/
theorem s1_v6 (W : Valuation τ sig (Elt Ideal)) (dec : FVec Ideal S245760x32 .f32) (hp : FVec Ideal S245760x256 .f32)
    (w2 : FVec Ideal S256x256 .f32) (b2 : FVec Ideal S256 .f32)
    (h1 : W (Proc.devRef .tc main_v4_1) = dec) (h0 : W (Proc.devRef .tc main_v4_0) = hp)
    (h8 : W (Proc.devRef .tc main_arg8) = w2) (h9 : W (Proc.devRef .tc main_arg9) = b2) :
    StableHlo.after (tailS1 (F := Ideal)) W (Proc.devRef .tc main_v6) = kv6 dec := by
  subst h1 h0 h8 h9
  simp (disch := decide) only [tailS1, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', kv5, kv6, kv7, kv8, kv11, kv12, kv13, kv14]
  <;> rfl

/-- The join, from contents holding its two operands. -/
theorem s2_v17 (W : Valuation τ sig (Elt Ideal)) (hp : FVec Ideal S245760x256 .f32) (w2 : FVec Ideal S256x256 .f32) (b2 : FVec Ideal S256 .f32)
    (h15 : W (Proc.devRef .tc main_v15) = broadcastInDim S15x16x1 ![0, 1] bcast_S15x16_S15x16x1_0_1 (kv13 hp w2 b2))
    (h16 : W (Proc.devRef .tc main_v16) = broadcastInDim S15x16x1 ![0, 1] bcast_S15x16_S15x16x1_0_1 (kv14 hp w2 b2)) :
    StableHlo.after [tailJoin (F := Ideal)] W (Proc.devRef .tc main_v17) = kv17 hp w2 b2 := by
  show (tailJoin (F := Ideal)).result W (Proc.devRef .tc main_v17) = _
  refine (binary_result _ _ _ _ _ _ _ _).trans ?_
  rw [h15, h16]
  rfl

/-- The join writes only its own buffer. -/
theorem s2_v6 (W : Valuation τ sig (Elt Ideal)) : StableHlo.after [tailJoin (F := Ideal)] W (Proc.devRef .tc main_v6) = W (Proc.devRef .tc main_v6) := by
  after_results_simp <;> rfl

set_option maxRecDepth 65536 in
set_option maxHeartbeats 40000000 in
/-- The last line's first operand: each batch's first decoded row. -/
theorem s3_v29 (W : Valuation τ sig (Elt Ideal)) (dec : FVec Ideal S245760x32 .f32) (hp : FVec Ideal S245760x256 .f32)
    (w2 : FVec Ideal S256x256 .f32) (b2 : FVec Ideal S256 .f32)
    (h17 : W (Proc.devRef .tc main_v17) = kv17 hp w2 b2) (h6 : W (Proc.devRef .tc main_v6) = kv6 dec) :
    StableHlo.after (tailS3 (F := Ideal)) W (Proc.devRef .tc main_v29) = extractStridedSlice S16384x1x16 ![0, 0, 0] (kv6 dec) slices_S32768x15x16_S16384x1x16_0_0_0 := by
  simp (disch := decide) only [tailS3, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', midOf, kv18, kv19, kv21, kv23, h17, h6]
  <;> rfl

set_option maxRecDepth 65536 in
set_option maxHeartbeats 40000000 in
/-- Its second operand: the selected block, repeated for every batch. -/
theorem s3_v31 (W : Valuation τ sig (Elt Ideal)) (dec : FVec Ideal S245760x32 .f32) (hp : FVec Ideal S245760x256 .f32)
    (w2 : FVec Ideal S256x256 .f32) (b2 : FVec Ideal S256 .f32)
    (h17 : W (Proc.devRef .tc main_v17) = kv17 hp w2 b2) (h6 : W (Proc.devRef .tc main_v6) = kv6 dec) :
    StableHlo.after (tailS3 (F := Ideal)) W (Proc.devRef .tc main_v31) = broadcastInDim S16384x14x16 ![0, 1, 2] bcast_S1x14x16_S16384x14x16_0_1_2
          (broadcastInDim S1x14x16 ![1, 2] bcast_S14x16_S1x14x16_1_2 (midOf reducesTo_S14x16_S14_d1 h_S_ bcast_S14_S14x1_0 bcast_S14x1_S14x16_0_1 (kv21 hp w2 b2) (kv23 hp w2 b2))) := by
  simp (disch := decide) only [tailS3, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', midOf, kv18, kv19, kv21, kv23, h17, h6]
  <;> rfl

set_option maxRecDepth 65536 in
set_option maxHeartbeats 40000000 in
/-- Its third operand: each batch's last decoded row. -/
theorem s3_v32 (W : Valuation τ sig (Elt Ideal)) (dec : FVec Ideal S245760x32 .f32) (hp : FVec Ideal S245760x256 .f32)
    (w2 : FVec Ideal S256x256 .f32) (b2 : FVec Ideal S256 .f32)
    (h17 : W (Proc.devRef .tc main_v17) = kv17 hp w2 b2) (h6 : W (Proc.devRef .tc main_v6) = kv6 dec) :
    StableHlo.after (tailS3 (F := Ideal)) W (Proc.devRef .tc main_v32) = extractStridedSlice S16384x1x16 ![0, 14, 0] (kv6 dec) slices_S32768x15x16_S16384x1x16_0_14_0 := by
  simp (disch := decide) only [tailS3, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', midOf, kv18, kv19, kv21, kv23, h17, h6]
  <;> rfl

/-- The lines after the region, from any contents holding the decode array, the new hidden state, the head's weights
    and its bias: their last result is the final concatenation of the decode's first and last rows around the block
    selected from the recomputed decode's two row groups. -/
theorem tail_v33 (W : Valuation τ sig (Elt Ideal)) (dec : FVec Ideal S245760x32 .f32) (hp : FVec Ideal S245760x256 .f32)
    (w2 : FVec Ideal S256x256 .f32) (b2 : FVec Ideal S256 .f32)
    (h1 : W (Proc.devRef .tc main_v4_1) = dec) (h0 : W (Proc.devRef .tc main_v4_0) = hp)
    (h8 : W (Proc.devRef .tc main_arg8) = w2) (h9 : W (Proc.devRef .tc main_arg9) = b2) :
    StableHlo.after (List.flatten (tailOps (F := Ideal))) W (Proc.devRef .tc main_v33)
      = finalOf slices_S32768x15x16_S16384x1x16_0_0_0 slices_S32768x15x16_S16384x1x16_0_14_0 bcast_S14x16_S1x14x16_1_2 bcast_S1x14x16_S16384x14x16_0_1_2 concatenates_S16384x1x16_S16384x14x16_S16384x1x16_S16384x16x16_d1
          (kv6 dec) (midOf reducesTo_S14x16_S14_d1 h_S_ bcast_S14_S14x1_0 bcast_S14x1_S14x16_0_1 (kv21 hp w2 b2) (kv23 hp w2 b2)) := by
  have h17 := s2_v17 (StableHlo.after (tailS1 (F := Ideal)) W) hp w2 b2 (s1_v15 W dec hp w2 b2 h1 h0 h8 h9) (s1_v16 W dec hp w2 b2 h1 h0 h8 h9)
  have h6 := (s2_v6 (StableHlo.after (tailS1 (F := Ideal)) W)).trans (s1_v6 W dec hp w2 b2 h1 h0 h8 h9)
  rw [tail_split, Cert.Nary3.after_append, Cert.Nary3.after_append, Cert.Nary3.after_append]
  show tailLast.result (StableHlo.after tailS3 (StableHlo.after [tailJoin] (StableHlo.after (tailS1 (F := Ideal)) W))) (Proc.devRef .tc main_v33) = _
  refine (nary_result _ _ _ _ _ _).trans ?_
  show concatenate S16384x16x16 1
      [⟨S16384x1x16, StableHlo.after tailS3 (StableHlo.after [tailJoin] (StableHlo.after (tailS1 (F := Ideal)) W)) (Proc.devRef .tc main_v29)⟩,
       ⟨S16384x14x16, StableHlo.after tailS3 (StableHlo.after [tailJoin] (StableHlo.after (tailS1 (F := Ideal)) W)) (Proc.devRef .tc main_v31)⟩,
       ⟨S16384x1x16, StableHlo.after tailS3 (StableHlo.after [tailJoin] (StableHlo.after (tailS1 (F := Ideal)) W)) (Proc.devRef .tc main_v32)⟩]
      concatenates_S16384x1x16_S16384x14x16_S16384x1x16_S16384x16x16_d1 = _
  rw [s3_v29 _ dec hp w2 b2 h17 h6, s3_v31 _ dec hp w2 b2 h17 h6, s3_v32 _ dec hp w2 b2 h17 h6]
  rfl

variable (m : (ℓ : Loc nD τ sig) → Buf (Elt Ideal) ℓ) (ρ : Dev nD → PrngReg)

/-- What the lines after the region leave in the first result's buffer. -/
theorem tail_eq (c : Dev nD) :
    Pipeline.afterTail₀ cfgs (dats m) 0 (V0 m) tailOps c main_v33
      = finalOf slices_S32768x15x16_S16384x1x16_0_0_0 slices_S32768x15x16_S16384x1x16_0_14_0 bcast_S14x16_S1x14x16_1_2 bcast_S1x14x16_S16384x14x16_0_1_2 concatenates_S16384x1x16_S16384x14x16_S16384x1x16_S16384x16x16_d1
          (kv6 (DEC m c)) (midOf reducesTo_S14x16_S14_d1 h_S_ bcast_S14_S14x1_0 bcast_S14x1_S14x16_0_1
            (kv21 (HP m c) (V m c main_arg8) (V m c main_arg9)) (kv23 (HP m c) (V m c main_arg8) (V m c main_arg9))) := by
  unfold Pipeline.afterTail₀
  exact tail_v33 _ _ _ _ _
    ((Pipeline.withArrays_arr spec0 launch0.win.arr_inj c _ _ 11).trans (final11 m c))
    ((Pipeline.withArrays_arr spec0 launch0.win.arr_inj c _ _ 10).trans (final10 m c))
    (Pipeline.withArrays_of_ne _ c (V0 m c) _ main_arg8 (by exact (by decide : ∀ w, Pipeline.arrRef spec0 w ≠ main_arg8)))
    ((Pipeline.withArrays_arr spec0 launch0.win.arr_inj c _ _ 9).trans (((dats m 0 c).arrAt_in 9 rfl _).trans (A_eq m c 9)))

/-- The run with both results named and the arguments unchanged. -/
theorem run : θ_run defs (onTc (τ := τ) (main (F := Ideal))) ⟨m, fun _ => 0, ρ⟩ fun r => ∀ c : Dev nD,
      r.2.mem ((c.tc : Thread nD τ).loc main_v33)
        = finalOf slices_S32768x15x16_S16384x1x16_0_0_0 slices_S32768x15x16_S16384x1x16_0_14_0 bcast_S14x16_S1x14x16_1_2 bcast_S1x14x16_S16384x14x16_0_1_2 concatenates_S16384x1x16_S16384x14x16_S16384x1x16_S16384x16x16_d1
            (kv6 (DEC m c)) (midOf reducesTo_S14x16_S14_d1 h_S_ bcast_S14_S14x1_0 bcast_S14x1_S14x16_0_1
              (kv21 (HP m c) (V m c main_arg8) (V m c main_arg9)) (kv23 (HP m c) (V m c main_arg8) (V m c main_arg9)))
      ∧ r.2.mem ((c.tc : Thread nD τ).loc main_v4_0) = HP m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨
      ((h c).2 main_v33 (Pipeline.mem_restRefs_of main_v33 (by decide) (by decide))).trans (tail_eq m c),
      ((h c).1 10).trans (final10 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 5).trans (((dats m 0 c).arrAt_in 5 rfl _).trans ((A_eq m c 5).trans (V_main_arg6 m c))),
      ((h c).1 7).trans (((dats m 0 c).arrAt_in 7 rfl _).trans ((A_eq m c 7).trans (V_main_arg7 m c))),
      ((h c).2 main_arg8 (Pipeline.mem_restRefs_of main_arg8 (by decide) (by decide))).trans (W_main_arg8 m (dats m) c),
      ((h c).1 9).trans (((dats m 0 c).arrAt_in 9 rfl _).trans ((A_eq m c 9).trans (V_main_arg9 m c)))⟩)
    (run_main m ρ)

end Cert.KernelIdeal.ValueRun

end
-- ==== Proof.RefSide.lean ====
/-
  The reference program's stages read at an index, against the specification, over the extended reals.

  The pair rows: the reshape of the stacked block (2, 15, 96) of a batch reads, at row n = 15 b + j and entry k, the
  flat position 192 n + k of the stack; its half is s = (192 n + k) / 1440 mod 2 and its chunk c = (192 n + k) / 96 mod 15,
  half s holding the agents from s on, so the entry is feature k mod 96 of agent s + c. Then a dense layer with its
  maximum against 0, the two gate layers, the cell's blend with the logistic spelt 1 / (1 + exp (−x)), the head's
  dense layer as a 16 × 16 grid, its row maxima and column maxima as folds of max from −∞, and the two interleaved
  as the last axis of the decode. Last, the reshapes and slices that cut rows 1 … 14 and 15 … 28 out of the decode.
-/
import proofs.«128030_j52063593562852_2_alg».proof.Proof.RefRead
import proofs.«128030_j52063593562852_2_alg».proof.Proof.GruSpec
import Idealize.ShloMosaic.PureOps.Reduce
import Idealize.ShloMosaic.PureOps.Ideal.Laws
import Idealize.ShloMosaic.Lib.Pipeline.Value
import Idealize.ShloMosaic.Lib.ValueIdx

noncomputable section

open scoped BigOperators

namespace Cert.RefSide

open Cert.ReferenceIdeal Cert.ReferenceIdeal.Gen Cert.ReferenceIdeal.ReadP Cert.GruSpec Idealize.ShloMosaic Idealize.ShloMosaic.ValueIdx

/-! ## The pair rows -/

/-- The stacked block at (b, s, c, f): half s holds the agents from s on, so the entry is feature f of agent s + c. -/
theorem stack_apply (x0 : (⟨S16384x16x96, .f32⟩ : BufTy).Contents (Elt Ideal)) (b : Fin 16384) (s : Fin 2) (c : Fin 15) (f : Fin 96) :
    val_main_v4 (F := Ideal) x0 (ix4 b s c f) = x0 (ix3 b (⟨s.val + c.val, by omega⟩ : Fin 16) f) := by
  have hc := c.isLt
  unfold val_main_v4
  obtain ⟨sv, hs⟩ := s
  have h01 : sv = 0 ∨ sv = 1 := by omega
  rcases h01 with rfl | rfl
  · refine (concatenate_pair_apply_left (t := S16384x2x15x96) (s₁ := S16384x1x15x96) (s₂ := S16384x1x15x96) 1 _ _
      concatenates_S16384x1x15x96_S16384x1x15x96_S16384x2x15x96_d1 _ rfl (ix4 b (0 : Fin 1) c f) (fun a => ?_)).trans ?_
    · match a with
      | ⟨0, _⟩ => rfl
      | ⟨1, _⟩ => rfl
      | ⟨2, _⟩ => rfl
      | ⟨3, _⟩ => rfl
    · rw [val_main_v2_apply, val_main_v0_apply]
      exact congrArg x0 (funext fun a => Fin.ext (by
        match a with
        | ⟨0, _⟩ => rfl
        | ⟨1, _⟩ => show c.val = 0 + c.val; omega
        | ⟨2, _⟩ => rfl))
  · refine (concatenate_pair_apply_right (t := S16384x2x15x96) (s₁ := S16384x1x15x96) (s₂ := S16384x1x15x96) 1 _ _
      concatenates_S16384x1x15x96_S16384x1x15x96_S16384x2x15x96_d1 _ rfl rfl (ix4 b (0 : Fin 1) c f) (fun a hne => ?_) rfl).trans ?_
    · match a with
      | ⟨0, _⟩ => rfl
      | ⟨1, _⟩ => exact absurd rfl hne
      | ⟨2, _⟩ => rfl
      | ⟨3, _⟩ => rfl
    · rw [val_main_v3_apply, val_main_v1_apply]
      exact congrArg x0 (funext fun a => Fin.ext (by
        match a with
        | ⟨0, _⟩ => rfl
        | ⟨1, _⟩ => rfl
        | ⟨2, _⟩ => rfl))

/-- Entry k of pair row n of the reshaped stack is the specification's. -/
theorem ref_pair (x0 : (⟨S16384x16x96, .f32⟩ : BufTy).Contents (Elt Ideal)) (n : Fin 245760) (k : Fin 192) :
    val_main_v5 (F := Ideal) x0 (ix2 n k) = pairAt x0 n k := by
  have hn := n.isLt
  have hk := k.isLt
  have e : idx_main_v5 (ix2 n k)
      = ix4 (⟨(n.val * 192 + k.val) / 2880, by omega⟩ : Fin 16384) (⟨(n.val * 192 + k.val) / 1440 % 2, by omega⟩ : Fin 2)
          (⟨(n.val * 192 + k.val) / 96 % 15, by omega⟩ : Fin 15) (⟨(n.val * 192 + k.val) % 96, by omega⟩ : Fin 96) :=
    funext fun a => by
      match a with
      | ⟨0, _⟩ => rfl
      | ⟨1, _⟩ => rfl
      | ⟨2, _⟩ => rfl
      | ⟨3, _⟩ => rfl
  rw [val_main_v5_apply, e, stack_apply]
  unfold pairAt
  exact congrArg x0 (funext fun a => Fin.ext (by
    match a with
    | ⟨0, _⟩ => show (n.val * 192 + k.val) / 2880 = n.val / 15; omega
    | ⟨1, _⟩ =>
      show (n.val * 192 + k.val) / 1440 % 2 + (n.val * 192 + k.val) / 96 % 15 = agentNat (2 * (n.val % 15) + k.val / 96)
      unfold agentNat; omega
    | ⟨2, _⟩ => show (n.val * 192 + k.val) % 96 = k.val % 96; omega))

/-! ## The dense layers and the cell -/

/-- The first layer with its maximum against 0. -/
theorem ref_act1 (x0 : (⟨S16384x16x96, .f32⟩ : BufTy).Contents (Elt Ideal)) (x2 : (⟨S192x256, .f32⟩ : BufTy).Contents (Elt Ideal)) (x3 : (⟨S256, .f32⟩ : BufTy).Contents (Elt Ideal)) (n : Fin 245760) (j : Fin 256) :
    val_main_v10 (F := Ideal) x0 x2 x3 (ix2 n j) = act1 x0 x2 x3 n j := by
  rw [val_main_v10_apply, val_main_v9_apply, val_main_v6_apply, val_main_v8_apply, val_main_v7_apply,
    val_main_call0_v0_apply, val_main_call0_cst_apply]
  unfold act1 dense
  simp only [Ideal.maximumf_def, Ideal.addf_def, Ideal.ofBits_def]
  refine congrArg₂ max (congrArg₂ (· + ·) (Finset.sum_congr rfl fun k _ => congrArg₂ (· * ·) ?_ ?_) ?_) rfl
  · exact (congrArg (val_main_v5 (F := Ideal) x0) (funext fun ax => by match ax with | ⟨0, _⟩ => rfl | ⟨1, _⟩ => rfl)).trans (ref_pair x0 n k)
  · exact congrArg x2 (funext fun ax => by match ax with | ⟨0, _⟩ => rfl | ⟨1, _⟩ => rfl)
  · exact congrArg x3 (funext fun ax => by match ax with | ⟨0, _⟩ => rfl)

/-- The input gates' pre-activation. -/
theorem ref_gi (x0 : (⟨S16384x16x96, .f32⟩ : BufTy).Contents (Elt Ideal)) (x2 : (⟨S192x256, .f32⟩ : BufTy).Contents (Elt Ideal)) (x3 : (⟨S256, .f32⟩ : BufTy).Contents (Elt Ideal)) (x4 : (⟨S256x768, .f32⟩ : BufTy).Contents (Elt Ideal)) (x6 : (⟨S768, .f32⟩ : BufTy).Contents (Elt Ideal))
    (n : Fin 245760) (c : Fin 768) :
    val_main_v14 (F := Ideal) x0 x2 x3 x4 x6 (ix2 n c) = dense (act1 x0 x2 x3) x4 x6 n c := by
  rw [val_main_v14_apply, val_main_v11_apply, val_main_v13_apply, val_main_v12_apply]
  unfold dense
  simp only [Ideal.addf_def]
  refine congrArg₂ (· + ·) (Finset.sum_congr rfl fun k _ => congrArg₂ (· * ·) ?_ ?_) ?_
  · exact (congrArg (val_main_v10 (F := Ideal) x0 x2 x3) (funext fun ax => by match ax with | ⟨0, _⟩ => rfl | ⟨1, _⟩ => rfl)).trans (ref_act1 x0 x2 x3 n k)
  · exact congrArg x4 (funext fun ax => by match ax with | ⟨0, _⟩ => rfl | ⟨1, _⟩ => rfl)
  · exact congrArg x6 (funext fun ax => by match ax with | ⟨0, _⟩ => rfl)

/-- The hidden gates' pre-activation. -/
theorem ref_gh (x1 : (⟨S245760x256, .f32⟩ : BufTy).Contents (Elt Ideal)) (x5 : (⟨S256x768, .f32⟩ : BufTy).Contents (Elt Ideal)) (x7 : (⟨S768, .f32⟩ : BufTy).Contents (Elt Ideal)) (n : Fin 245760) (c : Fin 768) :
    val_main_v18 (F := Ideal) x1 x5 x7 (ix2 n c) = dense (fun (n : Fin 245760) (k : Fin 256) => x1 (ix2 n k)) x5 x7 n c := by
  rw [val_main_v18_apply, val_main_v15_apply, val_main_v17_apply, val_main_v16_apply]
  unfold dense
  simp only [Ideal.addf_def]
  refine congrArg₂ (· + ·) (Finset.sum_congr rfl fun k _ => congrArg₂ (· * ·) ?_ ?_) ?_
  · exact congrArg x1 (funext fun ax => by match ax with | ⟨0, _⟩ => rfl | ⟨1, _⟩ => rfl)
  · exact congrArg x5 (funext fun ax => by match ax with | ⟨0, _⟩ => rfl | ⟨1, _⟩ => rfl)
  · exact congrArg x7 (funext fun ax => by match ax with | ⟨0, _⟩ => rfl)

/-- The new hidden state. -/
theorem ref_hp (x0 : (⟨S16384x16x96, .f32⟩ : BufTy).Contents (Elt Ideal)) (x1 : (⟨S245760x256, .f32⟩ : BufTy).Contents (Elt Ideal)) (x2 : (⟨S192x256, .f32⟩ : BufTy).Contents (Elt Ideal)) (x3 : (⟨S256, .f32⟩ : BufTy).Contents (Elt Ideal)) (x4 x5 : (⟨S256x768, .f32⟩ : BufTy).Contents (Elt Ideal)) (x6 x7 : (⟨S768, .f32⟩ : BufTy).Contents (Elt Ideal)) (n : Fin 245760) (j : Fin 256) :
    val_main_v46 (F := Ideal) x0 x1 x2 x3 x4 x5 x6 x7 (ix2 n j) = hpAt x0 x1 x2 x3 x4 x5 x6 x7 n j := by
  have hj := j.isLt
  have g0 : val_main_v19 (F := Ideal) x0 x2 x3 x4 x6 (ix2 n j) = dense (act1 x0 x2 x3) x4 x6 n (⟨j.val, by omega⟩ : Fin 768) := by
    rw [val_main_v19_apply]
    exact (congrArg (val_main_v14 (F := Ideal) x0 x2 x3 x4 x6) (funext fun ax => by match ax with | ⟨0, _⟩ => rfl | ⟨1, _⟩ => rfl)).trans (ref_gi x0 x2 x3 x4 x6 n _)
  have g1 : val_main_v20 (F := Ideal) x0 x2 x3 x4 x6 (ix2 n j) = dense (act1 x0 x2 x3) x4 x6 n (⟨256 + j.val, by omega⟩ : Fin 768) := by
    rw [val_main_v20_apply]
    exact (congrArg (val_main_v14 (F := Ideal) x0 x2 x3 x4 x6) (funext fun ax => by match ax with | ⟨0, _⟩ => rfl | ⟨1, _⟩ => rfl)).trans (ref_gi x0 x2 x3 x4 x6 n _)
  have g2 : val_main_v21 (F := Ideal) x0 x2 x3 x4 x6 (ix2 n j) = dense (act1 x0 x2 x3) x4 x6 n (⟨512 + j.val, by omega⟩ : Fin 768) := by
    rw [val_main_v21_apply]
    exact (congrArg (val_main_v14 (F := Ideal) x0 x2 x3 x4 x6) (funext fun ax => by match ax with | ⟨0, _⟩ => rfl | ⟨1, _⟩ => rfl)).trans (ref_gi x0 x2 x3 x4 x6 n _)
  have h0 : val_main_v22 (F := Ideal) x1 x5 x7 (ix2 n j)
      = dense (fun (n : Fin 245760) (k : Fin 256) => x1 (ix2 n k)) x5 x7 n (⟨j.val, by omega⟩ : Fin 768) := by
    rw [val_main_v22_apply]
    exact (congrArg (val_main_v18 (F := Ideal) x1 x5 x7) (funext fun ax => by match ax with | ⟨0, _⟩ => rfl | ⟨1, _⟩ => rfl)).trans (ref_gh x1 x5 x7 n _)
  have h1 : val_main_v23 (F := Ideal) x1 x5 x7 (ix2 n j)
      = dense (fun (n : Fin 245760) (k : Fin 256) => x1 (ix2 n k)) x5 x7 n (⟨256 + j.val, by omega⟩ : Fin 768) := by
    rw [val_main_v23_apply]
    exact (congrArg (val_main_v18 (F := Ideal) x1 x5 x7) (funext fun ax => by match ax with | ⟨0, _⟩ => rfl | ⟨1, _⟩ => rfl)).trans (ref_gh x1 x5 x7 n _)
  have h2 : val_main_v24 (F := Ideal) x1 x5 x7 (ix2 n j)
      = dense (fun (n : Fin 245760) (k : Fin 256) => x1 (ix2 n k)) x5 x7 n (⟨512 + j.val, by omega⟩ : Fin 768) := by
    rw [val_main_v24_apply]
    exact (congrArg (val_main_v18 (F := Ideal) x1 x5 x7) (funext fun ax => by match ax with | ⟨0, _⟩ => rfl | ⟨1, _⟩ => rfl)).trans (ref_gh x1 x5 x7 n _)
  rw [val_main_v46_apply, val_main_v44_apply, val_main_v45_apply, val_main_v43_apply, val_main_v41_apply, val_main_v42_apply,
    val_main_cst_3_apply, val_main_v38_apply, val_main_v37_apply, val_main_cst_2_apply, val_main_v36_apply, val_main_v35_apply,
    val_main_cst_1_apply, val_main_v34_apply, val_main_v33_apply, val_main_v32_apply, val_main_v40_apply, val_main_v39_apply,
    val_main_v31_apply, val_main_v30_apply, val_main_cst_0_apply, val_main_v29_apply, val_main_v28_apply, val_main_cst_apply,
    val_main_v27_apply, val_main_v26_apply, val_main_v25_apply, g0, g1, g2, h0, h1, h2]
  rfl

/-! ## The head's grid and the decode -/

/-- The head's output 16 a + b of row n, as the grid's entry (a, b). -/
theorem ref_grid (x0 : (⟨S16384x16x96, .f32⟩ : BufTy).Contents (Elt Ideal)) (x1 : (⟨S245760x256, .f32⟩ : BufTy).Contents (Elt Ideal)) (x2 : (⟨S192x256, .f32⟩ : BufTy).Contents (Elt Ideal)) (x3 : (⟨S256, .f32⟩ : BufTy).Contents (Elt Ideal)) (x4 x5 : (⟨S256x768, .f32⟩ : BufTy).Contents (Elt Ideal)) (x6 x7 : (⟨S768, .f32⟩ : BufTy).Contents (Elt Ideal)) (x8 : (⟨S256x256, .f32⟩ : BufTy).Contents (Elt Ideal)) (x9 : (⟨S256, .f32⟩ : BufTy).Contents (Elt Ideal)) (n : Fin 245760) (a b : Fin 16) :
    val_main_v51 (F := Ideal) x0 x1 x2 x3 x4 x5 x6 x7 x8 x9 (ix3 n a b)
      = gridAt (fun (n : Fin 245760) (j : Fin 256) => val_main_v46 (F := Ideal) x0 x1 x2 x3 x4 x5 x6 x7 (ix2 n j)) x8 x9 n a b := by
  have hn := n.isLt
  have ha := a.isLt
  have hb := b.isLt
  have e : idx_main_v51 (ix3 n a b) = ix2 n (⟨16 * a.val + b.val, by omega⟩ : Fin 256) :=
    funext fun ax => Fin.ext (by
      match ax with
      | ⟨0, _⟩ => show ((n.val * 16 + a.val) * 16 + b.val) / 256 = n.val; omega
      | ⟨1, _⟩ => show ((n.val * 16 + a.val) * 16 + b.val) % 256 = 16 * a.val + b.val; omega)
  rw [val_main_v51_apply, e, val_main_v50_apply, val_main_v47_apply, val_main_v49_apply, val_main_v48_apply]
  unfold gridAt dense
  simp only [Ideal.addf_def]
  refine congrArg₂ (· + ·) (Finset.sum_congr rfl fun k _ => congrArg₂ (· * ·) ?_ ?_) ?_
  · exact congrArg (val_main_v46 (F := Ideal) x0 x1 x2 x3 x4 x5 x6 x7) (funext fun ax => by match ax with | ⟨0, _⟩ => rfl | ⟨1, _⟩ => rfl)
  · exact congrArg x8 (funext fun ax => by match ax with | ⟨0, _⟩ => rfl | ⟨1, _⟩ => rfl)
  · exact congrArg x9 (funext fun ax => by match ax with | ⟨0, _⟩ => rfl)

/-- Reduced along the last axis: (n, j) with b put back last is (n, j, b). -/
theorem lift_last (h : S245760x16x16.Reduces [2] S245760x16) (n : Fin 245760) (j : Fin 16) (b : Fin 16) :
    h.lift (ix2 n j) b = ix3 n j b :=
  funext fun ax => Fin.ext (by match ax with | ⟨0, _⟩ => rfl | ⟨1, _⟩ => rfl | ⟨2, _⟩ => rfl)

/-- Reduced along the middle axis: (n, j) with a put back in the middle is (n, a, j). -/
theorem lift_mid (h : S245760x16x16.Reduces [1] S245760x16) (n : Fin 245760) (j : Fin 16) (a : Fin 16) :
    h.lift (ix2 n j) a = ix3 n a j :=
  funext fun ax => Fin.ext (by match ax with | ⟨0, _⟩ => rfl | ⟨1, _⟩ => rfl | ⟨2, _⟩ => rfl)

/-- The maximum over grid row j of row n, from −∞. -/
theorem ref_rowmax (x0 : (⟨S16384x16x96, .f32⟩ : BufTy).Contents (Elt Ideal)) (x1 : (⟨S245760x256, .f32⟩ : BufTy).Contents (Elt Ideal)) (x2 : (⟨S192x256, .f32⟩ : BufTy).Contents (Elt Ideal)) (x3 : (⟨S256, .f32⟩ : BufTy).Contents (Elt Ideal)) (x4 x5 : (⟨S256x768, .f32⟩ : BufTy).Contents (Elt Ideal)) (x6 x7 : (⟨S768, .f32⟩ : BufTy).Contents (Elt Ideal)) (x8 : (⟨S256x256, .f32⟩ : BufTy).Contents (Elt Ideal)) (x9 : (⟨S256, .f32⟩ : BufTy).Contents (Elt Ideal)) (n : Fin 245760) (j : Fin 16) :
    val_main_v52 (F := Ideal) x0 x1 x2 x3 x4 x5 x6 x7 x8 x9 (ix2 n j)
      = (Finset.univ : Finset (Fin 16)).fold max negInfF (fun b => gridAt (fun (n : Fin 245760) (j : Fin 256) => val_main_v46 (F := Ideal) x0 x1 x2 x3 x4 x5 x6 x7 (ix2 n j)) x8 x9 n j b) := by
  have h : S245760x16x16.Reduces [2] S245760x16 := by decide
  unfold val_main_v52
  rw [Host.reduce_eq_fold_single FloatOps.maximumf _ _ reducesTo_S245760x16x16_S245760x16_d2 h h_S_]
  exact congrArg (fun f => Finset.fold max negInfF f (Finset.univ : Finset (Fin 16)))
    (funext fun b => (congrArg (val_main_v51 (F := Ideal) x0 x1 x2 x3 x4 x5 x6 x7 x8 x9) (lift_last h n j b)).trans (ref_grid x0 x1 x2 x3 x4 x5 x6 x7 x8 x9 n j b))

/-- The maximum over grid column j of row n, from −∞. -/
theorem ref_colmax (x0 : (⟨S16384x16x96, .f32⟩ : BufTy).Contents (Elt Ideal)) (x1 : (⟨S245760x256, .f32⟩ : BufTy).Contents (Elt Ideal)) (x2 : (⟨S192x256, .f32⟩ : BufTy).Contents (Elt Ideal)) (x3 : (⟨S256, .f32⟩ : BufTy).Contents (Elt Ideal)) (x4 x5 : (⟨S256x768, .f32⟩ : BufTy).Contents (Elt Ideal)) (x6 x7 : (⟨S768, .f32⟩ : BufTy).Contents (Elt Ideal)) (x8 : (⟨S256x256, .f32⟩ : BufTy).Contents (Elt Ideal)) (x9 : (⟨S256, .f32⟩ : BufTy).Contents (Elt Ideal)) (n : Fin 245760) (j : Fin 16) :
    val_main_v53 (F := Ideal) x0 x1 x2 x3 x4 x5 x6 x7 x8 x9 (ix2 n j)
      = (Finset.univ : Finset (Fin 16)).fold max negInfF (fun a => gridAt (fun (n : Fin 245760) (j : Fin 256) => val_main_v46 (F := Ideal) x0 x1 x2 x3 x4 x5 x6 x7 (ix2 n j)) x8 x9 n a j) := by
  have h : S245760x16x16.Reduces [1] S245760x16 := by decide
  unfold val_main_v53
  rw [Host.reduce_eq_fold_single FloatOps.maximumf _ _ reducesTo_S245760x16x16_S245760x16_d1 h h_S_]
  exact congrArg (fun f => Finset.fold max negInfF f (Finset.univ : Finset (Fin 16)))
    (funext fun a => (congrArg (val_main_v51 (F := Ideal) x0 x1 x2 x3 x4 x5 x6 x7 x8 x9) (lift_mid h n j a)).trans (ref_grid x0 x1 x2 x3 x4 x5 x6 x7 x8 x9 n a j))

/-- The joined pair at last coordinate 0 is the row maximum. -/
theorem ref_join_row (x0 : (⟨S16384x16x96, .f32⟩ : BufTy).Contents (Elt Ideal)) (x1 : (⟨S245760x256, .f32⟩ : BufTy).Contents (Elt Ideal)) (x2 : (⟨S192x256, .f32⟩ : BufTy).Contents (Elt Ideal)) (x3 : (⟨S256, .f32⟩ : BufTy).Contents (Elt Ideal)) (x4 x5 : (⟨S256x768, .f32⟩ : BufTy).Contents (Elt Ideal)) (x6 x7 : (⟨S768, .f32⟩ : BufTy).Contents (Elt Ideal)) (x8 : (⟨S256x256, .f32⟩ : BufTy).Contents (Elt Ideal)) (x9 : (⟨S256, .f32⟩ : BufTy).Contents (Elt Ideal)) (n : Fin 245760) (j : Fin 16) (u : Fin 2) (hu : u.val = 0) :
    val_main_v56 (F := Ideal) x0 x1 x2 x3 x4 x5 x6 x7 x8 x9 (ix3 n j u)
      = (Finset.univ : Finset (Fin 16)).fold max negInfF (fun b => gridAt (fun (n : Fin 245760) (j : Fin 256) => val_main_v46 (F := Ideal) x0 x1 x2 x3 x4 x5 x6 x7 (ix2 n j)) x8 x9 n j b) := by
  unfold val_main_v56
  refine (concatenate_pair_apply_left (t := S245760x16x2) (s₁ := S245760x16x1) (s₂ := S245760x16x1) 2 _ _
    concatenates_S245760x16x1_S245760x16x1_S245760x16x2_d2 (ix3 n j u) rfl (ix3 n j (0 : Fin 1)) (fun ax => ?_)).trans ?_
  · match ax with
    | ⟨0, _⟩ => rfl
    | ⟨1, _⟩ => rfl
    | ⟨2, _⟩ => exact hu.symm
  · rw [val_main_v54_apply]
    exact (congrArg (val_main_v52 (F := Ideal) x0 x1 x2 x3 x4 x5 x6 x7 x8 x9) (funext fun ax => by match ax with | ⟨0, _⟩ => rfl | ⟨1, _⟩ => rfl)).trans (ref_rowmax x0 x1 x2 x3 x4 x5 x6 x7 x8 x9 n j)

/-- The joined pair at last coordinate 1 is the column maximum. -/
theorem ref_join_col (x0 : (⟨S16384x16x96, .f32⟩ : BufTy).Contents (Elt Ideal)) (x1 : (⟨S245760x256, .f32⟩ : BufTy).Contents (Elt Ideal)) (x2 : (⟨S192x256, .f32⟩ : BufTy).Contents (Elt Ideal)) (x3 : (⟨S256, .f32⟩ : BufTy).Contents (Elt Ideal)) (x4 x5 : (⟨S256x768, .f32⟩ : BufTy).Contents (Elt Ideal)) (x6 x7 : (⟨S768, .f32⟩ : BufTy).Contents (Elt Ideal)) (x8 : (⟨S256x256, .f32⟩ : BufTy).Contents (Elt Ideal)) (x9 : (⟨S256, .f32⟩ : BufTy).Contents (Elt Ideal)) (n : Fin 245760) (j : Fin 16) (u : Fin 2) (hu : u.val = 1) :
    val_main_v56 (F := Ideal) x0 x1 x2 x3 x4 x5 x6 x7 x8 x9 (ix3 n j u)
      = (Finset.univ : Finset (Fin 16)).fold max negInfF (fun a => gridAt (fun (n : Fin 245760) (j : Fin 256) => val_main_v46 (F := Ideal) x0 x1 x2 x3 x4 x5 x6 x7 (ix2 n j)) x8 x9 n a j) := by
  unfold val_main_v56
  refine (concatenate_pair_apply_right (t := S245760x16x2) (s₁ := S245760x16x1) (s₂ := S245760x16x1) 2 _ _
    concatenates_S245760x16x1_S245760x16x1_S245760x16x2_d2 (ix3 n j u) rfl rfl (ix3 n j (0 : Fin 1)) (fun ax hne => ?_)
    (by show 0 + 1 = u.val; omega)).trans ?_
  · match ax with
    | ⟨0, _⟩ => rfl
    | ⟨1, _⟩ => rfl
    | ⟨2, _⟩ => exact absurd rfl hne
  · rw [val_main_v55_apply]
    exact (congrArg (val_main_v53 (F := Ideal) x0 x1 x2 x3 x4 x5 x6 x7 x8 x9) (funext fun ax => by match ax with | ⟨0, _⟩ => rfl | ⟨1, _⟩ => rfl)).trans (ref_colmax x0 x1 x2 x3 x4 x5 x6 x7 x8 x9 n j)

/-- The decode as 491520 rows of 16: row r, entry k is the decode of pair row r / 2 at the flat position 16 (r mod 2) + k of its
    (16, 2) block. -/
theorem ref_dec2 (x0 : (⟨S16384x16x96, .f32⟩ : BufTy).Contents (Elt Ideal)) (x1 : (⟨S245760x256, .f32⟩ : BufTy).Contents (Elt Ideal)) (x2 : (⟨S192x256, .f32⟩ : BufTy).Contents (Elt Ideal)) (x3 : (⟨S256, .f32⟩ : BufTy).Contents (Elt Ideal)) (x4 x5 : (⟨S256x768, .f32⟩ : BufTy).Contents (Elt Ideal)) (x6 x7 : (⟨S768, .f32⟩ : BufTy).Contents (Elt Ideal)) (x8 : (⟨S256x256, .f32⟩ : BufTy).Contents (Elt Ideal)) (x9 : (⟨S256, .f32⟩ : BufTy).Contents (Elt Ideal)) (r : Fin 491520) (k : Fin 16) :
    val_main_v57 (F := Ideal) x0 x1 x2 x3 x4 x5 x6 x7 x8 x9 (ix2 r k)
      = decAt (fun (n : Fin 245760) (j : Fin 256) => val_main_v46 (F := Ideal) x0 x1 x2 x3 x4 x5 x6 x7 (ix2 n j)) x8 x9
          (⟨r.val / 2, by have := r.isLt; omega⟩ : Fin 245760) (⟨(16 * (r.val % 2) + k.val) / 2, by have := k.isLt; omega⟩ : Fin 16)
          (⟨k.val % 2, by omega⟩ : Fin 2) := by
  have hr := r.isLt
  have hk := k.isLt
  have e : idx_main_v57 (ix2 r k)
      = ix3 (⟨r.val / 2, by omega⟩ : Fin 245760) (⟨(16 * (r.val % 2) + k.val) / 2, by omega⟩ : Fin 16) (⟨k.val % 2, by omega⟩ : Fin 2) :=
    funext fun ax => Fin.ext (by
      match ax with
      | ⟨0, _⟩ => show (r.val * 16 + k.val) / 32 = r.val / 2; omega
      | ⟨1, _⟩ => show (r.val * 16 + k.val) / 2 % 16 = (16 * (r.val % 2) + k.val) / 2; omega
      | ⟨2, _⟩ => show (r.val * 16 + k.val) % 2 = k.val % 2; omega)
  rw [val_main_v57_apply, e]
  unfold decAt
  rcases Nat.mod_two_eq_zero_or_one k.val with h0 | h1
  · rw [if_pos h0]
    exact ref_join_row x0 x1 x2 x3 x4 x5 x6 x7 x8 x9 _ _ _ h0
  · rw [if_neg (by show ¬ k.val % 2 = 0; omega)]
    exact ref_join_col x0 x1 x2 x3 x4 x5 x6 x7 x8 x9 _ _ _ h1

/-! ## The cuts out of the decode -/

/-- The decode as (32768, 15, 16): entry (p, q, k) is row 15 p + q, entry k. -/
theorem ref_v58 (x0 : (⟨S16384x16x96, .f32⟩ : BufTy).Contents (Elt Ideal)) (x1 : (⟨S245760x256, .f32⟩ : BufTy).Contents (Elt Ideal)) (x2 : (⟨S192x256, .f32⟩ : BufTy).Contents (Elt Ideal)) (x3 : (⟨S256, .f32⟩ : BufTy).Contents (Elt Ideal)) (x4 x5 : (⟨S256x768, .f32⟩ : BufTy).Contents (Elt Ideal)) (x6 x7 : (⟨S768, .f32⟩ : BufTy).Contents (Elt Ideal)) (x8 : (⟨S256x256, .f32⟩ : BufTy).Contents (Elt Ideal)) (x9 : (⟨S256, .f32⟩ : BufTy).Contents (Elt Ideal)) (p : Fin 32768) (q : Fin 15) (k : Fin 16) :
    val_main_v58 (F := Ideal) x0 x1 x2 x3 x4 x5 x6 x7 x8 x9 (ix3 p q k)
      = val_main_v57 (F := Ideal) x0 x1 x2 x3 x4 x5 x6 x7 x8 x9 (ix2 (⟨15 * p.val + q.val, by have := p.isLt; have := q.isLt; omega⟩ : Fin 491520) k) := by
  have hp := p.isLt
  have hq := q.isLt
  have hk := k.isLt
  rw [val_main_v58_apply]
  exact congrArg (val_main_v57 (F := Ideal) x0 x1 x2 x3 x4 x5 x6 x7 x8 x9) (funext fun ax => Fin.ext (by
    match ax with
    | ⟨0, _⟩ => show ((p.val * 15 + q.val) * 16 + k.val) / 16 = 15 * p.val + q.val; omega
    | ⟨1, _⟩ => show ((p.val * 15 + q.val) * 16 + k.val) % 16 = k.val; omega))

/-- Rows 1 … 14 of the first block of 15. -/
theorem ref_v60 (x0 : (⟨S16384x16x96, .f32⟩ : BufTy).Contents (Elt Ideal)) (x1 : (⟨S245760x256, .f32⟩ : BufTy).Contents (Elt Ideal)) (x2 : (⟨S192x256, .f32⟩ : BufTy).Contents (Elt Ideal)) (x3 : (⟨S256, .f32⟩ : BufTy).Contents (Elt Ideal)) (x4 x5 : (⟨S256x768, .f32⟩ : BufTy).Contents (Elt Ideal)) (x6 x7 : (⟨S768, .f32⟩ : BufTy).Contents (Elt Ideal)) (x8 : (⟨S256x256, .f32⟩ : BufTy).Contents (Elt Ideal)) (x9 : (⟨S256, .f32⟩ : BufTy).Contents (Elt Ideal)) (a : Fin 14) (k : Fin 16) :
    val_main_v60 (F := Ideal) x0 x1 x2 x3 x4 x5 x6 x7 x8 x9 (ix2 a k)
      = val_main_v57 (F := Ideal) x0 x1 x2 x3 x4 x5 x6 x7 x8 x9 (ix2 (⟨a.val + 1, by have := a.isLt; omega⟩ : Fin 491520) k) := by
  have ha := a.isLt
  have hk := k.isLt
  rw [val_main_v60_apply, val_main_v59_apply, val_main_v58_apply]
  exact congrArg (val_main_v57 (F := Ideal) x0 x1 x2 x3 x4 x5 x6 x7 x8 x9) (funext fun ax => Fin.ext (by
    match ax with
    | ⟨0, _⟩ =>
      show ((0 * 15 + (1 + (a.val * 16 + k.val) / 16 % 14)) * 16 + (a.val * 16 + k.val) % 16) / 16 = a.val + 1
      omega
    | ⟨1, _⟩ =>
      show ((0 * 15 + (1 + (a.val * 16 + k.val) / 16 % 14)) * 16 + (a.val * 16 + k.val) % 16) % 16 = k.val
      omega))

/-- Rows 0 … 13 of the second block of 15. -/
theorem ref_v62 (x0 : (⟨S16384x16x96, .f32⟩ : BufTy).Contents (Elt Ideal)) (x1 : (⟨S245760x256, .f32⟩ : BufTy).Contents (Elt Ideal)) (x2 : (⟨S192x256, .f32⟩ : BufTy).Contents (Elt Ideal)) (x3 : (⟨S256, .f32⟩ : BufTy).Contents (Elt Ideal)) (x4 x5 : (⟨S256x768, .f32⟩ : BufTy).Contents (Elt Ideal)) (x6 x7 : (⟨S768, .f32⟩ : BufTy).Contents (Elt Ideal)) (x8 : (⟨S256x256, .f32⟩ : BufTy).Contents (Elt Ideal)) (x9 : (⟨S256, .f32⟩ : BufTy).Contents (Elt Ideal)) (a : Fin 14) (k : Fin 16) :
    val_main_v62 (F := Ideal) x0 x1 x2 x3 x4 x5 x6 x7 x8 x9 (ix2 a k)
      = val_main_v57 (F := Ideal) x0 x1 x2 x3 x4 x5 x6 x7 x8 x9 (ix2 (⟨15 + a.val, by have := a.isLt; omega⟩ : Fin 491520) k) := by
  have ha := a.isLt
  have hk := k.isLt
  rw [val_main_v62_apply, val_main_v61_apply, val_main_v58_apply]
  exact congrArg (val_main_v57 (F := Ideal) x0 x1 x2 x3 x4 x5 x6 x7 x8 x9) (funext fun ax => Fin.ext (by
    match ax with
    | ⟨0, _⟩ =>
      show (((1 + 0) * 15 + (a.val * 16 + k.val) / 16 % 14) * 16 + (a.val * 16 + k.val) % 16) / 16 = 15 + a.val
      omega
    | ⟨1, _⟩ =>
      show (((1 + 0) * 15 + (a.val * 16 + k.val) / 16 % 14) * 16 + (a.val * 16 + k.val) % 16) % 16 = k.val
      omega))

end Cert.RefSide

end
-- ==== Proof.RefTail.lean ====
/-
  The end of the reference program: its result is the decoded array viewed as [32768, 15, 16] with, per batch, the
  first decoded row, the fourteen rows chosen between the two 14 × 16 blocks by their row maxima, and the last decoded
  row. The program's last eleven operations are, one for one, the operations that the two functions of the decode's
  end are made of, so the equation holds by unfolding both sides.
-/
import proofs.«128030_j52063593562852_2_alg».proof.Proof.RefRead
import proofs.«128030_j52063593562852_2_alg».proof.Proof.DecodeTail

noncomputable section

namespace Cert.RefTail

open Cert.ReferenceIdeal Cert.ReferenceIdeal.Gen Cert.ReferenceIdeal.ReadP Idealize.ShloMosaic

/-- The reference's first result is the decode's end applied to its decoded array and the block chosen between its two cuts. -/
theorem ref_final (x0 : (⟨S16384x16x96, .f32⟩ : BufTy).Contents (Elt Ideal)) (x1 : (⟨S245760x256, .f32⟩ : BufTy).Contents (Elt Ideal)) (x2 : (⟨S192x256, .f32⟩ : BufTy).Contents (Elt Ideal)) (x3 : (⟨S256, .f32⟩ : BufTy).Contents (Elt Ideal)) (x4 x5 : (⟨S256x768, .f32⟩ : BufTy).Contents (Elt Ideal)) (x6 x7 : (⟨S768, .f32⟩ : BufTy).Contents (Elt Ideal)) (x8 : (⟨S256x256, .f32⟩ : BufTy).Contents (Elt Ideal)) (x9 : (⟨S256, .f32⟩ : BufTy).Contents (Elt Ideal)) :
    val_main_v72 (F := Ideal) x0 x1 x2 x3 x4 x5 x6 x7 x8 x9
      = Cert.DecodeTail.finalOf slices_S32768x15x16_S16384x1x16_0_0_0 slices_S32768x15x16_S16384x1x16_0_14_0
          bcast_S14x16_S1x14x16_1_2 bcast_S1x14x16_S16384x14x16_0_1_2
          concatenates_S16384x1x16_S16384x14x16_S16384x1x16_S16384x16x16_d1
          (val_main_v58 (F := Ideal) x0 x1 x2 x3 x4 x5 x6 x7 x8 x9)
          (Cert.DecodeTail.midOf reducesTo_S14x16_S14_d1 h_S_ bcast_S14_S14x1_0 bcast_S14x1_S14x16_0_1
            (val_main_v60 (F := Ideal) x0 x1 x2 x3 x4 x5 x6 x7 x8 x9) (val_main_v62 (F := Ideal) x0 x1 x2 x3 x4 x5 x6 x7 x8 x9)) := by
  unfold val_main_v72 val_main_v71 val_main_v70 val_main_v69 val_main_v68 val_main_v67 val_main_call1_v0 val_main_v66
    val_main_v65 val_main_v64 val_main_v63 val_main_cst_6 val_main_cst_7 Cert.DecodeTail.finalOf Cert.DecodeTail.midOf
  generalize val_main_v58 (F := Ideal) x0 x1 x2 x3 x4 x5 x6 x7 x8 x9 = D
  generalize val_main_v60 (F := Ideal) x0 x1 x2 x3 x4 x5 x6 x7 x8 x9 = L
  generalize val_main_v62 (F := Ideal) x0 x1 x2 x3 x4 x5 x6 x7 x8 x9 = R
  rfl

end Cert.RefTail

end
-- ==== Proof.Bridge.lean ====
/-
  The bridge: the idealized kernel's two results are the reference's. The new hidden state is the specification's
  function of the arguments on both sides (the four converted weight matrices read as the matrices themselves, a
  change of format being the identity on the extended reals). For the first result both programs end with the same
  selection and concatenation over three operands, and the operands agree: the decode array viewed as
  [32768, 15, 16], and the two 14 × 16 blocks of decoded rows 1 … 14 and 15 … 28 — which the kernel's program recomputes
  from the first fifteen hidden rows and the reference cuts out of its full decode; a decoded row only reads its own
  hidden row.
-/
import proofs.«128030_j52063593562852_2_alg».proof.Proof.KernelIdealRun
import proofs.«128030_j52063593562852_2_alg».proof.Proof.RefRun
import proofs.«128030_j52063593562852_2_alg».proof.Proof.RefSide
import proofs.«128030_j52063593562852_2_alg».proof.Proof.RefTail
import proofs.«128030_j52063593562852_2_alg».proof.Defs
import proofs.«128030_j52063593562852_2_alg».proof.Proof.Gen.Pre_finite_inputs

set_option maxRecDepth 16384

noncomputable section

namespace Cert.Bridge

open Cert.KernelIdeal Cert.KernelIdeal.Gen Cert.KernelIdeal.Host Cert.KernelIdeal.Frame Cert.KernelIdeal.Arrays
open Cert.KernelIdeal.Tail Cert.KernelIdeal.Point Cert.KernelIdeal.ValueRun Cert.DecodeTail Cert.GruSpec
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ)

/-! ## The converted weights, as the region finds them -/

theorem V_main_v0 (c : Dev nD) : (V m c main_v0 : S192x256.Idx → EReal) = m ((c.tc : Thread nD τ).loc main_arg2) := by
  show StableHlo.after hostOps0 (fun b => m (c, b)) (Proc.devRef .tc main_v0) = _
  after_results
  rfl

theorem V_main_v1 (c : Dev nD) : (V m c main_v1 : S256x768.Idx → EReal) = m ((c.tc : Thread nD τ).loc main_arg4) := by
  show StableHlo.after hostOps0 (fun b => m (c, b)) (Proc.devRef .tc main_v1) = _
  after_results
  rfl

theorem V_main_v2 (c : Dev nD) : (V m c main_v2 : S256x768.Idx → EReal) = m ((c.tc : Thread nD τ).loc main_arg5) := by
  show StableHlo.after hostOps0 (fun b => m (c, b)) (Proc.devRef .tc main_v2) = _
  after_results
  rfl

theorem V_main_v3 (c : Dev nD) : (V m c main_v3 : S256x256.Idx → EReal) = m ((c.tc : Thread nD τ).loc main_arg8) := by
  show StableHlo.after hostOps0 (fun b => m (c, b)) (Proc.devRef .tc main_v3) = _
  after_results
  rfl

/-! ## The second result -/

/-- The new hidden state is the reference's. -/
theorem hp_eq (c : Dev nD) : HP m c = Cert.ReferenceIdeal.ReadP.val_main_v46 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  funext i
  obtain ⟨n, j, rfl⟩ : ∃ (n : Fin 245760) (j : Fin 256), i = ix2 n j := ⟨i 0, i 1, eq_ix2 i⟩
  rw [Cert.RefSide.ref_hp]
  show hpAt (V m c main_arg0) (V m c main_arg1) (V m c main_v0) (V m c main_arg3) (V m c main_v1) (V m c main_v2)
      (V m c main_arg6) (V m c main_arg7) n j = _
  rw [V_main_arg0 m c, V_main_arg1 m c, V_main_arg3 m c, V_main_arg6 m c, V_main_arg7 m c, V_main_v0 m c, V_main_v1 m c, V_main_v2 m c]

/-! ## The first result's three operands -/

/-- The decode array viewed as [32768, 15, 16]. -/
theorem dec_eq (c : Dev nD) : kv6 (DEC m c) = Cert.ReferenceIdeal.ReadP.val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  funext i
  obtain ⟨p, q, k, rfl⟩ : ∃ (p : Fin 32768) (q : Fin 15) (k : Fin 16), i = ix3 p q k := ⟨i 0, i 1, i 2, eq_ix3 i⟩
  have hp := p.isLt
  have hq := q.isLt
  have hk := k.isLt
  rw [kv6_apply, Cert.RefSide.ref_v58, Cert.RefSide.ref_dec2]
  unfold DEC
  rw [hp_eq m c, V_main_v3 m c, V_main_arg9 m c]
  exact congrArg (decAt _ _ _ _ _) (Fin.ext (by
    show (16 * ((15 * p.val + q.val) % 2) + k.val) % 2 = k.val % 2
    omega))

/-- Decoded rows 1 … 14. -/
theorem left_eq (c : Dev nD) : kv21 (HP m c) (V m c main_arg8) (V m c main_arg9) = Cert.ReferenceIdeal.ReadP.val_main_v60 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  funext i
  obtain ⟨a, k, rfl⟩ : ∃ (a : Fin 14) (k : Fin 16), i = ix2 a k := ⟨i 0, i 1, eq_ix2 i⟩
  rw [kv21_apply, kv18_apply, Cert.RefSide.ref_v60, Cert.RefSide.ref_dec2, hp_eq m c, V_main_arg8 m c, V_main_arg9 m c]
  exact decAt_row _ _ _ _ _ _ _ _ (fun _ => rfl)

/-- Decoded rows 15 … 28. -/
theorem right_eq (c : Dev nD) : kv23 (HP m c) (V m c main_arg8) (V m c main_arg9) = Cert.ReferenceIdeal.ReadP.val_main_v62 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  funext i
  obtain ⟨a, k, rfl⟩ : ∃ (a : Fin 14) (k : Fin 16), i = ix2 a k := ⟨i 0, i 1, eq_ix2 i⟩
  rw [kv23_apply, kv18_apply, Cert.RefSide.ref_v62, Cert.RefSide.ref_dec2, hp_eq m c, V_main_arg8 m c, V_main_arg9 m c]
  exact decAt_row _ _ _ _ _ _ _ _ (fun _ => rfl)

/-- The first result is the reference's. -/
theorem final_eq (c : Dev nD) :
    finalOf slices_S32768x15x16_S16384x1x16_0_0_0 slices_S32768x15x16_S16384x1x16_0_14_0 bcast_S14x16_S1x14x16_1_2 bcast_S1x14x16_S16384x14x16_0_1_2 concatenates_S16384x1x16_S16384x14x16_S16384x1x16_S16384x16x16_d1
        (kv6 (DEC m c)) (midOf reducesTo_S14x16_S14_d1 h_S_ bcast_S14_S14x1_0 bcast_S14x1_S14x16_0_1
          (kv21 (HP m c) (V m c main_arg8) (V m c main_arg9)) (kv23 (HP m c) (V m c main_arg8) (V m c main_arg9)))
      = Cert.ReferenceIdeal.ReadP.val_main_v72 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [Cert.RefTail.ref_final, dec_eq m c, left_eq m c, right_eq m c]

/-! ## The claim -/

/-- From memories agreeing on the arguments both idealized programs run, end with equal results and leave their
    arguments unchanged. -/
theorem algebraic : Cert.algebraic_KernelIdeal_ReferenceIdeal := by
  intro m ρ m' ρ' _ hagree
  refine ⟨fun c => Cert.ReferenceIdeal.ReadP.val_main_v72 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)), fun c => Cert.ReferenceIdeal.ReadP.val_main_v46 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)), ?_, ?_⟩
  · refine (θ_run Cert.KernelIdeal.defs _ _).mono (fun r h c => ?_) (Cert.KernelIdeal.ValueRun.run m ρ)
    obtain ⟨h33, h40, k0, k1, k2, k3, k4, k5, k6, k7, k8, k9⟩ := h c
    exact ⟨h33.trans (final_eq m c), h40.trans (hp_eq m c), k0, k1, k2, k3, k4, k5, k6, k7, k8, k9⟩
  · refine (θ_run Cert.ReferenceIdeal.defs _ _).mono (fun r h c => ?_) (Cert.ReferenceIdeal.RunP.run (F := Ideal) m' ρ')
    obtain ⟨h72, h46, k0, k1, k2, k3, k4, k5, k6, k7, k8, k9⟩ := h c
    obtain ⟨a0, a1, a2, a3, a4, a5, a6, a7, a8, a9⟩ := hagree c
    refine ⟨?_, ?_, k0, k1, k2, k3, k4, k5, k6, k7, k8, k9⟩
    · rw [h72, a0, a1, a2, a3, a4, a5, a6, a7, a8, a9]
    · rw [h46, a0, a1, a2, a3, a4, a5, a6, a7]

end Cert.Bridge

end
-- ==== Proof.lean ====
/-
  The certificate of one fused pallas_call — pair construction, a dense layer with ReLU, a GRU cell, a dense head and
  the decode of its 16 × 16 action grid into row and column maxima — against its jnp reference, over the extended reals.
  Both programs compute, row by row of the 245760 pair rows, the same dense layers, the same cell and the same maxima
  (Proof/GruSpec.lean); the kernel tiles the rows 960 at a time, builds the pair rows from a static table of agent
  indices that reproduces the reference's stack-and-reshape, and recomputes the first fifteen rows' decode on the host
  where the reference cuts it out of the full decode. Each frame is the program's run with the results dropped; the
  idealization rewrote nothing; the value claim is Proof/Bridge.lean.
-/
import proofs.«128030_j52063593562852_2_alg».proof.Defs
import proofs.«128030_j52063593562852_2_alg».proof.Proof.Gen.Kernel
import proofs.«128030_j52063593562852_2_alg».proof.Proof.Gen.KernelIdeal
import proofs.«128030_j52063593562852_2_alg».proof.Proof.Gen.ReferenceIdeal
import proofs.«128030_j52063593562852_2_alg».proof.Proof.Gen.Pre_finite_inputs
import proofs.«128030_j52063593562852_2_alg».proof.Proof.KernelFrame
import proofs.«128030_j52063593562852_2_alg».proof.Proof.KernelIdealFrame
import proofs.«128030_j52063593562852_2_alg».proof.Proof.RefRun
import proofs.«128030_j52063593562852_2_alg».proof.Proof.Bridge

noncomputable section

namespace Cert.Proof

open Idealize.ShloMosaic Idealize.SL.Sem

theorem frame_kernel : Cert.frame_Kernel := fun m ρ _ => Cert.Kernel.Frame.frame m ρ

theorem frame_kernelIdeal : Cert.frame_KernelIdeal := fun m ρ _ => Cert.KernelIdeal.Frame.frame m ρ

theorem frame_referenceIdeal : Cert.frame_ReferenceIdeal := fun m ρ _ =>
  (θ_run Cert.ReferenceIdeal.defs _ _).mono (fun _ h c => (h c).2.2) (Cert.ReferenceIdeal.RunP.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, Cert.Bridge.algebraic⟩

end Cert.Proof

end
